-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S4x4096x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S4x4096x512 : Shape := ⟨3, ![4, 4096, 512]⟩
abbrev S512x512 : Shape := ⟨2, ![512, 512]⟩
abbrev S512 : Shape := ⟨1, ![512]⟩
abbrev S16384x512 : Shape := ⟨2, ![16384, 512]⟩
abbrev S1024x512 : Shape := ⟨2, ![1024, 512]⟩
abbrev S1x512 : Shape := ⟨2, ![1, 512]⟩
abbrev S1x512x512 : Shape := ⟨3, ![1, 512, 512]⟩
abbrev S512x1 : Shape := ⟨2, ![512, 1]⟩

abbrev nBuf : Space → Nat
  | .hbm => 17
  | .vmem => 27
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S16384x512, .f32⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S4x4096x512, .bf16⟩
  | .hbm, ⟨14, _⟩ => ⟨S4x4096x512, .bf16⟩
  | .hbm, ⟨15, _⟩ => ⟨S4x4096x512, .bf16⟩
  | .hbm, ⟨16, _⟩ => ⟨S4x4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S512x512, .f32⟩
  | .local _ .vmem, ⟨21, _⟩ => ⟨S512, .f32⟩
  | .local _ .vmem, ⟨22, _⟩ => ⟨S1x512x512, .f32⟩
  | .local _ .vmem, ⟨23, _⟩ => ⟨S1x512x512, .f32⟩
  | .local _ .vmem, ⟨24, _⟩ => ⟨S512x1, .f32⟩
  | .local _ .vmem, ⟨25, _⟩ => ⟨S512x1, .f32⟩
  | .local _ .vmem, ⟨26, _⟩ => ⟨S512x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x4096x512_S16384x512 : S4x4096x512.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S16384x512_S4x4096x512 : S16384x512.ShapeCasts S4x4096x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  shapeCasts_S512x512_S1x512x512 : S512x512.ShapeCasts S1x512x512
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .bf16 = 32 ∨ (Rect.block (s := S16384x512) S1024x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .bf16 = 32 ∨ (Rect.block (s := S16384x512) S1024x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .bf16 = 32 ∨ (Rect.block (s := S16384x512) S1024x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S4x4096x512.size a
  hwx1_0 : ∀ i : grid1.Coords, EltTy.bits .bf16 = 32 ∨ (Rect.block (s := S4x4096x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S4x4096x512.size a
  hwx1_1 : ∀ i : grid1.Coords, EltTy.bits .bf16 = 32 ∨ (Rect.block (s := S4x4096x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x4096x512.size a
  hwx1_2 : ∀ i : grid1.Coords, EltTy.bits .bf16 = 32 ∨ (Rect.block (s := S4x4096x512) S1x512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x512.size a ≤ S4x4096x512.size a
  hwx1_5 : ∀ i : grid1.Coords, EltTy.bits .f32 = 32 ∨ (Rect.block (s := S4x4096x512) S1x512x512.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_2) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v2) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x4096x512 : Shape := ⟨3, ![4, 4096, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S4x4096x512, .f32⟩
  | .hbm, ⟨10, _⟩ => ⟨S1x1x512, .f32⟩
  | .hbm, ⟨11, _⟩ => ⟨S4x4096x512, .f32⟩
  | .hbm, ⟨12, _⟩ => ⟨S4x4096x512, .f32⟩
  | .hbm, ⟨13, _⟩ => ⟨S4x4096x512, .f32⟩
  | .hbm, ⟨14, _⟩ => ⟨S1x1x512, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S1x1x512, .f32⟩
  | .hbm, ⟨19, _⟩ => ⟨S4x4096x512, .f32⟩
  | .hbm, ⟨20, _⟩ => ⟨S4x4096x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x512, .f32⟩
  | .hbm, ⟨43, _⟩ => ⟨S4x4096x512, .f32⟩
  | .hbm, ⟨44, _⟩ => ⟨S1x1x512, .f32⟩
  | .hbm, ⟨45, _⟩ => ⟨S4x4096x512, .f32⟩
  | .hbm, ⟨46, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S512x512_S4x4096x512_2_0_01_1_n_n_wf : DotDims.WF S4x4096x512 S512x512 S4x4096x512 [2] [0] [0, 1] [1] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_0_01_1_n_n : DotDims S4x4096x512 S512x512 S4x4096x512 where
  lhsContracting := [2]
  rhsContracting := [0]
  lhsNonContracting := [0, 1]
  rhsNonContracting := [1]
  lhsBatch := []
  rhsBatch := []
  wf := dot_S4x4096x512_S512x512_S4x4096x512_2_0_01_1_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.KR0Body.lean ====
/-
  The first pallas_call (the three projections), at any float instance and any contents `V` of the core's buffers at the
  region's entry. A grid point t handles 1024 rows of the input: its block of x, the three weight matrices and the three
  bias rows whole. The body loads them, and stores into each of the three output blocks the projection of the rows by one
  weight matrix plus its bias (as one whole-block store each). Stated here: what each output's staging buffer holds after
  the body as a function of the seven input blocks, that the body run on buffers holding those blocks ends with exactly
  that, and the per-point obligation the pipelined launch asks for.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rA : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S512 := Rect.unit (s := S512) ![0] S512.size inb_S512_S512_0

/-- The q output's staging buffer after the body: one whole-block store of the projection. -/
def out0_7 (x0 : Vec F S1024x512 .f32) (x1 : Vec F S512x512 .f32) (x2 : Vec F S512 .f32) : Vec F S1024x512 .bf16 :=
  View.canon [⟨rA, k0_pay2 (View.ld x0 rA) (View.ld x1 rW) (View.ld x2 rB)⟩]
/-- The k output's. -/
def out0_8 (x0 : Vec F S1024x512 .f32) (x3 : Vec F S512x512 .f32) (x4 : Vec F S512 .f32) : Vec F S1024x512 .bf16 :=
  View.canon [⟨rA, k0_pay3 (View.ld x0 rA) (View.ld x3 rW) (View.ld x4 rB)⟩]
/-- The v output's. -/
def out0_9 (x0 : Vec F S1024x512 .f32) (x5 : Vec F S512x512 .f32) (x6 : Vec F S512 .f32) : Vec F S1024x512 .bf16 :=
  View.canon [⟨rA, k0_pay4 (View.ld x0 rA) (View.ld x5 rW) (View.ld x6 rB)⟩]

/-- One whole-block store covers the block. -/
theorem cover0 (p0 : Vec F S1024x512 .bf16) (y : S1024x512.Idx) :
    ∃ pc ∈ ([⟨rA, p0⟩] : List (View.Piece (Elt F) S1024x512 .bf16)), y ∈ pc.1.set :=
  View.cover_of_tiled [⟨rA, p0⟩] S1024x512.size (by rfl) y

set_option maxHeartbeats 4000000 in
/-- The body on whole staging buffers, the seven inputs' at known contents and the three outputs' at anything, runs to a
    state with the inputs as they were and each output's buffer at its projection. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S512x512 .f32) (harg4 : arg4.IsWhole)
    (arg5 : Memref sig .tc .vmem S512 .f32) (harg5 : arg5.IsWhole) (arg6 : Memref sig .tc .vmem S512x512 .f32) (harg6 : arg6.IsWhole)
    (arg7 : Memref sig .tc .vmem S512 .f32) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .f32) (x2 : Vec F S512 .f32) (x3 : Vec F S512x512 .f32) (x4 : Vec F S512 .f32)
    (x5 : Vec F S512x512 .f32) (x6 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E (cc0__linear_qkv_kernel i arg1 harg1 arg2 harg2 arg3 harg3 arg4 harg4 arg5 harg5 arg6 harg6 arg7 harg7 arg8 harg8 arg9 harg9 arg10 harg10) K := by
  simp only [cc0__linear_qkv_kernel_eq_skeleton]; unfold cc0__linear_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

end Region0

end Cert.Kernel.Hand

end
-- ==== Proof.KR0.lean ====
/-
  The proof data of the first pallas_call and its per-point obligation: the arrays are the contents the region is entered
  with; after the body at a point every input's staging buffer still holds its block and each of the three outputs' holds
  its projection of the point's 1024 rows; the region keeps nothing between points beyond what the launch itself holds.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import proofs.«145638_j28441273434636_2_alg».proof.Proof.KR0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- The body at any point: the inputs' buffers hold their blocks, so the body's run applies; the region's invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KR1Runs.lean ====
/-
  The second pallas_call (flash attention with the output projection), what its three cases share. A grid point is
  (batch, query tile, key tile); the body keeps three scratch buffers between points — the running maximum m, the running
  sum l and the running weighted sum acc of the query tile's 512 rows — which it resets at key tile 0, updates at every
  key tile, and at key tile 7 divides and projects into the output block. So a point is in one of three cases: the
  first key tile (reset, update), a middle one (update), the last (update, finish). Stated here: the blocks, the two branch
  conditions in closed form over the grid, where the output window is idle, and the launch's scoped rest split into the
  first call's staging buffers (untouched here) and the three scratch buffers.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-- The body resets its scratch: the key tile is the first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body finishes the query tile: the key tile is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last key tile nothing is stored into the output block and it is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- Each window's current staging buffer at point `t`, spelled as the pipeline passes it, and its wholeness. -/
abbrev ms1_0 (t : Fin cfg1.N) : Memref sig .tc .vmem S1x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x512 .f32 := win1_5.stage (cfg1.slots t 5)
abbrev hs1_5 (t : Fin cfg1.N) : (ms1_5 t).IsWhole := hstage1_5 ((cfg1.slots t 5).cast nbuf1_5)
/-- The scratch operands: the running maximum, the running sum, the running weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2
abbrev VS1_0 : View sig .tc .vmem S512x1 .f32 := scM1_0.view
abbrev VS1_1 : View sig .tc .vmem S512x1 .f32 := scM1_1.view
abbrev VS1_2 : View sig .tc .vmem S512x512 .f32 := scM1_2.view
abbrev VO1_5 : View sig .tc .vmem S1x512x512 .f32 := (Memref.whole cc1_stg5_0 : Memref sig .tc .vmem S1x512x512 .f32).view

/-- The first call's staging buffers, each whole at some contents: scoped buffers this region never touches. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The launch's scoped rest is those buffers beside the three scratch buffers at some contents; -/
theorem scoped_split (c : Dev nD) :
    (Pipeline.scopedRest (Ix := Unit) (Name := ℕ) (U := UR sig nD τ) (Lvl := ℕ) (Val := Elt F) spec1 c : sProp 𝕄)
      ⊢ iprop(stgRest (F := F) c ∗ (∃ d, owns (c : Thread nD τ) scM1_0 fullShare d) ∗ (∃ d, owns (c : Thread nD τ) scM1_1 fullShare d) ∗ (∃ d, owns (c : Thread nD τ) scM1_2 fullShare d)) := by
  rw [scopedRest1_eq]; unfold stgRest; simp only [scM1_0, scM1_1, scM1_2, owns_whole]
  iintro ⟨Ha0, Ha1, Ha2, Ha3, Ha4, Ha5, Ha6, Ha7, Ha8, Ha9, Ha10, Ha11, Ha12, Ha13, HS0, HS1, HS2⟩
  isplitl [Ha0 Ha1 Ha2 Ha3 Ha4 Ha5 Ha6 Ha7 Ha8 Ha9 Ha10 Ha11 Ha12 Ha13]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    iexact Ha13
  isplitl [HS0]; · iexact HS0
  isplitl [HS1]; · iexact HS1
  iexact HS2

/-- and conversely. -/
theorem scoped_join (c : Dev nD) :
    iprop(stgRest (F := F) c ∗ (∃ d, owns (c : Thread nD τ) scM1_0 fullShare d) ∗ (∃ d, owns (c : Thread nD τ) scM1_1 fullShare d) ∗ (∃ d, owns (c : Thread nD τ) scM1_2 fullShare d))
      ⊢ (Pipeline.scopedRest (Ix := Unit) (Name := ℕ) (U := UR sig nD τ) (Lvl := ℕ) (Val := Elt F) spec1 c : sProp 𝕄) := by
  rw [scopedRest1_eq]; unfold stgRest; simp only [scM1_0, scM1_1, scM1_2, owns_whole]
  iintro ⟨⟨Ha0, Ha1, Ha2, Ha3, Ha4, Ha5, Ha6, Ha7, Ha8, Ha9, Ha10, Ha11, Ha12, Ha13⟩, HS0, HS1, HS2⟩
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [Ha12]; · iexact Ha12
  isplitl [Ha13]; · iexact Ha13
  isplitl [HS0]; · iexact HS0
  isplitl [HS1]; · iexact HS1
  iexact HS2

end Cert.Kernel.Hand

end
-- ==== Proof.KR1RunA.lean ====
/-
  The flash-attention body run in the case of the first key tile: the scratch is reset, then updated; nothing is stored into the output block. The run is symbolic: on whole staging
  buffers at known contents it reaches the continuation with the inputs as they were and every buffer it stored into holding
  the list of pieces its stores wrote, which the run itself finds.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import proofs.«145638_j28441273434636_2_alg».proof.Proof.KR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_A (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) :
    Σ' (L5 : List (View.Piece (Elt F) S1x512x512 .f32)) (LS0 : List (View.Piece (Elt F) S512x1 .f32)) (LS1 : List (View.Piece (Elt F) S512x1 .f32)), { LS2 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_wo_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_wo_kernel_eq_skeleton]; unfold cc1__flash_wo_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.KR1RunB.lean ====
/-
  The flash-attention body run in the case of a middle key tile: the scratch is updated from what the point before left; nothing is stored into the output block. The run is symbolic: on whole staging
  buffers at known contents it reaches the continuation with the inputs as they were and every buffer it stored into holding
  the list of pieces its stores wrote, which the run itself finds.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import proofs.«145638_j28441273434636_2_alg».proof.Proof.KR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_B (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    Σ' (L5 : List (View.Piece (Elt F) S1x512x512 .f32)) (LS0 : List (View.Piece (Elt F) S512x1 .f32)) (LS1 : List (View.Piece (Elt F) S512x1 .f32)), { LS2 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_wo_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_wo_kernel_eq_skeleton]; unfold cc1__flash_wo_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.KR1RunC.lean ====
/-
  The flash-attention body run in the case of the last key tile: the scratch is updated from what the point before left, then the output block is stored. The run is symbolic: on whole staging
  buffers at known contents it reaches the continuation with the inputs as they were and every buffer it stored into holding
  the list of pieces its stores wrote, which the run itself finds.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import proofs.«145638_j28441273434636_2_alg».proof.Proof.KR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_C (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    Σ' (L5 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_wo_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_wo_kernel_eq_skeleton]; unfold cc1__flash_wo_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Hand

end
-- ==== Proof.KR1Body.lean ====
/-
  The flash-attention pallas_call point by point. What the output block's staging buffer and the three scratch buffers
  hold after the body at the n-th point is defined by recursion on n: the case the point is in (first, middle or last key
  tile), run on the point's blocks and, after the first key tile, on what the point before left in the scratch. The region's
  invariant between points is the scratch at exactly those contents; the proof data name the output block by the same
  recursion; and the per-point obligation is the case's run.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import proofs.«145638_j28441273434636_2_alg».proof.Proof.KR1RunA
import proofs.«145638_j28441273434636_2_alg».proof.Proof.KR1RunB
import proofs.«145638_j28441273434636_2_alg».proof.Proof.KR1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.1 S512x1.size (by sl_kernel_rfl) y
def sout1_A_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4).2.1)
theorem scover1_A_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.1 S512x1.size (by sl_kernel_rfl) y
def sout1_A_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3 x4).2.2.1)
theorem scover1_A_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (y : S512x512.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.2.1 S512x512.size (by sl_kernel_rfl) y
def sout1_A_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) : Vec F S512x512 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3 x4).2.2.2.1)
def out1_A_5 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) : Vec F S1x512x512 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 hc0 hc1 x0 x1 x2 x3 x4).1)
theorem scover1_B_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.1 S512x1.size (by sl_kernel_rfl) y
def sout1_B_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 xs0 xs1 xs2).2.1)
theorem scover1_B_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.1 S512x1.size (by sl_kernel_rfl) y
def sout1_B_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.1)
theorem scover1_B_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x512.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 S512x512.size (by sl_kernel_rfl) y
def sout1_B_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x512 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1)
def out1_B_5 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S1x512x512 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 hc0 hc1 x0 x1 x2 x3 x4 xs0 xs1 xs2).1)
theorem scover1_C_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.1 S512x1.size (by sl_kernel_rfl) y
def sout1_C_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 xs0 xs1 xs2).2.1)
theorem scover1_C_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.1 S512x1.size (by sl_kernel_rfl) y
def sout1_C_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.1)
theorem scover1_C_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 S512x512.size (by sl_kernel_rfl) y
def sout1_C_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x512 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1)
theorem cover1_C_5 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S1x512x512.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).1 S1x512x512.size (by sl_kernel_rfl) y
def out1_C_5 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S1x512x512 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 x4 xs0 xs1 xs2).1)

section Region1
variable (V : (c : Dev nD) → (b : Ref sig .tc) → Buf (Elt F) ((c : Thread nD τ).loc b))

/-- What the output block's buffer and the scratch (maximum, sum, weighted sum) hold after the body at position `n`. -/
def outsAt1 (c : Dev nD) : (n : ℕ) → n < cfg1.N → Vec F S1x512x512 .f32 × Vec F S512x1 .f32 × Vec F S512x1 .f32 × Vec F S512x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the first call's staging buffers at anything, the scratch at anything
    before the first point and afterwards at what the point before left, the generator register at some state. -/
def PhiS1 (c : Dev nD) : (n : ℕ) → n ≤ cfg1.N → sProp 𝕄
  | 0, _ => iprop((stgRest (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r))
  | n + 1, hn => iprop((stgRest (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = iprop((stgRest (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  subst hz; rfl
theorem PhiS1_succ (c : Dev nD) (n : ℕ) (hn : n < cfg1.N) :
    PhiS1 V c (n + 1) hn = iprop((stgRest (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS1_pos (c : Dev nD) (n : ℕ) (h : n ≤ cfg1.N) (hz : n ≠ 0) :
    PhiS1 V c n h = iprop((stgRest (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Region1

end Cert.Kernel.Hand

end
-- ==== Proof.KR1Oblig.lean ====
/-
  The per-point obligation of the flash-attention pallas_call: at every grid point the inputs' staging buffers hold
  their blocks; the closed forms of the two conditions say which case the point is in; the invariant hands the body the
  scratch at what the point before left (at anything before the very first point, and the first-key-tile case does not
  care) and takes it back at this point's contents; the output block's buffer is handed back untouched except at the
  last key tile, where it holds the case's stores.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import proofs.«145638_j28441273434636_2_alg».proof.Proof.KR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 8 = 0
  · by_cases h1 : t.val % 8 = 7
    · exfalso; omega
    · -- the first key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨⟨⟨Hstg, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [Hstg HS0 HS1 HS2 Hg]
        · isplitl [Hstg HS0 HS1 HS2]
          · isplitl [Hstg]; · iexact Hstg
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨Hstg, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [Hstg HS0 HS1 HS2 Hg]
        · isplitl [Hstg HS0 HS1 HS2]
          · isplitl [Hstg]; · iexact Hstg
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- the last key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1 sout1_C_2; (try dsimp only)
      have hz : t.val ≠ 0 := by omega
      rw [PhiS1_castSucc V c t, PhiS1_pos V c _ _ hz]
      iintro ⟨⟨⟨Hstg, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [Hstg HS0 HS1 HS2 Hg]
      · isplitl [Hstg HS0 HS1 HS2]
        · isplitl [Hstg]; · iexact Hstg
          isplitl [HS0]
          · unfold owns; iexists _; isplitr
            swap; · iexact HS0
            ipureintro; exact View.read_writes_of_cover _ _ _ _ _ (scover1_C_0 _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 _ _ _ _ _ _ _ _ _ _ _ _ _ _ _ _ _ _ _ _ _ _ _ _ _ _ _ _ _ _)
    · -- a middle key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1 sout1_B_2; (try dsimp only)
      have hz : t.val ≠ 0 := by omega
      rw [PhiS1_castSucc V c t, PhiS1_pos V c _ _ hz]
      iintro ⟨⟨⟨Hstg, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hstg HS0 HS1 HS2 Hg]
      · isplitl [Hstg HS0 HS1 HS2]
        · isplitl [Hstg]; · iexact Hstg
          isplitl [HS0]
          · unfold owns; iexists _; isplitr
            swap; · iexact HS0
            ipureintro; exact View.read_writes_of_cover _ _ _ _ _ (scover1_B_0 _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region — its scoped rest and the generator register — is the invariant before the first point. -/
theorem phi_in1 (c : Dev nD) :
    iprop((Pipeline.scopedRest (Ix := Unit) (Name := ℕ) (U := UR sig nD τ) (Lvl := ℕ) (Val := Elt F) spec1 c : sProp 𝕄) ∗ (∃ r, prngReg c r)) ⊢ (dat1 V c).Φ 0 := by
  rw [show (dat1 V c).Φ 0 = PhiS1 V c 0 (Nat.zero_le _) from rfl, PhiS1_zero V c 0 _ rfl]
  iintro ⟨Hs, Hg⟩
  isplitl [Hs]
  · iapply (scoped_split (F := F) c); iexact Hs
  iexact Hg

/-- At any position but the first the invariant gives both back: the scratch's named contents are forgotten. -/
theorem phi_out1_at (c : Dev nD) (t : Fin (cfg1.N + 1)) (ht : t.val ≠ 0) :
    (dat1 V c).Φ t ⊢ iprop((Pipeline.scopedRest (Ix := Unit) (Name := ℕ) (U := UR sig nD τ) (Lvl := ℕ) (Val := Elt F) spec1 c : sProp 𝕄) ∗ (∃ r, prngReg c r)) := by
  rw [show (dat1 V c).Φ t = PhiS1 V c t.val (Nat.le_of_lt_succ t.isLt) from by dsimp only [dat1], PhiS1_pos V c _ _ ht]
  iintro ⟨⟨Hstg, HS0, HS1, HS2⟩, Hg⟩
  isplitl [Hstg HS0 HS1 HS2]
  · iapply (scoped_join (F := F) c)
    isplitl [Hstg]; · iexact Hstg
    isplitl [HS0]; · iexists _; iexact HS0
    isplitl [HS1]; · iexists _; iexact HS1
    iexists _; iexact HS2
  iexact Hg

/-- The same after the last point. -/
theorem phi_out1 (c : Dev nD) :
    (dat1 V c).Φ (Fin.last cfg1.N) ⊢ iprop((Pipeline.scopedRest (Ix := Unit) (Name := ℕ) (U := UR sig nD τ) (Lvl := ℕ) (Val := Elt F) spec1 c : sProp 𝕄) ∗ (∃ r, prngReg c r)) :=
  phi_out1_at V c _ (by rw [Fin.val_last]; have : cfg1.N = 256 := N_1; omega)

end Region1

end Cert.Kernel.Hand

end
-- ==== Proof.KRun.lean ====
/-
  The whole program as four stretches — a reshape of the input, the projections' pallas_call, three reshapes, the
  flash-attention pallas_call — and the contents of the core's buffers at each boundary: a host stretch applies its
  operations; a pallas_call leaves in each of its arrays what its write-backs leave and every other buffer as it was.
  Every weakly fair execution terminates with every unscoped buffer at the last boundary's contents; no stretch writes an
  argument, so each argument ends as launched.
-/
import proofs.«145638_j28441273434636_2_alg».proof.Proof.Gen.Kernel.Launch
import proofs.«145638_j28441273434636_2_alg».proof.Proof.Gen.Kernel.Skeleton
import proofs.«145638_j28441273434636_2_alg».proof.Proof.Gen.Kernel.Points
import proofs.«145638_j28441273434636_2_alg».proof.Proof.KR0
import proofs.«145638_j28441273434636_2_alg».proof.Proof.KR1Oblig
import proofs.«145638_j28441273434636_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- After the reshape of the input (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three reshapes (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! The arguments end as launched. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 3).trans (((dat0 (V1 m) c).arrAt_in 3 rfl _).trans (A_eq0 (V1 m) c 3))
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 5).trans (((dat0 (V1 m) c).arrAt_in 5 rfl _).trans (A_eq0 (V1 m) c 5))
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := (W2_arr m c 6).trans (((dat0 (V1 m) c).arrAt_in 6 rfl _).trans (A_eq0 (V1 m) c 6))
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := (W4_arr m c 3).trans (((dat1 (V3 m) c).arrAt_in 3 rfl _).trans (A_eq1 (V3 m) c 3))
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := (W4_arr m c 4).trans (((dat1 (V3 m) c).arrAt_in 4 rfl _).trans (A_eq1 (V3 m) c 4))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every stretch: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (phi_in1 (V3 m) c)
    isplitl [Hr]; · iexact Hr
    iexact Hp
  hout c := by
    rw [Pipeline.ownSems0_none, show (pdats m 1 c).Φ (Fin.last _) = (dat1 (V3 m) c).Φ (Fin.last cfg1.N) from rfl]
    iintro H
    ihave H' := (phi_out1 (V3 m) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: every weakly fair execution of the program terminates, nothing faulting, and every final state holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_all m ρ)

/-- The result buffer ends at what the flash-attention call's write-backs leave in it. -/
theorem result_at (c : Dev nD) : W4 m c (Proc.devRef .tc main_v5) = (dat1 (V3 m) c).arrAt 5 cfg1.N :=
  W4_arr m c 5

end Cert.Kernel.Hand

end
-- ==== Proof.R0Body.lean ====
/-
  The first pallas_call (the three projections), at any float instance and any contents `V` of the core's buffers at the
  region's entry. A grid point t handles 1024 rows of the input: its block of x, the three weight matrices and the three
  bias rows whole. The body loads them, and stores into each of the three output blocks the projection of the rows by one
  weight matrix plus its bias (as one whole-block store each). Stated here: what each output's staging buffer holds after
  the body as a function of the seven input blocks, that the body run on buffers holding those blocks ends with exactly
  that, and the per-point obligation the pipelined launch asks for.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rA : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S512 := Rect.unit (s := S512) ![0] S512.size inb_S512_S512_0

/-- The q output's staging buffer after the body: one whole-block store of the projection. -/
def out0_7 (x0 : Vec F S1024x512 .f32) (x1 : Vec F S512x512 .f32) (x2 : Vec F S512 .f32) : Vec F S1024x512 .bf16 :=
  View.canon [⟨rA, k0_pay2 (View.ld x0 rA) (View.ld x1 rW) (View.ld x2 rB)⟩]
/-- The k output's. -/
def out0_8 (x0 : Vec F S1024x512 .f32) (x3 : Vec F S512x512 .f32) (x4 : Vec F S512 .f32) : Vec F S1024x512 .bf16 :=
  View.canon [⟨rA, k0_pay3 (View.ld x0 rA) (View.ld x3 rW) (View.ld x4 rB)⟩]
/-- The v output's. -/
def out0_9 (x0 : Vec F S1024x512 .f32) (x5 : Vec F S512x512 .f32) (x6 : Vec F S512 .f32) : Vec F S1024x512 .bf16 :=
  View.canon [⟨rA, k0_pay4 (View.ld x0 rA) (View.ld x5 rW) (View.ld x6 rB)⟩]

/-- One whole-block store covers the block. -/
theorem cover0 (p0 : Vec F S1024x512 .bf16) (y : S1024x512.Idx) :
    ∃ pc ∈ ([⟨rA, p0⟩] : List (View.Piece (Elt F) S1024x512 .bf16)), y ∈ pc.1.set :=
  View.cover_of_tiled [⟨rA, p0⟩] S1024x512.size (by rfl) y

set_option maxHeartbeats 4000000 in
/-- The body on whole staging buffers, the seven inputs' at known contents and the three outputs' at anything, runs to a
    state with the inputs as they were and each output's buffer at its projection. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S512 .f32) (harg3 : arg3.IsWhole) (arg4 : Memref sig .tc .vmem S512x512 .f32) (harg4 : arg4.IsWhole)
    (arg5 : Memref sig .tc .vmem S512 .f32) (harg5 : arg5.IsWhole) (arg6 : Memref sig .tc .vmem S512x512 .f32) (harg6 : arg6.IsWhole)
    (arg7 : Memref sig .tc .vmem S512 .f32) (harg7 : arg7.IsWhole) (arg8 : Memref sig .tc .vmem S1024x512 .bf16) (harg8 : arg8.IsWhole)
    (arg9 : Memref sig .tc .vmem S1024x512 .bf16) (harg9 : arg9.IsWhole) (arg10 : Memref sig .tc .vmem S1024x512 .bf16) (harg10 : arg10.IsWhole)
    (x0 : Vec F S1024x512 .f32) (x1 : Vec F S512x512 .f32) (x2 : Vec F S512 .f32) (x3 : Vec F S512x512 .f32) (x4 : Vec F S512 .f32)
    (x5 : Vec F S512x512 .f32) (x6 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2) ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E (cc0__linear_qkv_kernel i arg1 harg1 arg2 harg2 arg3 harg3 arg4 harg4 arg5 harg5 arg6 harg6 arg7 harg7 arg8 harg8 arg9 harg9 arg10 harg10) K := by
  simp only [cc0__linear_qkv_kernel_eq_skeleton]; unfold cc0__linear_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

end Region0

end Cert.KernelIdeal.Hand

end
-- ==== Proof.R0.lean ====
/-
  The proof data of the first pallas_call and its per-point obligation: the arrays are the contents the region is entered
  with; after the body at a point every input's staging buffer still holds its block and each of the three outputs' holds
  its projection of the point's 1024 rows; the region keeps nothing between points beyond what the launch itself holds.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 2000000 in
/-- The body at any point: the inputs' buffers hold their blocks, so the body's run applies; the region's invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Runs.lean ====
/-
  The second pallas_call (flash attention with the output projection), what its three cases share. A grid point is
  (batch, query tile, key tile); the body keeps three scratch buffers between points — the running maximum m, the running
  sum l and the running weighted sum acc of the query tile's 512 rows — which it resets at key tile 0, updates at every
  key tile, and at key tile 7 divides and projects into the output block. So a point is in one of three cases: the
  first key tile (reset, update), a middle one (update), the last (update, finish). Stated here: the blocks, the two branch
  conditions in closed form over the grid, where the output window is idle, and the launch's scoped rest split into the
  first call's staging buffers (untouched here) and the three scratch buffers.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-- The body resets its scratch: the key tile is the first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body finishes the query tile: the key tile is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last key tile nothing is stored into the output block and it is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- Each window's current staging buffer at point `t`, spelled as the pipeline passes it, and its wholeness. -/
abbrev ms1_0 (t : Fin cfg1.N) : Memref sig .tc .vmem S1x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x512 .f32 := win1_5.stage (cfg1.slots t 5)
abbrev hs1_5 (t : Fin cfg1.N) : (ms1_5 t).IsWhole := hstage1_5 ((cfg1.slots t 5).cast nbuf1_5)
/-- The scratch operands: the running maximum, the running sum, the running weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2
abbrev VS1_0 : View sig .tc .vmem S512x1 .f32 := scM1_0.view
abbrev VS1_1 : View sig .tc .vmem S512x1 .f32 := scM1_1.view
abbrev VS1_2 : View sig .tc .vmem S512x512 .f32 := scM1_2.view
abbrev VO1_5 : View sig .tc .vmem S1x512x512 .f32 := (Memref.whole cc1_stg5_0 : Memref sig .tc .vmem S1x512x512 .f32).view

/-- The first call's staging buffers, each whole at some contents: scoped buffers this region never touches. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The launch's scoped rest is those buffers beside the three scratch buffers at some contents; -/
theorem scoped_split (c : Dev nD) :
    (Pipeline.scopedRest (Ix := Unit) (Name := ℕ) (U := UR sig nD τ) (Lvl := ℕ) (Val := Elt F) spec1 c : sProp 𝕄)
      ⊢ iprop(stgRest (F := F) c ∗ (∃ d, owns (c : Thread nD τ) scM1_0 fullShare d) ∗ (∃ d, owns (c : Thread nD τ) scM1_1 fullShare d) ∗ (∃ d, owns (c : Thread nD τ) scM1_2 fullShare d)) := by
  rw [scopedRest1_eq]; unfold stgRest; simp only [scM1_0, scM1_1, scM1_2, owns_whole]
  iintro ⟨Ha0, Ha1, Ha2, Ha3, Ha4, Ha5, Ha6, Ha7, Ha8, Ha9, Ha10, Ha11, Ha12, Ha13, HS0, HS1, HS2⟩
  isplitl [Ha0 Ha1 Ha2 Ha3 Ha4 Ha5 Ha6 Ha7 Ha8 Ha9 Ha10 Ha11 Ha12 Ha13]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    iexact Ha13
  isplitl [HS0]; · iexact HS0
  isplitl [HS1]; · iexact HS1
  iexact HS2

/-- and conversely. -/
theorem scoped_join (c : Dev nD) :
    iprop(stgRest (F := F) c ∗ (∃ d, owns (c : Thread nD τ) scM1_0 fullShare d) ∗ (∃ d, owns (c : Thread nD τ) scM1_1 fullShare d) ∗ (∃ d, owns (c : Thread nD τ) scM1_2 fullShare d))
      ⊢ (Pipeline.scopedRest (Ix := Unit) (Name := ℕ) (U := UR sig nD τ) (Lvl := ℕ) (Val := Elt F) spec1 c : sProp 𝕄) := by
  rw [scopedRest1_eq]; unfold stgRest; simp only [scM1_0, scM1_1, scM1_2, owns_whole]
  iintro ⟨⟨Ha0, Ha1, Ha2, Ha3, Ha4, Ha5, Ha6, Ha7, Ha8, Ha9, Ha10, Ha11, Ha12, Ha13⟩, HS0, HS1, HS2⟩
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [Ha12]; · iexact Ha12
  isplitl [Ha13]; · iexact Ha13
  isplitl [HS0]; · iexact HS0
  isplitl [HS1]; · iexact HS1
  iexact HS2

end Cert.KernelIdeal.Hand

end
-- ==== Proof.R1RunA.lean ====
/-
  The flash-attention body run in the case of the first key tile: the scratch is reset, then updated; nothing is stored into the output block. The run is symbolic: on whole staging
  buffers at known contents it reaches the continuation with the inputs as they were and every buffer it stored into holding
  the list of pieces its stores wrote, which the run itself finds.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_A (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) :
    Σ' (L5 : List (View.Piece (Elt F) S1x512x512 .f32)) (LS0 : List (View.Piece (Elt F) S512x1 .f32)) (LS1 : List (View.Piece (Elt F) S512x1 .f32)), { LS2 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_wo_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_wo_kernel_eq_skeleton]; unfold cc1__flash_wo_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.R1RunB.lean ====
/-
  The flash-attention body run in the case of a middle key tile: the scratch is updated from what the point before left; nothing is stored into the output block. The run is symbolic: on whole staging
  buffers at known contents it reaches the continuation with the inputs as they were and every buffer it stored into holding
  the list of pieces its stores wrote, which the run itself finds.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_B (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    Σ' (L5 : List (View.Piece (Elt F) S1x512x512 .f32)) (LS0 : List (View.Piece (Elt F) S512x1 .f32)) (LS1 : List (View.Piece (Elt F) S512x1 .f32)), { LS2 : List (View.Piece (Elt F) S512x512 .f32) //
      ∀ (xi5 : Vec F S1x512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_wo_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_wo_kernel_eq_skeleton]; unfold cc1__flash_wo_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.R1RunC.lean ====
/-
  The flash-attention body run in the case of the last key tile: the scratch is updated from what the point before left, then the output block is stored. The run is symbolic: on whole staging
  buffers at known contents it reaches the continuation with the inputs as they were and every buffer it stored into holding
  the list of pieces its stores wrote, which the run itself finds.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_C (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    Σ' (L5 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_wo_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_wo_kernel_eq_skeleton]; unfold cc1__flash_wo_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.R1Body.lean ====
/-
  The flash-attention pallas_call point by point. What the output block's staging buffer and the three scratch buffers
  hold after the body at the n-th point is defined by recursion on n: the case the point is in (first, middle or last key
  tile), run on the point's blocks and, after the first key tile, on what the point before left in the scratch. The region's
  invariant between points is the scratch at exactly those contents; the proof data name the output block by the same
  recursion; and the per-point obligation is the case's run.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R1RunA
import proofs.«145638_j28441273434636_2_alg».proof.Proof.R1RunB
import proofs.«145638_j28441273434636_2_alg».proof.Proof.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.1 S512x1.size (by sl_kernel_rfl) y
def sout1_A_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4).2.1)
theorem scover1_A_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.1 S512x1.size (by sl_kernel_rfl) y
def sout1_A_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3 x4).2.2.1)
theorem scover1_A_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (y : S512x512.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3 x4).2.2.2.1 S512x512.size (by sl_kernel_rfl) y
def sout1_A_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) : Vec F S512x512 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3 x4).2.2.2.1)
def out1_A_5 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) : Vec F S1x512x512 .f32 :=
  VO1_5.read (Elt F) (VO1_5.writes (Elt F) VO1_5.junk (kernelRun1_A c i arg3 harg3 arg4 harg4 arg5 harg5 arg6 harg6 arg7 harg7 arg8 harg8 arg9 harg9 arg10 harg10 arg11 harg11 hc0 hc1 x0 x1 x2 x3 x4).1)
theorem scover1_B_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.1 S512x1.size (by sl_kernel_rfl) y
def sout1_B_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 xs0 xs1 xs2).2.1)
theorem scover1_B_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.1 S512x1.size (by sl_kernel_rfl) y
def sout1_B_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.1)
theorem scover1_B_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x512.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 S512x512.size (by sl_kernel_rfl) y
def sout1_B_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x512 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1)
def out1_B_5 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S1x512x512 .f32 :=
  VO1_5.read (Elt F) (VO1_5.writes (Elt F) VO1_5.junk (kernelRun1_B c i arg3 harg3 arg4 harg4 arg5 harg5 arg6 harg6 arg7 harg7 arg8 harg8 arg9 harg9 arg10 harg10 arg11 harg11 hc0 hc1 x0 x1 x2 x3 x4 xs0 xs1 xs2).1)
theorem scover1_C_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.1 S512x1.size (by sl_kernel_rfl) y
def sout1_C_0 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 xs0 xs1 xs2).2.1)
theorem scover1_C_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.1 S512x1.size (by sl_kernel_rfl) y
def sout1_C_1 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.1)
theorem scover1_C_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S512x512.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 S512x512.size (by sl_kernel_rfl) y
def sout1_C_2 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S512x512 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1)
theorem cover1_C_5 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) (y : S1x512x512.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 xs0 xs1 xs2).1 S1x512x512.size (by sl_kernel_rfl) y
def out1_C_5 (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) : Vec F S1x512x512 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 x4 xs0 xs1 xs2).1)

section Region1
variable (V : (c : Dev nD) → (b : Ref sig .tc) → Buf (Elt F) ((c : Thread nD τ).loc b))

/-- What the output block's buffer and the scratch (maximum, sum, weighted sum) hold after the body at position `n`. -/
def outsAt1 (c : Dev nD) : (n : ℕ) → n < cfg1.N → Vec F S1x512x512 .f32 × Vec F S512x1 .f32 × Vec F S512x1 .f32 × Vec F S512x512 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the first call's staging buffers at anything, the scratch at anything
    before the first point and afterwards at what the point before left, the generator register at some state. -/
def PhiS1 (c : Dev nD) : (n : ℕ) → n ≤ cfg1.N → sProp 𝕄
  | 0, _ => iprop((stgRest (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r))
  | n + 1, hn => iprop((stgRest (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = iprop((stgRest (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  subst hz; rfl
theorem PhiS1_succ (c : Dev nD) (n : ℕ) (hn : n < cfg1.N) :
    PhiS1 V c (n + 1) hn = iprop((stgRest (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS1_pos (c : Dev nD) (n : ℕ) (h : n ≤ cfg1.N) (hz : n ≠ 0) :
    PhiS1 V c n h = iprop((stgRest (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Region1

end Cert.KernelIdeal.Hand

end
-- ==== Proof.R1Oblig.lean ====
/-
  The per-point obligation of the flash-attention pallas_call: at every grid point the inputs' staging buffers hold
  their blocks; the closed forms of the two conditions say which case the point is in; the invariant hands the body the
  scratch at what the point before left (at anything before the very first point, and the first-key-tile case does not
  care) and takes it back at this point's contents; the output block's buffer is handed back untouched except at the
  last key tile, where it holds the case's stores.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 8 = 0
  · by_cases h1 : t.val % 8 = 7
    · exfalso; omega
    · -- the first key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨⟨⟨Hstg, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [Hstg HS0 HS1 HS2 Hg]
        · isplitl [Hstg HS0 HS1 HS2]
          · isplitl [Hstg]; · iexact Hstg
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨Hstg, HS0, HS1, HS2⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [Hstg HS0 HS1 HS2 Hg]
        · isplitl [Hstg HS0 HS1 HS2]
          · isplitl [Hstg]; · iexact Hstg
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _ _ _ _ _)
            unfold owns; iexists _; isplitr
            swap; · iexact HS2
            ipureintro; exact View.read_writes_of_cover _ _ _ _ _ (scover1_A_2 _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- the last key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0 sout1_C_1 sout1_C_2; (try dsimp only)
      have hz : t.val ≠ 0 := by omega
      rw [PhiS1_castSucc V c t, PhiS1_pos V c _ _ hz]
      iintro ⟨⟨⟨Hstg, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [Hstg HS0 HS1 HS2 Hg]
      · isplitl [Hstg HS0 HS1 HS2]
        · isplitl [Hstg]; · iexact Hstg
          isplitl [HS0]
          · unfold owns; iexists _; isplitr
            swap; · iexact HS0
            ipureintro; exact View.read_writes_of_cover _ _ _ _ _ (scover1_C_0 _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 _ _ _ _ _ _ _ _ _ _ _ _ _ _ _ _ _ _ _ _ _ _ _ _ _ _ _ _ _ _)
    · -- a middle key tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0 sout1_B_1 sout1_B_2; (try dsimp only)
      have hz : t.val ≠ 0 := by omega
      rw [PhiS1_castSucc V c t, PhiS1_pos V c _ _ hz]
      iintro ⟨⟨⟨Hstg, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hstg HS0 HS1 HS2 Hg]
      · isplitl [Hstg HS0 HS1 HS2]
        · isplitl [Hstg]; · iexact Hstg
          isplitl [HS0]
          · unfold owns; iexists _; isplitr
            swap; · iexact HS0
            ipureintro; exact View.read_writes_of_cover _ _ _ _ _ (scover1_B_0 _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region — its scoped rest and the generator register — is the invariant before the first point. -/
theorem phi_in1 (c : Dev nD) :
    iprop((Pipeline.scopedRest (Ix := Unit) (Name := ℕ) (U := UR sig nD τ) (Lvl := ℕ) (Val := Elt F) spec1 c : sProp 𝕄) ∗ (∃ r, prngReg c r)) ⊢ (dat1 V c).Φ 0 := by
  rw [show (dat1 V c).Φ 0 = PhiS1 V c 0 (Nat.zero_le _) from rfl, PhiS1_zero V c 0 _ rfl]
  iintro ⟨Hs, Hg⟩
  isplitl [Hs]
  · iapply (scoped_split (F := F) c); iexact Hs
  iexact Hg

/-- At any position but the first the invariant gives both back: the scratch's named contents are forgotten. -/
theorem phi_out1_at (c : Dev nD) (t : Fin (cfg1.N + 1)) (ht : t.val ≠ 0) :
    (dat1 V c).Φ t ⊢ iprop((Pipeline.scopedRest (Ix := Unit) (Name := ℕ) (U := UR sig nD τ) (Lvl := ℕ) (Val := Elt F) spec1 c : sProp 𝕄) ∗ (∃ r, prngReg c r)) := by
  rw [show (dat1 V c).Φ t = PhiS1 V c t.val (Nat.le_of_lt_succ t.isLt) from by dsimp only [dat1], PhiS1_pos V c _ _ ht]
  iintro ⟨⟨Hstg, HS0, HS1, HS2⟩, Hg⟩
  isplitl [Hstg HS0 HS1 HS2]
  · iapply (scoped_join (F := F) c)
    isplitl [Hstg]; · iexact Hstg
    isplitl [HS0]; · iexists _; iexact HS0
    isplitl [HS1]; · iexists _; iexact HS1
    iexists _; iexact HS2
  iexact Hg

/-- The same after the last point. -/
theorem phi_out1 (c : Dev nD) :
    (dat1 V c).Φ (Fin.last cfg1.N) ⊢ iprop((Pipeline.scopedRest (Ix := Unit) (Name := ℕ) (U := UR sig nD τ) (Lvl := ℕ) (Val := Elt F) spec1 c : sProp 𝕄) ∗ (∃ r, prngReg c r)) :=
  phi_out1_at V c _ (by rw [Fin.val_last]; have : cfg1.N = 256 := N_1; omega)

end Region1

end Cert.KernelIdeal.Hand

end
-- ==== Proof.Run.lean ====
/-
  The whole program as four stretches — a reshape of the input, the projections' pallas_call, three reshapes, the
  flash-attention pallas_call — and the contents of the core's buffers at each boundary: a host stretch applies its
  operations; a pallas_call leaves in each of its arrays what its write-backs leave and every other buffer as it was.
  Every weakly fair execution terminates with every unscoped buffer at the last boundary's contents; no stretch writes an
  argument, so each argument ends as launched.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R0
import proofs.«145638_j28441273434636_2_alg».proof.Proof.R1Oblig
import proofs.«145638_j28441273434636_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- After the reshape of the input (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three reshapes (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! The arguments end as launched. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 3).trans (((dat0 (V1 m) c).arrAt_in 3 rfl _).trans (A_eq0 (V1 m) c 3))
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 5).trans (((dat0 (V1 m) c).arrAt_in 5 rfl _).trans (A_eq0 (V1 m) c 5))
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := (W2_arr m c 6).trans (((dat0 (V1 m) c).arrAt_in 6 rfl _).trans (A_eq0 (V1 m) c 6))
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := (W4_arr m c 3).trans (((dat1 (V3 m) c).arrAt_in 3 rfl _).trans (A_eq1 (V3 m) c 3))
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := (W4_arr m c 4).trans (((dat1 (V3 m) c).arrAt_in 4 rfl _).trans (A_eq1 (V3 m) c 4))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every stretch: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (phi_in1 (V3 m) c)
    isplitl [Hr]; · iexact Hr
    iexact Hp
  hout c := by
    rw [Pipeline.ownSems0_none, show (pdats m 1 c).Φ (Fin.last _) = (dat1 (V3 m) c).Φ (Fin.last cfg1.N) from rfl]
    iintro H
    ihave H' := (phi_out1 (V3 m) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: every weakly fair execution of the program terminates, nothing faulting, and every final state holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_all m ρ)

/-- The result buffer ends at what the flash-attention call's write-backs leave in it. -/
theorem result_at (c : Dev nD) : W4 m c (Proc.devRef .tc main_v5) = (dat1 (V3 m) c).arrAt 5 cfg1.N :=
  W4_arr m c 5

end Cert.KernelIdeal.Hand

end
-- ==== Proof.R1Pieces.lean ====
/-
  What each case of the flash-attention body leaves, as values: every buffer it stores into is stored whole, so the
  pieces the symbolic run found read back as the last store's payload, whose loads are the buffers' contents — the
  point's blocks, the scratch as the point before left it or, at the first key tile, as the reset just stored it
  (−∞, 0, 0). The new maximum is max(m, row maximum of the scores); the new sum is exp(m − m')·l + Σ exp(s − m'); the new
  weighted sum is exp(m − m')·acc + exp(s − m')·v; at the last key tile the output block is (acc'/l')·Wo + bo.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R1Body
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem sout1_B_0_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    sout1_B_0 c i arg3 harg3 arg4 harg4 arg5 harg5 arg6 harg6 arg7 harg7 arg8 harg8 arg9 harg9 arg10 harg10 arg11 harg11 hc0 hc1 x0 x1 x2 x3 x4 xs0 xs1 xs2 = k1_pay2 (k1_pay9 x0 x1 xs0) := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  first
    | rw [View.canon_unit_zero hz2]
    | rw [View.canon_cons_unit_zero (S := S512x1) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem sout1_B_1_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    sout1_B_1 c i arg3 harg3 arg4 harg4 arg5 harg5 arg6 harg6 arg7 harg7 arg8 harg8 arg9 harg9 arg10 harg10 arg11 harg11 hc0 hc1 x0 x1 x2 x3 x4 xs0 xs1 xs2 = k1_pay12 x0 x1 xs0 xs0 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  first
    | rw [View.canon_unit_zero hz2]
    | rw [View.canon_cons_unit_zero (S := S512x1) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem sout1_B_2_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : ¬cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    sout1_B_2 c i arg3 harg3 arg4 harg4 arg5 harg5 arg6 harg6 arg7 harg7 arg8 harg8 arg9 harg9 arg10 harg10 arg11 harg11 hc0 hc1 x0 x1 x2 x3 x4 xs0 xs1 xs2 = k1_pay1 (k1_pay7 x2) (k1_pay10 x0 x1 xs0 xs0) (k1_pay11 x0 x1 xs0) xs2 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 x0 x1 x2 x3 x4 xs0 xs1 xs2)]
  unfold kernelRun1_B
  dsimp only
  sl_unfold_words
  first
    | rw [View.canon_unit_zero hz2]
    | rw [View.canon_cons_unit_zero (S := S512x512) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem sout1_A_0_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) :
    sout1_A_0 c i arg3 harg3 arg4 harg4 arg5 harg5 arg6 harg6 arg7 harg7 arg8 harg8 arg9 harg9 arg10 harg10 arg11 harg11 hc0 hc1 x0 x1 x2 x3 x4 = k1_pay2 (k1_pay9 x0 x1 k1_pay4) := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  first
    | rw [View.canon_unit_zero hz2]
    | rw [View.canon_cons_unit_zero (S := S512x1) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem sout1_A_1_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) :
    sout1_A_1 c i arg3 harg3 arg4 harg4 arg5 harg5 arg6 harg6 arg7 harg7 arg8 harg8 arg9 harg9 arg10 harg10 arg11 harg11 hc0 hc1 x0 x1 x2 x3 x4 = k1_pay12 x0 x1 k1_pay4 k1_pay4 k1_pay5 := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  first
    | rw [View.canon_unit_zero hz2]
    | rw [View.canon_cons_unit_zero (S := S512x1) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem sout1_A_2_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : cond1_0 i) (hc1 : ¬cond1_1 i)
    (x0 : Vec F S1x512x512 .bf16) (x1 : Vec F S1x512x512 .bf16) (x2 : Vec F S1x512x512 .bf16) (x3 : Vec F S512x512 .f32) (x4 : Vec F S512 .f32) :
    sout1_A_2 c i arg3 harg3 arg4 harg4 arg5 harg5 arg6 harg6 arg7 harg7 arg8 harg8 arg9 harg9 arg10 harg10 arg11 harg11 hc0 hc1 x0 x1 x2 x3 x4 = k1_pay1 (k1_pay7 x2) (k1_pay10 x0 x1 k1_pay4 k1_pay4) (k1_pay11 x0 x1 k1_pay4) k1_pay6 := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  first
    | rw [View.canon_unit_zero hz2]
    | rw [View.canon_cons_unit_zero (S := S512x512) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem sout1_C_0_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    sout1_C_0 c i arg3 harg3 arg4 harg4 arg5 harg5 arg6 harg6 arg7 harg7 arg8 harg8 arg9 harg9 arg10 harg10 arg11 harg11 hc0 hc1 x0 x1 x2 x3 x4 xs0 xs1 xs2 = k1_pay2 (k1_pay9 x0 x1 xs0) := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  first
    | rw [View.canon_unit_zero hz2]
    | rw [View.canon_cons_unit_zero (S := S512x1) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem sout1_C_1_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    sout1_C_1 c i arg3 harg3 arg4 harg4 arg5 harg5 arg6 harg6 arg7 harg7 arg8 harg8 arg9 harg9 arg10 harg10 arg11 harg11 hc0 hc1 x0 x1 x2 x3 x4 xs0 xs1 xs2 = k1_pay12 x0 x1 xs0 xs0 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  first
    | rw [View.canon_unit_zero hz2]
    | rw [View.canon_cons_unit_zero (S := S512x1) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem sout1_C_2_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    sout1_C_2 c i arg3 harg3 arg4 harg4 arg5 harg5 arg6 harg6 arg7 harg7 arg8 harg8 arg9 harg9 arg10 harg10 arg11 harg11 hc0 hc1 x0 x1 x2 x3 x4 xs0 xs1 xs2 = k1_pay1 (k1_pay7 x2) (k1_pay10 x0 x1 xs0 xs0) (k1_pay11 x0 x1 xs0) xs2 := by
  unfold sout1_C_2
  rw [View.read_writes_eq_canon _ _ _ (scover1_C_2 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  first
    | rw [View.canon_unit_zero hz2]
    | rw [View.canon_cons_unit_zero (S := S512x512) hz2]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

theorem out1_C_5_eq (c : Dev nD) (i : grid1.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .f32) (harg6 : arg6.IsWhole) (arg7 : Memref sig .tc .vmem S512 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x512 .f32) (harg11 : arg11.IsWhole) (hc0 : ¬cond1_0 i) (hc1 : cond1_1 i)
    (x0 : Vec F S1x512x512 .bf16) (x1 : Vec F S1x512x512 .bf16) (x2 : Vec F S1x512x512 .bf16) (x3 : Vec F S512x512 .f32) (x4 : Vec F S512 .f32) (xs0 : Vec F S512x1 .f32) (xs1 : Vec F S512x1 .f32) (xs2 : Vec F S512x512 .f32) :
    out1_C_5 c i arg3 harg3 arg4 harg4 arg5 harg5 arg6 harg6 arg7 harg7 arg8 harg8 arg9 harg9 arg10 harg10 arg11 harg11 hc0 hc1 x0 x1 x2 x3 x4 xs0 xs1 xs2 = k1_pay3 (k1_pay1 (k1_pay7 x2) (k1_pay10 x0 x1 xs0 xs0) (k1_pay11 x0 x1 xs0) xs2) (k1_pay12 x0 x1 xs0 xs0 xs1) x3 x4 := by
  unfold out1_C_5
  rw [View.read_writes_eq_canon _ _ _ (cover1_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun1_C
  dsimp only
  sl_unfold_words
  first
    | rw [View.canon_unit_zero hz3]
    | rw [View.canon_cons_unit_zero (S := S1x512x512) hz3]
  simp only [View.readCov_unit_zero (S := S512x1) _ hz2, View.readCov_unit_zero (S := S512x512) _ hz2, View.readAt_eq_ld, harg3.read_unread, harg4.read_unread, harg5.read_unread, harg6.read_unread, harg7.read_unread, harg9.read_unread, harg10.read_unread, harg11.read_unread, View.ld_unit_zero (S := S1x512x512) hz3, View.ld_unit_zero (S := S512x1) hz2, View.ld_unit_zero (S := S512x512) hz2, View.ld_unit_zero (S := S512) hz1]

end Cert.KernelIdeal.Hand

end
-- ==== Proof.LibOnlineSoftmax.lean ====
/-
  The online softmax, one tile at a time, at the exact extended reals.

  A row of attention scores is visited tile by tile. Beside each tile the visitor keeps three numbers: the largest score seen
  so far, the sum of the exponentials of the scores seen so far RELATIVE to that maximum, and the same sum weighted by a value
  attached to each score. Visiting a new tile replaces the maximum by the larger of it and the tile's own, multiplies the two
  sums by the exponential of the (nonpositive) change of maximum, and adds the tile's own terms relative to the new maximum.
  The statements below say that the three numbers are, at every moment, those of the plain definition over everything seen:
  `sup`, `Σ exp (s − sup)`, `Σ exp (s − sup) · v`; that masked scores (−∞) contribute nothing, wherever they stand; and that
  the weighted sum divided by the plain sum is the softmax-weighted sum of the values. A score is a real number or −∞; a value
  is a real number; the operations are the exact ones: `Ideal.exp` (with `exp (−∞) = 0`), `Ideal.div`, and the sum, product,
  difference and maximum of extended reals (where `−∞ − (−∞) = −∞` and `0 · x = 0`).
-/
import Idealize.ShloMosaic.PureOps.Ideal

noncomputable section

namespace Idealize.ShloMosaic.OnlineSoftmax

open Idealize.ShloMosaic

/-- A score: a real number, or −∞ (a masked position). -/
def IsScore (x : EReal) : Prop := x = ⊥ ∨ ∃ r : ℝ, x = (r : EReal)

/-- A real number. -/
def IsReal (x : EReal) : Prop := ∃ r : ℝ, x = (r : EReal)

theorem IsReal.isScore {x : EReal} (h : IsReal x) : IsScore x := .inr h

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- `exp (x − b)` for a score `x` and a real `b`, as a real number: `0` at a masked score. -/
def ex (x : EReal) (b : ℝ) : ℝ := if x = ⊥ then 0 else Real.exp (x.toReal - b)

theorem ex_nonneg (x : EReal) (b : ℝ) : 0 ≤ ex x b := by
  unfold ex; split_ifs
  · exact le_rfl
  · exact (Real.exp_pos _).le

theorem ex_bot (b : ℝ) : ex ⊥ b = 0 := by unfold ex; rw [if_pos rfl]

theorem ex_coe (c b : ℝ) : ex (c : EReal) b = Real.exp (c - b) := by
  unfold ex; rw [if_neg (EReal.coe_ne_bot c), EReal.toReal_coe]

/-- The exponential of a score less a real is the real number `ex`. -/
theorem exp_sub_coe {x : EReal} (hx : IsScore x) (b : ℝ) : Ideal.exp (x - (b : EReal)) = ((ex x b : ℝ) : EReal) := by
  rcases hx with rfl | ⟨c, rfl⟩
  · rw [ex_bot, sub_eq_add_neg, EReal.bot_add, Ideal.exp_bot]; norm_cast
  · rw [ex_coe, ← EReal.coe_sub, Ideal.exp_coe]

/-- Against a maximum that is still −∞ every score seen is −∞, and its exponential relative to that maximum is `0`. -/
theorem exp_bot_sub_bot : Ideal.exp ((⊥ : EReal) - ⊥) = 0 := by
  rw [sub_eq_add_neg, EReal.bot_add, Ideal.exp_bot]

/-- THE RESCALING of one term: a score `x` at most the old maximum `m` (a score itself), its exponential relative to `m` times
    the exponential of the change to a new REAL maximum `b`, is its exponential relative to `b`. -/
theorem ex_rescale {x m : EReal} (hx : IsScore x) (hm : IsScore m) (hle : x ≤ m) (b : ℝ) :
    Ideal.exp (m - (b : EReal)) * Ideal.exp (x - m) = Ideal.exp (x - (b : EReal)) := by
  rcases hm with rfl | ⟨a, rfl⟩
  · obtain rfl : x = ⊥ := le_bot_iff.mp hle
    rw [exp_bot_sub_bot, mul_zero, sub_eq_add_neg, EReal.bot_add, Ideal.exp_bot]
  · rw [exp_sub_coe hx a, exp_sub_coe hx b, exp_sub_coe (.inr ⟨a, rfl⟩) b, ← EReal.coe_mul]
    congr 1
    rcases hx with rfl | ⟨c, rfl⟩
    · rw [ex_bot, ex_bot, mul_zero]
    · rw [ex_coe, ex_coe, ex_coe, ← Real.exp_add]; congr 1; ring

variable {κ : Type*}

/-- THE RESCALING of a weighted sum: real weights `w k`, scores `x k` at most the old maximum `m`. -/
theorem sum_rescale {m : EReal} (hm : IsScore m) (b : ℝ) (S : Finset κ) (x w : κ → EReal)
    (hx : ∀ k ∈ S, IsScore (x k)) (hle : ∀ k ∈ S, x k ≤ m) (hw : ∀ k ∈ S, IsReal (w k)) :
    Ideal.exp (m - (b : EReal)) * ∑ k ∈ S, Ideal.exp (x k - m) * w k = ∑ k ∈ S, Ideal.exp (x k - (b : EReal)) * w k := by
  classical
  rcases hm with rfl | ⟨a, rfl⟩
  · have h0 : Ideal.exp ((⊥ : EReal) - (b : EReal)) = 0 := by rw [sub_eq_add_neg, EReal.bot_add, Ideal.exp_bot]
    rw [h0, zero_mul]
    refine (Finset.sum_eq_zero fun k hk => ?_).symm
    obtain rfl' : x k = ⊥ := le_bot_iff.mp (hle k hk)
    rw [rfl', h0, zero_mul]
  · -- everything is a real number: distribute there
    have hterm : ∀ k ∈ S, Ideal.exp (x k - (a : EReal)) * w k = (((ex (x k) a) * (w k).toReal : ℝ) : EReal) := fun k hk => by
      obtain ⟨r, hr⟩ := hw k hk
      rw [exp_sub_coe (hx k hk) a, hr, EReal.toReal_coe, EReal.coe_mul]
    have hterm' : ∀ k ∈ S, Ideal.exp (x k - (b : EReal)) * w k = (((ex (x k) b) * (w k).toReal : ℝ) : EReal) := fun k hk => by
      obtain ⟨r, hr⟩ := hw k hk
      rw [exp_sub_coe (hx k hk) b, hr, EReal.toReal_coe, EReal.coe_mul]
    rw [Finset.sum_congr rfl hterm, Finset.sum_congr rfl hterm', coe_sum, coe_sum, exp_sub_coe (.inr ⟨a, rfl⟩) b, ← EReal.coe_mul,
      Finset.mul_sum]
    congr 1
    refine Finset.sum_congr rfl fun k hk => ?_
    rw [← mul_assoc]; congr 1
    rcases hx k hk with h | ⟨c, h⟩
    · rw [h, ex_bot, ex_bot, mul_zero]
    · rw [h, ex_coe, ex_coe, ex_coe, ← Real.exp_add]; congr 1; ring

/-! ## The three statistics of a set of positions -/

/-- The largest score over the positions `S` (−∞ over none). -/
def top (S : Finset κ) (s : κ → EReal) : EReal := S.sup s
/-- The sum of the exponentials of the scores relative to the largest. -/
def norm (S : Finset κ) (s : κ → EReal) : EReal := ∑ k ∈ S, Ideal.exp (s k - top S s)
/-- The same sum, each term weighted by the position's value. -/
def wsum (S : Finset κ) (s v : κ → EReal) : EReal := ∑ k ∈ S, Ideal.exp (s k - top S s) * v k

theorem top_empty (s : κ → EReal) : top (∅ : Finset κ) s = ⊥ := Finset.sup_empty
theorem norm_empty (s : κ → EReal) : norm (∅ : Finset κ) s = 0 := Finset.sum_empty
theorem wsum_empty (s v : κ → EReal) : wsum (∅ : Finset κ) s v = 0 := Finset.sum_empty

theorem top_union [DecidableEq κ] (S T : Finset κ) (s : κ → EReal) : top (S ∪ T) s = max (top S s) (top T s) :=
  Finset.sup_union

/-- The largest of a set of scores is a score. -/
theorem top_isScore (S : Finset κ) (s : κ → EReal) (hs : ∀ k ∈ S, IsScore (s k)) : IsScore (top S s) := by
  classical
  rcases S.eq_empty_or_nonempty with rfl | hne
  · exact .inl (top_empty s)
  · obtain ⟨i, hi, e⟩ := Finset.exists_mem_eq_sup S hne s
    unfold top; rw [e]; exact hs i hi

/-- ONE STEP OF THE ONLINE SOFTMAX. `S` the positions seen, `T` the new tile (disjoint from them), its largest score a real
    number (some position of the tile is unmasked): the new maximum is the maximum over everything; the old weighted sum
    rescaled plus the tile's own terms is the weighted sum over everything. -/
theorem wsum_step [DecidableEq κ] (S T : Finset κ) (hd : Disjoint S T) (s v : κ → EReal)
    (hs : ∀ k ∈ S ∪ T, IsScore (s k)) (hv : ∀ k ∈ S ∪ T, IsReal (v k)) (hT : IsReal (top T s)) :
    Ideal.exp (top S s - max (top S s) (top T s)) * wsum S s v + ∑ k ∈ T, Ideal.exp (s k - max (top S s) (top T s)) * v k
      = wsum (S ∪ T) s v := by
  have hS : IsScore (top S s) := top_isScore S s fun k hk => hs k (Finset.mem_union_left _ hk)
  obtain ⟨b, hb⟩ : IsReal (max (top S s) (top T s)) := by
    obtain ⟨t, ht⟩ := hT
    rcases hS with h | ⟨a, h⟩
    · exact ⟨t, by rw [h, ht]; exact max_eq_right bot_le⟩
    · exact ⟨max a t, by rw [h, ht]; exact EReal.coe_strictMono.monotone.map_max.symm⟩
  unfold wsum
  rw [top_union, Finset.sum_union hd, hb,
    sum_rescale hS b S s v (fun k hk => hs k (Finset.mem_union_left _ hk)) (fun k hk => Finset.le_sup hk)
      (fun k hk => hv k (Finset.mem_union_left _ hk))]

/-- The same for the plain sum (every value `1`). -/
theorem norm_step [DecidableEq κ] (S T : Finset κ) (hd : Disjoint S T) (s : κ → EReal)
    (hs : ∀ k ∈ S ∪ T, IsScore (s k)) (hT : IsReal (top T s)) :
    Ideal.exp (top S s - max (top S s) (top T s)) * norm S s + ∑ k ∈ T, Ideal.exp (s k - max (top S s) (top T s))
      = norm (S ∪ T) s := by
  have h := wsum_step S T hd s (fun _ => 1) hs (fun _ _ => ⟨1, by norm_cast⟩) hT
  simpa only [wsum, norm, mul_one] using h

/-- MASKED POSITIONS CONTRIBUTE NOTHING: adding to the positions seen a set `T` of masked ones (score −∞), the maximum over
    the seen a real number, changes none of the three statistics. -/
theorem top_union_masked [DecidableEq κ] (S T : Finset κ) (s : κ → EReal) (hT : ∀ k ∈ T, s k = ⊥) :
    top (S ∪ T) s = top S s := by
  rw [top_union]
  have : top T s = ⊥ := by
    unfold top; exact le_bot_iff.mp (Finset.sup_le fun k hk => (hT k hk).le)
  rw [this]; exact max_eq_left bot_le

theorem wsum_union_masked [DecidableEq κ] (S T : Finset κ) (hd : Disjoint S T) (s v : κ → EReal) (hT : ∀ k ∈ T, s k = ⊥)
    (hS : IsReal (top S s)) : wsum (S ∪ T) s v = wsum S s v := by
  unfold wsum
  rw [top_union_masked S T s hT, Finset.sum_union hd]
  obtain ⟨b, hb⟩ := hS
  have : ∑ k ∈ T, Ideal.exp (s k - top S s) * v k = 0 :=
    Finset.sum_eq_zero fun k hk => by rw [hT k hk, hb, sub_eq_add_neg, EReal.bot_add, Ideal.exp_bot, zero_mul]
  rw [this, add_zero]

theorem norm_union_masked [DecidableEq κ] (S T : Finset κ) (hd : Disjoint S T) (s : κ → EReal) (hT : ∀ k ∈ T, s k = ⊥)
    (hS : IsReal (top S s)) : norm (S ∪ T) s = norm S s := by
  have h := wsum_union_masked S T hd s (fun _ => 1) hT hS
  simpa only [wsum, norm, mul_one] using h

/-! ## Real numbers are closed under the operations of a projection -/

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (S : Finset ι) (g : ι → EReal) (h : ∀ k ∈ S, IsReal (g k)) : IsReal (∑ k ∈ S, g k) := by
  classical
  induction S using Finset.induction_on with
  | empty => exact ⟨0, by simp⟩
  | insert a S ha ih =>
    rw [Finset.sum_insert ha]
    obtain ⟨x, hx⟩ := h a (Finset.mem_insert_self a S)
    obtain ⟨y, hy⟩ := ih fun k hk => h k (Finset.mem_insert_of_mem hk)
    exact ⟨x + y, by rw [hx, hy, EReal.coe_add]⟩

/-- The largest of a set of scores one of which is a real number is a real number. -/
theorem top_isReal_of_mem (S : Finset κ) (s : κ → EReal) (hs : ∀ k ∈ S, IsScore (s k)) {k : κ} (hk : k ∈ S) (hr : IsReal (s k)) :
    IsReal (top S s) := by
  rcases top_isScore S s hs with h | h
  · obtain ⟨r, hr⟩ := hr
    have : s k ≤ top S s := Finset.le_sup hk
    rw [h, hr] at this
    exact absurd (le_bot_iff.mp this) (EReal.coe_ne_bot r)
  · exact h

/-! ## The quotient -/

/-- The normalizer of a set of scores whose largest is a real number is a positive real number: the largest score contributes `1`. -/
theorem norm_pos (S : Finset κ) (s : κ → EReal) (hs : ∀ k ∈ S, IsScore (s k)) (htop : IsReal (top S s)) :
    ∃ N : ℝ, 0 < N ∧ norm S s = (N : EReal) ∧ ∀ b : ℝ, top S s = (b : EReal) → N = ∑ k ∈ S, ex (s k) b := by
  classical
  obtain ⟨b, hb⟩ := htop
  have hne : S.Nonempty := by
    rcases S.eq_empty_or_nonempty with rfl | h
    · rw [top_empty] at hb; exact absurd hb.symm (EReal.coe_ne_bot b)
    · exact h
  obtain ⟨k0, hk0, e0⟩ := Finset.exists_mem_eq_sup S hne s
  have hk0' : s k0 = (b : EReal) := by rw [← hb]; exact e0.symm
  refine ⟨∑ k ∈ S, ex (s k) b, ?_, ?_, fun b' hb' => ?_⟩
  · refine lt_of_lt_of_le ?_ (Finset.single_le_sum (fun k _ => ex_nonneg (s k) b) hk0)
    rw [hk0', ex_coe, sub_self, Real.exp_zero]; exact one_pos
  · unfold norm; rw [hb, ← coe_sum]
    exact Finset.sum_congr rfl fun k hk => exp_sub_coe (hs k hk) b
  · have : b' = b := by rw [hb] at hb'; exact (EReal.coe_eq_coe_iff.mp hb').symm
    rw [this]

/-- THE SOFTMAX-WEIGHTED SUM IS THE QUOTIENT: each exponential divided by the normalizer, times its value, summed, is the weighted
    sum divided by the normalizer — for real values and scores whose largest is a real number. -/
theorem sum_div_norm (S : Finset κ) (s v : κ → EReal) (hs : ∀ k ∈ S, IsScore (s k)) (hv : ∀ k ∈ S, IsReal (v k))
    (htop : IsReal (top S s)) :
    ∑ k ∈ S, Ideal.div (Ideal.exp (s k - top S s)) (norm S s) * v k = Ideal.div (wsum S s v) (norm S s) := by
  classical
  obtain ⟨N, hN, eN, -⟩ := norm_pos S s hs htop
  obtain ⟨b, hb⟩ := htop
  have hterm : ∀ k ∈ S, Ideal.div (Ideal.exp (s k - top S s)) (norm S s) * v k = ((ex (s k) b * (1 / N) * (v k).toReal : ℝ) : EReal) := fun k hk => by
    obtain ⟨r, hr⟩ := hv k hk
    rw [eN, Ideal.div_coe hN.ne', hb, exp_sub_coe (hs k hk) b, hr, EReal.toReal_coe, EReal.coe_mul, EReal.coe_mul]
  have hw : wsum S s v = ((∑ k ∈ S, ex (s k) b * (v k).toReal : ℝ) : EReal) := by
    unfold wsum; rw [← coe_sum, hb]
    refine Finset.sum_congr rfl fun k hk => ?_
    obtain ⟨r, hr⟩ := hv k hk
    rw [exp_sub_coe (hs k hk) b, hr, EReal.toReal_coe, EReal.coe_mul]
  rw [Finset.sum_congr rfl hterm, coe_sum, hw, eN, Ideal.div_coe hN.ne', ← EReal.coe_mul]
  congr 1
  rw [Finset.sum_mul]
  exact Finset.sum_congr rfl fun k _ => by ring

end Idealize.ShloMosaic.OnlineSoftmax

end
-- ==== Proof.Spec.lean ====
/-
  The function both programs compute, index by index, on the extended reals.

  An input x[n, s, d] is projected three times, q = x·Wq + bq, k = x·Wk + bk, v = x·Wv + bv (sums over the
  512 features d). Row s of batch n scores every key row t of its batch by (Σ_p q[n,s,p]·k[n,t,p])·(1/8), the keys
  are weighted by the softmax of those scores over the 4096 keys t, and the weighted sum of the value rows,
  Σ_t softmax_t · v[n,t,p], is projected by Wo and shifted by bo. The softmax-weighted sum is written as the quotient
  of the two statistics of the key set: the sum of exp(score − largest score)·value over the sum of exp(score − largest
  score).
-/
import Idealize.ShloMosaic.PureOps.Ideal
import Idealize.ShloMosaic.Lib.ValueIdx
import proofs.«145638_j28441273434636_2_alg».proof.Proof.LibOnlineSoftmax

noncomputable section

namespace Cert.Attn

open Idealize.ShloMosaic Idealize.ShloMosaic.ValueIdx Idealize.ShloMosaic.OnlineSoftmax

abbrev SX : Shape := ⟨3, ![4, 4096, 512]⟩
abbrev SW : Shape := ⟨2, ![512, 512]⟩
abbrev SB : Shape := ⟨1, ![512]⟩

/-- The scale of the scores: the f32 word of 0.125. -/
def scale : EReal := Ideal.ofBits .f32 0x3E000000#32

/-- One projection of the input: row (n, s), feature p. -/
def proj (X : SX.Idx → EReal) (W : SW.Idx → EReal) (b : SB.Idx → EReal) (n : Fin 4) (s : Fin 4096) (p : Fin 512) : EReal :=
  (∑ d : Fin 512, X (ix3 n s d) * W (ix2 d p)) + b (ix1 p)

/-- The score of key row t for query row s, in batch n. -/
def score (Q K : Fin 4 → Fin 4096 → Fin 512 → EReal) (n : Fin 4) (s t : Fin 4096) : EReal :=
  (∑ p : Fin 512, Q n s p * K n t p) * scale

/-- The softmax-weighted sum of the value rows, feature p: the weighted statistic over the plain one. -/
def attended (Q K V : Fin 4 → Fin 4096 → Fin 512 → EReal) (n : Fin 4) (s : Fin 4096) (p : Fin 512) : EReal :=
  Ideal.div (wsum Finset.univ (score Q K n s) (fun t => V n t p)) (norm Finset.univ (score Q K n s))

/-- The result, entry (n, s, d). -/
def out (X : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) : SX.Idx → EReal := fun i =>
  (∑ p : Fin 512, attended (proj X Wq bq) (proj X Wk bk) (proj X Wv bv) (i 0) (i 1) p * Wo (ix2 p (i 2))) + bo (ix1 (i 2))

/-- Every entry of an array is a real number. -/
def AllReal {S : Shape} (a : S.Idx → EReal) : Prop := ∀ i, IsReal (a i)

end Cert.Attn

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.Pay1.lean ====
/-
  The attention kernel's values read at one entry.

  One step of the attention kernel takes a tile of 512 query rows and a tile of 512 key rows. With every float an
  extended real and every format change the identity, the values it computes are, entry by entry: the scaled scores
  (Σ_d q[i, d] · k[j, d]) · (1/8); the new row maximum, the larger of the old one and the largest score of the row;
  the factor exp(old maximum − new maximum); the weights exp(score − new maximum); the new row sum, the old one times
  the factor plus the weights' sum; the new weighted sum, the old one times the factor plus Σ_j weight[i, j] · v[j, c];
  and, after the last key tile, the quotient of the weighted sum by the row sum, times the output weights, plus the
  output bias. The three initial values are −∞ for the maximum and 0 for the two sums.
-/
import proofs.«145638_j28441273434636_2_alg».proof.Proof.Gen.KernelIdeal.Skeleton
import proofs.«145638_j28441273434636_2_alg».proof.Proof.Spec
import proofs.«145638_j28441273434636_2_alg».proof.Proof.LibPlainContract
import proofs.«145638_j28441273434636_2_alg».proof.Proof.LibKeepdims
import proofs.«145638_j28441273434636_2_alg».proof.Proof.LibRowFold
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Pay

open Idealize.ShloMosaic Idealize.ShloMosaic.ValueIdx Cert.KernelIdeal Cert.KernelIdeal.Gen

/-! ## Two words and a fold -/

/-- The word 0xFF800000 is −∞. -/
theorem ofBits_negInf_f32 : Ideal.ofBits .f32 0xFF800000#32 = (⊥ : EReal) := by simp [Ideal.ofBits, Ideal.ieee]

/-- The fold of the maximum from −∞ over all positions is the supremum. -/
theorem fold_max_bot_eq_sup {n : Nat} (f : Fin n → EReal) :
    (Finset.univ : Finset (Fin n)).fold max (⊥ : EReal) f = Finset.univ.sup f := rfl

/-! ## The scores -/

/-- Queries times transposed keys into the zero accumulator: entry (i, j) is Σ_d q[i, d] · k[j, d]. -/
theorem scoreTile_apply (q k : FVec Ideal S1x512x512 .bf16) (hc : S1x512x512.ShapeCasts S512x512)
    (ht : S512x512.Transposes [1, 0] S512x512) (i j : Fin 512) :
    matmul dot_S512x512_S512x512_S512x512_1_0_0_1_n_n none (shapeCast S512x512 q hc)
        (transpose S512x512 [1, 0] (shapeCast S512x512 k hc) ht) (constant (F := Ideal) S512x512 .f32 0x00000000#32) (ix2 i j)
      = ∑ d : Fin 512, q (ix3 (0 : Fin 1) i d) * k (ix3 (0 : Fin 1) j d) := by
  refine (Cert.LibPlainContract.matmul_plain_apply 512 512 512 none _ _ i j).trans ?_
  refine Finset.sum_congr rfl fun d _ => ?_
  exact congrArg₂ (· * ·) (shapeCast_1ab_ab_apply q hc i d)
    ((transpose_ix2_apply _ ht d j).trans (shapeCast_1ab_ab_apply k hc j d))

/-- The scaled scores at entry (i, j). -/
theorem k1_pay8_apply (q k : Vec Ideal S1x512x512 .bf16) (i j : Fin 512) :
    k1_pay8 q k (ix2 i j) = (∑ d : Fin 512, q (ix3 (0 : Fin 1) i d) * k (ix3 (0 : Fin 1) j d)) * Cert.Attn.scale := by
  unfold k1_pay8
  exact congrArg (· * Cert.Attn.scale) (scoreTile_apply q k _ _ i j)

/-! ## The running maximum, the rescaling factor and the weights -/

/-- The new row maximum: the larger of the old one and the largest score of the row. -/
theorem k1_pay9_apply (q k : Vec Ideal S1x512x512 .bf16) (m : Vec Ideal S512x1 .f32) (i : Fin 512) :
    k1_pay9 q k m (ix2 i (0 : Fin 1))
      = max (m (ix2 i (0 : Fin 1))) (Finset.univ.sup fun j : Fin 512 => k1_pay8 q k (ix2 i j)) := by
  unfold k1_pay9
  refine (maximumf_apply _ _ _).trans (congrArg (max (m (ix2 i (0 : Fin 1)))) ?_)
  refine (Cert.Lib.Keepdims.shapeCast_a_a1_apply _ _ i 0).trans ?_
  refine (Cert.Lib.RowFold.multiReduction_maximumf_row (k1_pay8 q k) _ _ _ _ i).trans ?_
  rw [ofBits_negInf_f32]
  exact fold_max_bot_eq_sup _

/-- The rescaling factor: the exponential of the old maximum less the new one. -/
theorem k1_pay10_apply (q k : Vec Ideal S1x512x512 .bf16) (m m' : Vec Ideal S512x1 .f32) (i : Fin 512) :
    k1_pay10 q k m m' (ix2 i (0 : Fin 1))
      = Ideal.exp (m' (ix2 i (0 : Fin 1)) - k1_pay9 q k m (ix2 i (0 : Fin 1))) := by
  unfold k1_pay10
  rfl

/-- The weights: the exponential of each score less the new maximum of its row. -/
theorem k1_pay11_apply (q k : Vec Ideal S1x512x512 .bf16) (m : Vec Ideal S512x1 .f32) (i j : Fin 512) :
    k1_pay11 q k m (ix2 i j) = Ideal.exp (k1_pay8 q k (ix2 i j) - k1_pay9 q k m (ix2 i (0 : Fin 1))) := by
  unfold k1_pay11
  exact congrArg (fun t => Ideal.exp (k1_pay8 q k (ix2 i j) - t))
    (Cert.Lib.Keepdims.broadcastTo_a1_ab_apply (k1_pay9 q k m) _ i j)

/-- The new row sum: the old one times the factor, plus the sum of the row's weights. -/
theorem k1_pay12_apply (q k : Vec Ideal S1x512x512 .bf16) (m m' l : Vec Ideal S512x1 .f32) (i : Fin 512) :
    k1_pay12 q k m m' l (ix2 i (0 : Fin 1))
      = k1_pay10 q k m m' (ix2 i (0 : Fin 1)) * l (ix2 i (0 : Fin 1)) + ∑ j : Fin 512, k1_pay11 q k m (ix2 i j) := by
  unfold k1_pay12
  refine (congrFun (shapeCast_self _ _) _).trans ?_
  refine (addf_apply _ _ _).trans (congrArg (k1_pay10 q k m m' (ix2 i (0 : Fin 1)) * l (ix2 i (0 : Fin 1)) + ·) ?_)
  refine (Cert.Lib.Keepdims.shapeCast_a_a1_apply _ _ i 0).trans ?_
  exact Cert.Lib.RowFold.multiReduction_add_row (k1_pay11 q k m) _ _ _ _ i

/-! ## The value tile, the weighted sum and the two carried statistics -/

/-- The value tile with its unit axis dropped. -/
theorem k1_pay7_apply (v : Vec Ideal S1x512x512 .bf16) (j c : Fin 512) :
    k1_pay7 v (ix2 j c) = v (ix3 (0 : Fin 1) j c) := by
  unfold k1_pay7
  exact shapeCast_1ab_ab_apply v _ j c

/-- The new weighted sum: the old one times the row's factor, plus Σ_j weight[i, j] · v[j, c]. -/
theorem k1_pay1_apply (vv : FVec Ideal S512x512 .bf16) (a : FVec Ideal S512x1 .f32) (pp : FVec Ideal S512x512 .f32)
    (acc : Vec Ideal S512x512 .f32) (i c : Fin 512) :
    k1_pay1 vv a pp acc (ix2 i c)
      = a (ix2 i (0 : Fin 1)) * acc (ix2 i c) + ∑ j : Fin 512, pp (ix2 i j) * vv (ix2 j c) := by
  unfold k1_pay1
  refine (congrFun (shapeCast_self _ _) _).trans ?_
  refine (addf_apply _ _ _).trans ?_
  exact congrArg₂ (· + ·)
    (congrArg (· * acc (ix2 i c)) (Cert.Lib.Keepdims.broadcastTo_a1_ab_apply a _ i c))
    (Cert.LibPlainContract.matmul_plain_apply 512 512 512 none _ vv i c)

/-- The carried maximum is stored as it is. -/
theorem k1_pay2_eq (m : FVec Ideal S512x1 .f32) : k1_pay2 m = m := by
  unfold k1_pay2
  exact shapeCast_self _ _

/-! ## The output tile -/

/-- After the last key tile: the weighted sum over the row sum, times the output weights, plus the output bias. -/
theorem k1_pay3_apply (acc : Vec Ideal S512x512 .f32) (l : Vec Ideal S512x1 .f32) (wo : Vec Ideal S512x512 .f32)
    (bo : Vec Ideal S512 .f32) (i c : Fin 512) :
    k1_pay3 acc l wo bo (ix3 (0 : Fin 1) i c)
      = (∑ p : Fin 512, Ideal.div (acc (ix2 i p)) (l (ix2 i (0 : Fin 1))) * wo (ix2 p c)) + bo (ix1 c) := by
  unfold k1_pay3
  refine (shapeCast_ab_1ab_apply _ _ 0 i c).trans ?_
  refine (addf_apply _ _ _).trans ?_
  refine congrArg₂ (· + ·) ?_ ((broadcastTo_1b_ab_apply _ _ i c).trans (shapeCast_a_1a_apply bo _ 0 c))
  refine (Cert.LibPlainContract.matmul_plain_apply 512 512 512 none _ _ i c).trans ?_
  refine Finset.sum_congr rfl fun p _ => ?_
  exact congrArg (fun t => Ideal.div (acc (ix2 i p)) t * wo (ix2 p c))
    (Cert.Lib.Keepdims.broadcastTo_a1_ab_apply l _ i p)

/-! ## The initial values -/

/-- The initial maximum is −∞ everywhere. -/
theorem k1_pay4_eq : (k1_pay4 : FVec Ideal S512x1 .f32) = fun _ => (⊥ : EReal) := by
  unfold k1_pay4
  refine (shapeCast_self _ _).trans ?_
  funext _
  exact ofBits_negInf_f32

/-- The initial row sum is 0 everywhere. -/
theorem k1_pay5_eq : (k1_pay5 : FVec Ideal S512x1 .f32) = fun _ => (0 : EReal) := by
  unfold k1_pay5
  refine (shapeCast_self _ _).trans ?_
  funext _
  exact Ideal.ofBits_zero_f32

/-- The initial weighted sum is 0 everywhere. -/
theorem k1_pay6_eq : (k1_pay6 : FVec Ideal S512x512 .f32) = fun _ => (0 : EReal) := by
  unfold k1_pay6
  refine (shapeCast_self _ _).trans ?_
  funext _
  exact Ideal.ofBits_zero_f32

end Cert.Attn.Pay

end
-- ==== Proof.OnlineRec.lean ====
/-
  The online softmax recursion over eight tiles of 512 keys, for one query row, at the exact extended reals.

  The keys of the row are the pairs (j, r): tile j, row r inside the tile. The tiles are visited in order from the state
  (−∞, 0, 0), and each visit replaces the state (m, l, acc) by
    m' = max m (largest score of the tile),   a = exp (m − m'),
    l' = a·l + Σ_r exp (s(j,r) − m'),         acc' = a·acc + Σ_r exp (s(j,r) − m')·v(j,r).
  After n tiles the state is the three statistics of the keys seen so far: the largest score, the sum of the exponentials of
  the scores relative to it, and the same sum weighted by the values. After all eight tiles the quotient acc / l is therefore
  the quotient of the two statistics of the whole key set, and the same holds when the keys are numbered flatly, t = 512·j + r.
-/
import Idealize.ShloMosaic.PureOps.Ideal
import proofs.«145638_j28441273434636_2_alg».proof.Proof.LibOnlineSoftmax

noncomputable section

namespace Cert.Attn.Rec

open Idealize.ShloMosaic Idealize.ShloMosaic.OnlineSoftmax

/-! ## The recursion -/

/-- One visit: the scores sj and the values vj of the 512 rows of a tile, applied to the state (m, l, acc). -/
def step (sj vj : Fin 512 → EReal) (st : EReal × EReal × EReal) : EReal × EReal × EReal :=
  (max st.1 (Finset.univ.sup sj),
   Ideal.exp (st.1 - max st.1 (Finset.univ.sup sj)) * st.2.1
     + ∑ r : Fin 512, Ideal.exp (sj r - max st.1 (Finset.univ.sup sj)),
   Ideal.exp (st.1 - max st.1 (Finset.univ.sup sj)) * st.2.2
     + ∑ r : Fin 512, Ideal.exp (sj r - max st.1 (Finset.univ.sup sj)) * vj r)

/-- The state after the first n tiles (tiles 0, …, n − 1 in this order); past the eighth tile nothing changes. -/
def stat (s v : Fin 8 × Fin 512 → EReal) : ℕ → EReal × EReal × EReal
  | 0 => (⊥, 0, 0)
  | n + 1 =>
    if h : n < 8 then step (fun r => s (⟨n, h⟩, r)) (fun r => v (⟨n, h⟩, r)) (stat s v n) else stat s v n

theorem stat_zero (s v : Fin 8 × Fin 512 → EReal) : stat s v 0 = (⊥, 0, 0) := rfl

theorem stat_succ (s v : Fin 8 × Fin 512 → EReal) {n : ℕ} (h : n < 8) :
    stat s v (n + 1) = step (fun r => s (⟨n, h⟩, r)) (fun r => v (⟨n, h⟩, r)) (stat s v n) := by
  rw [stat, dif_pos h]

/-! ## The keys seen after n tiles, and the keys of tile n -/

/-- The keys of the tiles before the n-th. -/
def seen (n : ℕ) : Finset (Fin 8 × Fin 512) := Finset.univ.filter fun k => k.1.val < n

/-- The keys of the n-th tile. -/
def tile (n : ℕ) : Finset (Fin 8 × Fin 512) := Finset.univ.filter fun k => k.1.val = n

theorem seen_zero : seen 0 = ∅ := by
  ext k; simp only [seen, Finset.mem_filter, Finset.mem_univ, true_and, Nat.not_lt_zero, Finset.notMem_empty]

theorem seen_succ (n : ℕ) : seen (n + 1) = seen n ∪ tile n := by
  ext k
  simp only [seen, tile, Finset.mem_union, Finset.mem_filter, Finset.mem_univ, true_and]
  omega

theorem seen_disjoint (n : ℕ) : Disjoint (seen n) (tile n) := by
  rw [Finset.disjoint_left]
  intro k hk hk'
  simp only [seen, tile, Finset.mem_filter, Finset.mem_univ, true_and] at hk hk'
  omega

theorem seen_eight : seen 8 = Finset.univ := by
  ext k
  simp only [seen, Finset.mem_filter, Finset.mem_univ, true_and, iff_true]
  exact k.1.isLt

/-- Row r of tile j, as a key. -/
def inTile (j : Fin 8) : Fin 512 ↪ Fin 8 × Fin 512 := ⟨fun r => (j, r), fun _ _ h => (Prod.mk.inj h).2⟩

/-- The keys of a tile are its 512 rows. -/
theorem tile_eq {n : ℕ} (h : n < 8) : tile n = Finset.univ.map (inTile ⟨n, h⟩) := by
  ext k
  simp only [tile, Finset.mem_filter, Finset.mem_univ, true_and, Finset.mem_map, inTile, Function.Embedding.coeFn_mk]
  constructor
  · intro hk
    exact ⟨k.2, Prod.ext (Fin.ext hk.symm) rfl⟩
  · rintro ⟨r, rfl⟩
    rfl

theorem top_tile {n : ℕ} (h : n < 8) (s : Fin 8 × Fin 512 → EReal) :
    top (tile n) s = Finset.univ.sup fun r : Fin 512 => s (⟨n, h⟩, r) := by
  unfold top
  rw [tile_eq h, Finset.sup_map]
  rfl

theorem sum_tile {n : ℕ} (h : n < 8) (g : Fin 8 × Fin 512 → EReal) :
    ∑ k ∈ tile n, g k = ∑ r : Fin 512, g (⟨n, h⟩, r) := by
  rw [tile_eq h, Finset.sum_map]
  rfl

/-! ## The state is the three statistics of the keys seen -/

theorem stat_eq (s v : Fin 8 × Fin 512 → EReal) (hs : ∀ k, IsReal (s k)) (hv : ∀ k, IsReal (v k)) :
    ∀ n : ℕ, n ≤ 8 → stat s v n = (top (seen n) s, OnlineSoftmax.norm (seen n) s, wsum (seen n) s v)
  | 0, _ => by
    rw [stat_zero, seen_zero, top_empty, norm_empty, wsum_empty]
  | n + 1, hn => by
    have h : n < 8 := hn
    have ih := stat_eq s v hs hv n (Nat.le_of_lt h)
    have hsS : ∀ k ∈ seen n ∪ tile n, IsScore (s k) := fun k _ => (hs k).isScore
    have hvS : ∀ k ∈ seen n ∪ tile n, IsReal (v k) := fun k _ => hv k
    have hmem : ((⟨n, h⟩, 0) : Fin 8 × Fin 512) ∈ tile n := by
      simp only [tile, Finset.mem_filter, Finset.mem_univ, true_and]
    have hT : IsReal (top (tile n) s) :=
      top_isReal_of_mem (tile n) s (fun k _ => (hs k).isScore) hmem (hs _)
    rw [stat_succ s v h, ih, seen_succ,
      ← norm_step (seen n) (tile n) (seen_disjoint n) s hsS hT,
      ← wsum_step (seen n) (tile n) (seen_disjoint n) s v hsS hvS hT,
      top_union, sum_tile h, sum_tile h, top_tile h]
    rfl

/-- After the eight tiles the quotient acc / l is the quotient of the statistics of the whole key set. -/
theorem final (s v : Fin 8 × Fin 512 → EReal) (hs : ∀ k, IsReal (s k)) (hv : ∀ k, IsReal (v k)) :
    Ideal.div (stat s v 8).2.2 (stat s v 8).2.1
      = Ideal.div (wsum Finset.univ s v) (OnlineSoftmax.norm Finset.univ s) := by
  have h := stat_eq s v hs hv 8 le_rfl
  rw [seen_eight] at h
  rw [h]

/-! ## The running sums are real numbers, the running sum l a positive one -/

/-- The weighted statistic of a key set whose largest score is a real number is a real number. -/
theorem wsum_isReal {κ : Type*} (S : Finset κ) (s v : κ → EReal) (hs : ∀ k ∈ S, IsScore (s k))
    (hv : ∀ k ∈ S, IsReal (v k)) (htop : IsReal (top S s)) : IsReal (wsum S s v) := by
  obtain ⟨b, hb⟩ := htop
  unfold wsum
  rw [hb]
  exact IsReal.sum S _ fun k hk => IsReal.mul ⟨ex (s k) b, exp_sub_coe (hs k hk) b⟩ (hv k hk)

/-- Once a tile has been visited the largest score seen is a real number. -/
theorem top_seen_isReal (s : Fin 8 × Fin 512 → EReal) (hs : ∀ k, IsReal (s k)) {n : ℕ} (h0 : 0 < n) :
    IsReal (top (seen n) s) := by
  have hmem : ((0, 0) : Fin 8 × Fin 512) ∈ seen n := by
    simp only [seen, Finset.mem_filter, Finset.mem_univ, true_and]
    exact h0
  exact top_isReal_of_mem (seen n) s (fun k _ => (hs k).isScore) hmem (hs _)

/-- The running maximum after at least one tile is a real number. -/
theorem m_real (s v : Fin 8 × Fin 512 → EReal) (hs : ∀ k, IsReal (s k)) (hv : ∀ k, IsReal (v k)) {n : ℕ}
    (h0 : 0 < n) (hn : n ≤ 8) : IsReal (stat s v n).1 := by
  rw [stat_eq s v hs hv n hn]
  exact top_seen_isReal s hs h0

/-- The running sum l after at least one tile is a positive real number. -/
theorem l_pos (s v : Fin 8 × Fin 512 → EReal) (hs : ∀ k, IsReal (s k)) (hv : ∀ k, IsReal (v k)) {n : ℕ}
    (h0 : 0 < n) (hn : n ≤ 8) : ∃ N : ℝ, 0 < N ∧ (stat s v n).2.1 = (N : EReal) := by
  obtain ⟨N, hN, eN, -⟩ := norm_pos (seen n) s (fun k _ => (hs k).isScore) (top_seen_isReal s hs h0)
  refine ⟨N, hN, ?_⟩
  rw [stat_eq s v hs hv n hn]
  exact eN

theorem l_real (s v : Fin 8 × Fin 512 → EReal) (hs : ∀ k, IsReal (s k)) (hv : ∀ k, IsReal (v k)) {n : ℕ}
    (h0 : 0 < n) (hn : n ≤ 8) : IsReal (stat s v n).2.1 := by
  obtain ⟨N, -, eN⟩ := l_pos s v hs hv h0 hn
  exact ⟨N, eN⟩

/-- The running weighted sum acc after at least one tile is a real number. -/
theorem acc_real (s v : Fin 8 × Fin 512 → EReal) (hs : ∀ k, IsReal (s k)) (hv : ∀ k, IsReal (v k)) {n : ℕ}
    (h0 : 0 < n) (hn : n ≤ 8) : IsReal (stat s v n).2.2 := by
  rw [stat_eq s v hs hv n hn]
  exact wsum_isReal (seen n) s v (fun k _ => (hs k).isScore) (fun k _ => hv k) (top_seen_isReal s hs h0)

/-! ## The same over the flat key index t = 512·j + r -/

/-- Key (j, r) is key row 512·j + r of the 4096. -/
def flat (k : Fin 8 × Fin 512) : Fin 4096 :=
  ⟨512 * k.1.val + k.2.val, by have := k.1.isLt; have := k.2.isLt; omega⟩

theorem flat_val (j : Fin 8) (r : Fin 512) : (flat (j, r)).val = 512 * j.val + r.val := rfl

theorem flat_bijective : Function.Bijective flat := by
  constructor
  · intro a b h
    have h' : 512 * a.1.val + a.2.val = 512 * b.1.val + b.2.val := congrArg Fin.val h
    have := a.2.isLt
    have := b.2.isLt
    exact Prod.ext (Fin.ext (by omega)) (Fin.ext (by omega))
  · intro t
    have ht := t.isLt
    refine ⟨(⟨t.val / 512, by omega⟩, ⟨t.val % 512, by omega⟩), Fin.ext ?_⟩
    show 512 * (t.val / 512) + t.val % 512 = t.val
    omega

/-- The renumbering of the keys, as an equivalence. -/
def flatEquiv : Fin 8 × Fin 512 ≃ Fin 4096 := Equiv.ofBijective flat flat_bijective

theorem flatEquiv_apply (k : Fin 8 × Fin 512) : flatEquiv k = flat k := rfl

/-- The three statistics of the image of a key set under an injective renumbering are those of the renumbered data. -/
theorem top_map {κ κ' : Type*} (f : κ ↪ κ') (S : Finset κ) (s : κ' → EReal) :
    top (S.map f) s = top S (fun k => s (f k)) := by
  unfold top
  rw [Finset.sup_map]
  rfl

theorem norm_map {κ κ' : Type*} (f : κ ↪ κ') (S : Finset κ) (s : κ' → EReal) :
    OnlineSoftmax.norm (S.map f) s = OnlineSoftmax.norm S (fun k => s (f k)) := by
  unfold OnlineSoftmax.norm
  rw [Finset.sum_map, top_map]

theorem wsum_map {κ κ' : Type*} (f : κ ↪ κ') (S : Finset κ) (s v : κ' → EReal) :
    wsum (S.map f) s v = wsum S (fun k => s (f k)) (fun k => v (f k)) := by
  unfold wsum
  rw [Finset.sum_map, top_map]

theorem top_flat (sf : Fin 4096 → EReal) : top Finset.univ (fun k => sf (flat k)) = top Finset.univ sf := by
  have h := top_map flatEquiv.toEmbedding Finset.univ sf
  rw [Finset.map_univ_equiv] at h
  exact h.symm

theorem norm_flat (sf : Fin 4096 → EReal) :
    OnlineSoftmax.norm Finset.univ (fun k => sf (flat k)) = OnlineSoftmax.norm Finset.univ sf := by
  have h := norm_map flatEquiv.toEmbedding Finset.univ sf
  rw [Finset.map_univ_equiv] at h
  exact h.symm

theorem wsum_flat (sf vf : Fin 4096 → EReal) :
    wsum Finset.univ (fun k => sf (flat k)) (fun k => vf (flat k)) = wsum Finset.univ sf vf := by
  have h := wsum_map flatEquiv.toEmbedding Finset.univ sf vf
  rw [Finset.map_univ_equiv] at h
  exact h.symm

/-- After the eight tiles, with the scores and values read off flat arrays at t = 512·j + r, the quotient acc / l is the
    quotient of the two statistics of the 4096 keys. -/
theorem final_flat' (sf vf : Fin 4096 → EReal) (hs : ∀ t, IsReal (sf t)) (hv : ∀ t, IsReal (vf t)) :
    Ideal.div (stat (fun k => sf (flat k)) (fun k => vf (flat k)) 8).2.2
        (stat (fun k => sf (flat k)) (fun k => vf (flat k)) 8).2.1
      = Ideal.div (wsum Finset.univ sf vf) (OnlineSoftmax.norm Finset.univ sf) := by
  rw [final _ _ (fun k => hs (flat k)) (fun k => hv (flat k)), wsum_flat, norm_flat]

/-- The same, the tiled data given with the equations that tie it to the flat arrays. -/
theorem final_flat (s v : Fin 8 × Fin 512 → EReal) (sf vf : Fin 4096 → EReal)
    (hsf : ∀ (j : Fin 8) (r : Fin 512), s (j, r) = sf (flat (j, r)))
    (hvf : ∀ (j : Fin 8) (r : Fin 512), v (j, r) = vf (flat (j, r)))
    (hs : ∀ t, IsReal (sf t)) (hv : ∀ t, IsReal (vf t)) :
    Ideal.div (stat s v 8).2.2 (stat s v 8).2.1
      = Ideal.div (wsum Finset.univ sf vf) (OnlineSoftmax.norm Finset.univ sf) := by
  have es : s = fun k => sf (flat k) := funext fun k => hsf k.1 k.2
  have ev : v = fun k => vf (flat k) := funext fun k => hvf k.1 k.2
  rw [es, ev]
  exact final_flat' sf vf hs hv

end Cert.Attn.Rec

end
-- ==== Proof.KStat.lean ====
/-
  The attention kernel's running statistics, one query row at a time.

  For one tile of 512 query rows the kernel visits the eight key tiles of the batch in order. It keeps, per query row,
  the largest score seen, the sum of the exponentials of the scores relative to it, and, per feature, the same sum
  weighted by the value rows. Read at one row (and one feature), one visit is one step of the online softmax
  recursion on the scores of that row against the tile's 512 keys; the state after n visits is the recursion's state
  after n tiles; and after the eighth visit the stored block is, entry by entry, the quotient of the two statistics
  of all 4096 keys (numbered t = 512·tile + row), times the output weights, plus the output bias.
-/
import proofs.«145638_j28441273434636_2_alg».proof.Proof.Pay1
import proofs.«145638_j28441273434636_2_alg».proof.Proof.OnlineRec

noncomputable section

namespace Cert.Attn.KStat

open Idealize.ShloMosaic Idealize.ShloMosaic.ValueIdx Idealize.ShloMosaic.OnlineSoftmax
open Cert.KernelIdeal Cert.KernelIdeal.Gen Cert.Attn.Pay

/-! ## One key tile, one query row -/

/-- One visit of a key tile, read at query row i and feature p, is one step of the recursion on the row's scores
    against the tile's keys and on the tile's values at feature p. -/
theorem step_row (q k v : Vec Ideal S1x512x512 .bf16) (m l : Vec Ideal S512x1 .f32) (acc : Vec Ideal S512x512 .f32)
    (i p : Fin 512) :
    (k1_pay2 (k1_pay9 q k m) (ix2 i (0 : Fin 1)), k1_pay12 q k m m l (ix2 i (0 : Fin 1)),
        k1_pay1 (k1_pay7 v) (k1_pay10 q k m m) (k1_pay11 q k m) acc (ix2 i p))
      = Rec.step (fun j => k1_pay8 q k (ix2 i j)) (fun j => v (ix3 (0 : Fin 1) j p))
          (m (ix2 i (0 : Fin 1)), l (ix2 i (0 : Fin 1)), acc (ix2 i p)) := by
  have h9 := k1_pay9_apply q k m i
  have h10 : k1_pay10 q k m m (ix2 i (0 : Fin 1))
      = Ideal.exp (m (ix2 i (0 : Fin 1)) - max (m (ix2 i (0 : Fin 1))) (Finset.univ.sup fun j : Fin 512 => k1_pay8 q k (ix2 i j))) := by
    rw [k1_pay10_apply, h9]
  have h11 : ∀ j : Fin 512, k1_pay11 q k m (ix2 i j)
      = Ideal.exp (k1_pay8 q k (ix2 i j) - max (m (ix2 i (0 : Fin 1))) (Finset.univ.sup fun j : Fin 512 => k1_pay8 q k (ix2 i j))) :=
    fun j => by rw [k1_pay11_apply, h9]
  have h1 : k1_pay2 (k1_pay9 q k m) (ix2 i (0 : Fin 1))
      = max (m (ix2 i (0 : Fin 1))) (Finset.univ.sup fun j : Fin 512 => k1_pay8 q k (ix2 i j)) :=
    (congrFun (k1_pay2_eq _) _).trans h9
  have h2 : k1_pay12 q k m m l (ix2 i (0 : Fin 1))
      = Ideal.exp (m (ix2 i (0 : Fin 1)) - max (m (ix2 i (0 : Fin 1))) (Finset.univ.sup fun j : Fin 512 => k1_pay8 q k (ix2 i j)))
          * l (ix2 i (0 : Fin 1))
        + ∑ r : Fin 512, Ideal.exp (k1_pay8 q k (ix2 i r)
            - max (m (ix2 i (0 : Fin 1))) (Finset.univ.sup fun j : Fin 512 => k1_pay8 q k (ix2 i j))) := by
    rw [k1_pay12_apply, h10]
    exact congrArg _ (Finset.sum_congr rfl fun j _ => h11 j)
  have h3 : k1_pay1 (k1_pay7 v) (k1_pay10 q k m m) (k1_pay11 q k m) acc (ix2 i p)
      = Ideal.exp (m (ix2 i (0 : Fin 1)) - max (m (ix2 i (0 : Fin 1))) (Finset.univ.sup fun j : Fin 512 => k1_pay8 q k (ix2 i j)))
          * acc (ix2 i p)
        + ∑ r : Fin 512, Ideal.exp (k1_pay8 q k (ix2 i r)
            - max (m (ix2 i (0 : Fin 1))) (Finset.univ.sup fun j : Fin 512 => k1_pay8 q k (ix2 i j))) * v (ix3 (0 : Fin 1) r p) := by
    rw [k1_pay1_apply, h10]
    refine congrArg _ (Finset.sum_congr rfl fun j _ => ?_)
    rw [h11 j, k1_pay7_apply]
  rw [h1, h2, h3]
  rfl

/-! ## The scratch after n key tiles -/

/-- The three scratch arrays after the first n key tiles of a batch (ks j and vs j the j-th key and value tiles), as the
    kernel's body computes them from the initial values; past the eighth tile nothing changes. -/
def kstat (q : Vec Ideal S1x512x512 .bf16) (ks vs : Fin 8 → Vec Ideal S1x512x512 .bf16) :
    ℕ → FVec Ideal S512x1 .f32 × FVec Ideal S512x1 .f32 × FVec Ideal S512x512 .f32
  | 0 => (k1_pay4, k1_pay5, k1_pay6)
  | n + 1 =>
    if h : n < 8 then
      (k1_pay2 (k1_pay9 q (ks ⟨n, h⟩) (kstat q ks vs n).1),
       k1_pay12 q (ks ⟨n, h⟩) (kstat q ks vs n).1 (kstat q ks vs n).1 (kstat q ks vs n).2.1,
       k1_pay1 (k1_pay7 (vs ⟨n, h⟩)) (k1_pay10 q (ks ⟨n, h⟩) (kstat q ks vs n).1 (kstat q ks vs n).1)
         (k1_pay11 q (ks ⟨n, h⟩) (kstat q ks vs n).1) (kstat q ks vs n).2.2)
    else kstat q ks vs n

theorem kstat_zero (q : Vec Ideal S1x512x512 .bf16) (ks vs : Fin 8 → Vec Ideal S1x512x512 .bf16) :
    kstat q ks vs 0 = (k1_pay4, k1_pay5, k1_pay6) := rfl

theorem kstat_succ (q : Vec Ideal S1x512x512 .bf16) (ks vs : Fin 8 → Vec Ideal S1x512x512 .bf16) {n : ℕ} (h : n < 8) :
    kstat q ks vs (n + 1)
      = (k1_pay2 (k1_pay9 q (ks ⟨n, h⟩) (kstat q ks vs n).1),
         k1_pay12 q (ks ⟨n, h⟩) (kstat q ks vs n).1 (kstat q ks vs n).1 (kstat q ks vs n).2.1,
         k1_pay1 (k1_pay7 (vs ⟨n, h⟩)) (k1_pay10 q (ks ⟨n, h⟩) (kstat q ks vs n).1 (kstat q ks vs n).1)
           (k1_pay11 q (ks ⟨n, h⟩) (kstat q ks vs n).1) (kstat q ks vs n).2.2) := by
  rw [kstat, dif_pos h]

/-- Read at query row i and feature p, the scratch after n key tiles is the recursion's state after n tiles, on the
    row's scores against the keys (tile, row) and on the values at feature p. -/
theorem kstat_row (q : Vec Ideal S1x512x512 .bf16) (ks vs : Fin 8 → Vec Ideal S1x512x512 .bf16) (i p : Fin 512) :
    ∀ n : ℕ, n ≤ 8 →
      ((kstat q ks vs n).1 (ix2 i (0 : Fin 1)), (kstat q ks vs n).2.1 (ix2 i (0 : Fin 1)), (kstat q ks vs n).2.2 (ix2 i p))
        = Rec.stat (fun k => k1_pay8 q (ks k.1) (ix2 i k.2)) (fun k => vs k.1 (ix3 (0 : Fin 1) k.2 p)) n
  | 0, _ => by
    rw [kstat_zero, Rec.stat_zero]
    show ((k1_pay4 : FVec Ideal S512x1 .f32) (ix2 i (0 : Fin 1)), (k1_pay5 : FVec Ideal S512x1 .f32) (ix2 i (0 : Fin 1)),
        (k1_pay6 : FVec Ideal S512x512 .f32) (ix2 i p)) = _
    rw [k1_pay4_eq, k1_pay5_eq, k1_pay6_eq]
  | n + 1, hn => by
    have h : n < 8 := hn
    have ih := kstat_row q ks vs i p n (Nat.le_of_lt h)
    rw [kstat_succ q ks vs h, Rec.stat_succ _ _ h]
    refine (step_row q (ks ⟨n, h⟩) (vs ⟨n, h⟩) (kstat q ks vs n).1 (kstat q ks vs n).2.1 (kstat q ks vs n).2.2 i p).trans ?_
    rw [ih]

/-! ## The scale is a real number -/

/-- The word of the scale is the real number 1/8. -/
theorem scale_eq : Cert.Attn.scale = (((1 / 8 : ℝ)) : EReal) := by
  unfold Cert.Attn.scale
  simp [Ideal.ofBits, Ideal.ieee, -EReal.coe_mul]
  norm_num

theorem scale_isReal : IsReal Cert.Attn.scale := ⟨1 / 8, scale_eq⟩

/-! ## The keys numbered flatly -/

/-- The key tile of key row t of the 4096 … -/
def tileOf (t : Fin 4096) : Fin 8 := ⟨t.val / 512, by have := t.isLt; omega⟩
/-- … and its row inside the tile. -/
def rowOf (t : Fin 4096) : Fin 512 := ⟨t.val % 512, by omega⟩

theorem tileOf_val (t : Fin 4096) : (tileOf t).val = t.val / 512 := rfl
theorem rowOf_val (t : Fin 4096) : (rowOf t).val = t.val % 512 := rfl

theorem tileOf_flat (j : Fin 8) (r : Fin 512) : tileOf (Rec.flat (j, r)) = j :=
  Fin.ext (by
    have := r.isLt
    show (512 * j.val + r.val) / 512 = j.val
    omega)

theorem rowOf_flat (j : Fin 8) (r : Fin 512) : rowOf (Rec.flat (j, r)) = r :=
  Fin.ext (by
    have := r.isLt
    show (512 * j.val + r.val) % 512 = r.val
    omega)

/-- The score of query row i against key row t of the 4096: the scaled product of the query row with the key row. -/
def flatScore (q : Vec Ideal S1x512x512 .bf16) (ks : Fin 8 → Vec Ideal S1x512x512 .bf16) (i : Fin 512) (t : Fin 4096) : EReal :=
  (∑ d : Fin 512, q (ix3 (0 : Fin 1) i d) * ks (tileOf t) (ix3 (0 : Fin 1) (rowOf t) d)) * Cert.Attn.scale

/-- Feature p of value row t of the 4096. -/
def flatValue (vs : Fin 8 → Vec Ideal S1x512x512 .bf16) (p : Fin 512) (t : Fin 4096) : EReal :=
  vs (tileOf t) (ix3 (0 : Fin 1) (rowOf t) p)

theorem flatScore_flat (q : Vec Ideal S1x512x512 .bf16) (ks : Fin 8 → Vec Ideal S1x512x512 .bf16) (i : Fin 512)
    (j : Fin 8) (r : Fin 512) : k1_pay8 q (ks j) (ix2 i r) = flatScore q ks i (Rec.flat (j, r)) := by
  unfold flatScore
  rw [tileOf_flat, rowOf_flat]
  exact k1_pay8_apply q (ks j) i r

theorem flatValue_flat (vs : Fin 8 → Vec Ideal S1x512x512 .bf16) (p : Fin 512) (j : Fin 8) (r : Fin 512) :
    vs j (ix3 (0 : Fin 1) r p) = flatValue vs p (Rec.flat (j, r)) := by
  unfold flatValue
  rw [tileOf_flat, rowOf_flat]

theorem flatScore_isReal (q : Vec Ideal S1x512x512 .bf16) (ks : Fin 8 → Vec Ideal S1x512x512 .bf16)
    (hq : ∀ x, IsReal (q x)) (hk : ∀ j x, IsReal (ks j x)) (i : Fin 512) (t : Fin 4096) : IsReal (flatScore q ks i t) :=
  IsReal.mul (IsReal.sum _ _ fun d _ => IsReal.mul (hq _) (hk _ _)) scale_isReal

/-! ## The finished block -/

/-- After the eighth key tile the stored block is, at entry (i, c), the quotient of the two statistics of the 4096 keys
    for query row i, feature by feature, times the output weights, plus the output bias. -/
theorem finish (q : Vec Ideal S1x512x512 .bf16) (ks vs : Fin 8 → Vec Ideal S1x512x512 .bf16)
    (hq : ∀ x, IsReal (q x)) (hk : ∀ j x, IsReal (ks j x)) (hv : ∀ j x, IsReal (vs j x))
    (wo : Vec Ideal S512x512 .f32) (bo : Vec Ideal S512 .f32) (i c : Fin 512) :
    k1_pay3 (kstat q ks vs 8).2.2 (kstat q ks vs 8).2.1 wo bo (ix3 (0 : Fin 1) i c)
      = (∑ p : Fin 512,
          Ideal.div (wsum Finset.univ (flatScore q ks i) (flatValue vs p)) (OnlineSoftmax.norm Finset.univ (flatScore q ks i))
            * wo (ix2 p c))
        + bo (ix1 c) := by
  rw [k1_pay3_apply]
  refine congrArg (· + bo (ix1 c)) (Finset.sum_congr rfl fun p _ => congrArg (· * wo (ix2 p c)) ?_)
  have hrow := kstat_row q ks vs i p 8 le_rfl
  have e1 : (kstat q ks vs 8).2.1 (ix2 i (0 : Fin 1))
      = (Rec.stat (fun k => k1_pay8 q (ks k.1) (ix2 i k.2)) (fun k => vs k.1 (ix3 (0 : Fin 1) k.2 p)) 8).2.1 :=
    congrArg (fun t => t.2.1) hrow
  have e2 : (kstat q ks vs 8).2.2 (ix2 i p)
      = (Rec.stat (fun k => k1_pay8 q (ks k.1) (ix2 i k.2)) (fun k => vs k.1 (ix3 (0 : Fin 1) k.2 p)) 8).2.2 :=
    congrArg (fun t => t.2.2) hrow
  rw [e1, e2]
  exact Rec.final_flat _ _ (flatScore q ks i) (flatValue vs p)
    (fun j r => flatScore_flat q ks i j r) (fun j r => flatValue_flat vs p j r)
    (fun t => flatScore_isReal q ks hq hk i t) (fun t => hv _ _)

/-- The same with the keys kept as pairs (tile, row). -/
theorem finish_pairs (q : Vec Ideal S1x512x512 .bf16) (ks vs : Fin 8 → Vec Ideal S1x512x512 .bf16)
    (hq : ∀ x, IsReal (q x)) (hk : ∀ j x, IsReal (ks j x)) (hv : ∀ j x, IsReal (vs j x))
    (wo : Vec Ideal S512x512 .f32) (bo : Vec Ideal S512 .f32) (i c : Fin 512) :
    k1_pay3 (kstat q ks vs 8).2.2 (kstat q ks vs 8).2.1 wo bo (ix3 (0 : Fin 1) i c)
      = (∑ p : Fin 512,
          Ideal.div
              (wsum Finset.univ (fun k : Fin 8 × Fin 512 => k1_pay8 q (ks k.1) (ix2 i k.2))
                (fun k => vs k.1 (ix3 (0 : Fin 1) k.2 p)))
              (OnlineSoftmax.norm Finset.univ (fun k : Fin 8 × Fin 512 => k1_pay8 q (ks k.1) (ix2 i k.2)))
            * wo (ix2 p c))
        + bo (ix1 c) := by
  rw [k1_pay3_apply]
  refine congrArg (· + bo (ix1 c)) (Finset.sum_congr rfl fun p _ => congrArg (· * wo (ix2 p c)) ?_)
  have hrow := kstat_row q ks vs i p 8 le_rfl
  have e1 : (kstat q ks vs 8).2.1 (ix2 i (0 : Fin 1))
      = (Rec.stat (fun k => k1_pay8 q (ks k.1) (ix2 i k.2)) (fun k => vs k.1 (ix3 (0 : Fin 1) k.2 p)) 8).2.1 :=
    congrArg (fun t => t.2.1) hrow
  have e2 : (kstat q ks vs 8).2.2 (ix2 i p)
      = (Rec.stat (fun k => k1_pay8 q (ks k.1) (ix2 i k.2)) (fun k => vs k.1 (ix3 (0 : Fin 1) k.2 p)) 8).2.2 :=
    congrArg (fun t => t.2.2) hrow
  rw [e1, e2]
  refine Rec.final _ _ (fun k => ?_) (fun k => hv _ _)
  rw [flatScore_flat q ks i k.1 k.2]
  exact flatScore_isReal q ks hq hk i _

end Cert.Attn.KStat

end
-- ==== Proof.R1Stat.lean ====
/-
  Within one (batch, query tile) group of eight consecutive grid points the query block does not move and the key and
  value blocks run through the eight key tiles. By induction on the key tile, the scratch after key tile j is the online
  softmax's statistics after j + 1 tiles — the first tile from the reset (−∞, 0, 0), each later one from what the point
  before left — and the output block at the last tile is the finishing payload of the statistics after all eight.
-/
import proofs.«145638_j28441273434636_2_alg».proof.Proof.Gen.KernelIdeal.Launch
import proofs.«145638_j28441273434636_2_alg».proof.Proof.Gen.KernelIdeal.Skeleton
import proofs.«145638_j28441273434636_2_alg».proof.Proof.Gen.KernelIdeal.Points
import proofs.«145638_j28441273434636_2_alg».proof.Proof.R1Pieces
import proofs.«145638_j28441273434636_2_alg».proof.Proof.KStat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Attn.KStat

section
variable (V : (c : Dev nD) → (b : Ref sig .tc) → Buf (Elt Ideal) ((c : Thread nD τ).loc b))

theorem pt_lt {g j : ℕ} (hg : g < 32) (hj : j < 8) : 8 * g + j < cfg1.N := by
  have : cfg1.N = 256 := N_1; omega

/-- Point j of group g. -/
def pt (g j : ℕ) (hg : g < 32) (hj : j < 8) : Fin cfg1.N := ⟨8 * g + j, pt_lt hg hj⟩

/-- THE SCRATCH AFTER KEY TILE j of group g is the statistics after j + 1 tiles. -/
theorem stat_at (c : Dev nD) (g : ℕ) (hg : g < 32) (q : Vec Ideal S1x512x512 .bf16) (ks vs : Fin 8 → Vec Ideal S1x512x512 .bf16)
    (hq : ∀ j (hj : j < 8), (iblk1 V c 0 (pt g j hg hj) : Vec Ideal S1x512x512 .bf16) = q)
    (hk : ∀ j (hj : j < 8), (iblk1 V c 1 (pt g j hg hj) : Vec Ideal S1x512x512 .bf16) = ks ⟨j, hj⟩)
    (hv : ∀ j (hj : j < 8), (iblk1 V c 2 (pt g j hg hj) : Vec Ideal S1x512x512 .bf16) = vs ⟨j, hj⟩) :
    ∀ (j : ℕ) (hj : j < 8), (outsAt1 V c (8 * g + j) (pt_lt hg hj)).2 = kstat q ks vs (j + 1)
  | 0, hj => by
    have h0 : (pt g 0 hg hj).val % 8 = 0 := by show (8 * g + 0) % 8 = 0; omega
    have h1 : ¬(pt g 0 hg hj).val % 8 = 7 := by show ¬(8 * g + 0) % 8 = 7; omega
    have e := outsAt1_A V c (pt g 0 hg hj) h0 h1
    rw [show outsAt1 V c (8 * g + 0) (pt_lt hg hj) = outsAt1 V c (pt g 0 hg hj).val (pt g 0 hg hj).isLt from rfl, e]
    dsimp only
    rw [sout1_A_0_eq, sout1_A_1_eq, sout1_A_2_eq, hq 0 hj, hk 0 hj, hv 0 hj, kstat_succ q ks vs hj, kstat_zero]
  | j + 1, hj => by
    have hj' : j < 8 := by omega
    have ih := stat_at c g hg q ks vs hq hk hv j hj'
    have h0 : ¬(pt g (j + 1) hg hj).val % 8 = 0 := by show ¬(8 * g + (j + 1)) % 8 = 0; omega
    have hprev : outsAt1 V c ((pt g (j + 1) hg hj).val - 1) (Nat.lt_of_le_of_lt (Nat.sub_le _ _) (pt g (j + 1) hg hj).isLt)
        = outsAt1 V c (8 * g + j) (pt_lt hg hj') := by
      congr 1
    rw [show outsAt1 V c (8 * g + (j + 1)) (pt_lt hg hj) = outsAt1 V c (pt g (j + 1) hg hj).val (pt g (j + 1) hg hj).isLt from rfl]
    by_cases h1 : (pt g (j + 1) hg hj).val % 8 = 7
    · rw [outsAt1_C V c (pt g (j + 1) hg hj) h0 h1, hprev]
      dsimp only
      rw [sout1_C_0_eq, sout1_C_1_eq, sout1_C_2_eq, hq (j + 1) hj, hk (j + 1) hj, hv (j + 1) hj, kstat_succ q ks vs hj, ih]
    · rw [outsAt1_B V c (pt g (j + 1) hg hj) h0 h1, hprev]
      dsimp only
      rw [sout1_B_0_eq, sout1_B_1_eq, sout1_B_2_eq, hq (j + 1) hj, hk (j + 1) hj, hv (j + 1) hj, kstat_succ q ks vs hj, ih]

/-- THE OUTPUT BLOCK at the last key tile of group g: the statistics after all eight tiles, divided and projected. -/
theorem out_at (c : Dev nD) (g : ℕ) (hg : g < 32) (q : Vec Ideal S1x512x512 .bf16) (ks vs : Fin 8 → Vec Ideal S1x512x512 .bf16)
    (hq : ∀ j (hj : j < 8), (iblk1 V c 0 (pt g j hg hj) : Vec Ideal S1x512x512 .bf16) = q)
    (hk : ∀ j (hj : j < 8), (iblk1 V c 1 (pt g j hg hj) : Vec Ideal S1x512x512 .bf16) = ks ⟨j, hj⟩)
    (hv : ∀ j (hj : j < 8), (iblk1 V c 2 (pt g j hg hj) : Vec Ideal S1x512x512 .bf16) = vs ⟨j, hj⟩) :
    (outsAt1 V c (8 * g + 7) (pt_lt hg (by omega))).1
      = k1_pay3 (kstat q ks vs 8).2.2 (kstat q ks vs 8).2.1 (iblk1 V c 3 (pt g 7 hg (by omega))) (iblk1 V c 4 (pt g 7 hg (by omega))) := by
  have hj : 7 < 8 := by omega
  have ih := stat_at V c g hg q ks vs hq hk hv 6 (by omega)
  have h0 : ¬(pt g 7 hg hj).val % 8 = 0 := by show ¬(8 * g + 7) % 8 = 0; omega
  have h1 : (pt g 7 hg hj).val % 8 = 7 := by show (8 * g + 7) % 8 = 7; omega
  have hprev : outsAt1 V c ((pt g 7 hg hj).val - 1) (Nat.lt_of_le_of_lt (Nat.sub_le _ _) (pt g 7 hg hj).isLt)
      = outsAt1 V c (8 * g + 6) (pt_lt hg (by omega)) := by
    congr 1
  rw [show outsAt1 V c (8 * g + 7) (pt_lt hg hj) = outsAt1 V c (pt g 7 hg hj).val (pt g 7 hg hj).isLt from rfl,
    outsAt1_C V c (pt g 7 hg hj) h0 h1, hprev]
  dsimp only
  rw [out1_C_5_eq, hq 7 hj, hk 7 hj, hv 7 hj, ih, kstat_succ q ks vs (by omega : 7 < 8)]

end

end Cert.KernelIdeal.Hand

end
-- ==== Proof.RefScale.lean ====
/-
  The constants of the reference, as the extended reals their words denote, and its scale.

  The reference divides one by the square root of sixty-four; the square root of 64 is 8 and the quotient 1/8 is the real
  number the f32 word 0x3E000000 denotes, the scale of the specification. The word 0xFF800000 is −∞ and the word 0 is 0.
-/
import proofs.«145638_j28441273434636_2_alg».proof.Proof.Spec
import Idealize.ShloMosaic.PureOps.Ideal.Laws

noncomputable section

namespace Cert.Attn.Ref

open Idealize.ShloMosaic Idealize.ShloMosaic.OnlineSoftmax

/-- The f32 word 0x42800000 is the real number 64. -/
theorem ofBits_64 : Ideal.ofBits .f32 0x42800000#32 = ((64 : ℝ) : EReal) := by
  simp [Ideal.ofBits, Ideal.ieee, -EReal.coe_mul]; norm_num

/-- The f32 word 0x3F800000 is the real number 1. -/
theorem ofBits_one : Ideal.ofBits .f32 0x3F800000#32 = ((1 : ℝ) : EReal) := by
  simp [Ideal.ofBits, Ideal.ieee, -EReal.coe_mul]; norm_num

/-- The f32 word 0x3E000000 is the real number 1/8. -/
theorem ofBits_eighth : Ideal.ofBits .f32 0x3E000000#32 = (((1 : ℝ) / 8 : ℝ) : EReal) := by
  simp [Ideal.ofBits, Ideal.ieee, -EReal.coe_mul]; norm_num

/-- The f32 word 0xFF800000 is −∞. -/
theorem ofBits_neg_inf : Ideal.ofBits .f32 0xFF800000#32 = (⊥ : EReal) := by
  simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- THE SCALE: one divided by the square root of sixty-four is the specification's scale, the word of 0.125. -/
theorem scale_eq :
    Ideal.div (Ideal.ofBits .f32 0x3F800000#32) (Ideal.sqrt (Ideal.ofBits .f32 0x42800000#32)) = Cert.Attn.scale := by
  unfold Cert.Attn.scale
  rw [ofBits_64, sqrt_64, ofBits_one, ofBits_eighth, Ideal.div_coe (by norm_num), ← EReal.coe_mul]
  congr 1; norm_num

/-- The scale is a real number. -/
theorem scale_isReal : IsReal Cert.Attn.scale := ⟨1 / 8, by unfold Cert.Attn.scale; exact ofBits_eighth⟩

end Cert.Attn.Ref

end
-- ==== Proof.RefProj.lean ====
/-
  The three projections of the reference, read at an entry.

  Each projection is a contraction of the input's last axis with a weight matrix's first, plus a bias spread over the batch
  and the rows: at entry (n, s, p) it is the specification's projection, Σ_d x[n,s,d]·W[d,p] + b[p]. The entries of a
  projection of real inputs are real numbers.
-/
import proofs.«145638_j28441273434636_2_alg».proof.Proof.Gen.ReferenceIdeal.Read
import proofs.«145638_j28441273434636_2_alg».proof.Proof.Spec
import proofs.«145638_j28441273434636_2_alg».proof.Proof.RefScale

noncomputable section

namespace Cert.Attn.Ref

open Cert.ReferenceIdeal Cert.ReferenceIdeal.Read Idealize.ShloMosaic Idealize.ShloMosaic.ValueIdx Idealize.ShloMosaic.OnlineSoftmax

abbrev T3 := (⟨S4x4096x512, .f32⟩ : BufTy).Contents (Elt Ideal)
abbrev T2 := (⟨S512x512, .f32⟩ : BufTy).Contents (Elt Ideal)
abbrev T1 := (⟨S512, .f32⟩ : BufTy).Contents (Elt Ideal)

/-- The sum of two real numbers is a real number. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A projection of real inputs is real at every entry. -/
theorem proj_isReal (X : T3) (W : T2) (b : T1) (hX : Cert.Attn.AllReal (S := S4x4096x512) X) (hW : Cert.Attn.AllReal (S := S512x512) W)
    (hb : Cert.Attn.AllReal (S := S512) b) (n : Fin 4) (s : Fin 4096) (p : Fin 512) : IsReal (Cert.Attn.proj X W b n s p) :=
  IsReal.add (IsReal.sum _ _ fun d _ => IsReal.mul (hX _) (hW _)) (hb _)

/-- The query projection at entry (n, s, p). -/
theorem v3_apply (x0 : T3) (x1 : T2) (x2 : T1) (n : Fin 4) (s : Fin 4096) (p : Fin 512) :
    val_main_v3 (F := Ideal) x0 x1 x2 (ix3 n s p) = Cert.Attn.proj x0 x1 x2 n s p := by
  rw [val_main_v3_apply, val_main_v0_apply, val_main_v2_apply, val_main_v1_apply]
  unfold Cert.Attn.proj
  refine congr (congrArg _ (Finset.sum_congr rfl fun k _ => ?_)) ?_
  · refine congr (congrArg _ (congrArg x0 ?_)) (congrArg x1 ?_)
    · funext a; match a with | ⟨0, _⟩ => rfl | ⟨1, _⟩ => rfl | ⟨2, _⟩ => rfl
    · funext a; match a with | ⟨0, _⟩ => rfl | ⟨1, _⟩ => rfl
  · refine congrArg x2 ?_
    funext a; match a with | ⟨0, _⟩ => rfl

/-- The key projection at entry (n, s, p). -/
theorem v7_apply (x0 : T3) (x3 : T2) (x4 : T1) (n : Fin 4) (s : Fin 4096) (p : Fin 512) :
    val_main_v7 (F := Ideal) x0 x3 x4 (ix3 n s p) = Cert.Attn.proj x0 x3 x4 n s p := by
  rw [val_main_v7_apply, val_main_v4_apply, val_main_v6_apply, val_main_v5_apply]
  unfold Cert.Attn.proj
  refine congr (congrArg _ (Finset.sum_congr rfl fun k _ => ?_)) ?_
  · refine congr (congrArg _ (congrArg x0 ?_)) (congrArg x3 ?_)
    · funext a; match a with | ⟨0, _⟩ => rfl | ⟨1, _⟩ => rfl | ⟨2, _⟩ => rfl
    · funext a; match a with | ⟨0, _⟩ => rfl | ⟨1, _⟩ => rfl
  · refine congrArg x4 ?_
    funext a; match a with | ⟨0, _⟩ => rfl

/-- The value projection at entry (n, s, p). -/
theorem v11_apply (x0 : T3) (x5 : T2) (x6 : T1) (n : Fin 4) (s : Fin 4096) (p : Fin 512) :
    val_main_v11 (F := Ideal) x0 x5 x6 (ix3 n s p) = Cert.Attn.proj x0 x5 x6 n s p := by
  rw [val_main_v11_apply, val_main_v8_apply, val_main_v10_apply, val_main_v9_apply]
  unfold Cert.Attn.proj
  refine congr (congrArg _ (Finset.sum_congr rfl fun k _ => ?_)) ?_
  · refine congr (congrArg _ (congrArg x0 ?_)) (congrArg x5 ?_)
    · funext a; match a with | ⟨0, _⟩ => rfl | ⟨1, _⟩ => rfl | ⟨2, _⟩ => rfl
    · funext a; match a with | ⟨0, _⟩ => rfl | ⟨1, _⟩ => rfl
  · refine congrArg x6 ?_
    funext a; match a with | ⟨0, _⟩ => rfl

end Cert.Attn.Ref

end
-- ==== Proof.Entry.lean ====
/-
  One entry of the attention kernel's output, in the specification's words.

  The attention kernel reads the three projected arrays tile by tile: for batch n, the query tile qi holds the rows
  512·qi + r of the queries, and the key and value tiles j hold the rows 512·j + r of the keys and values. After the
  eighth key tile the block it stores has, at row i and column c, the softmax-weighted sum of the value rows for query row
  512·qi + i — the quotient of the two statistics of the 4096 keys — times the output weights, plus the output bias:
  the specification's result at (n, 512·qi + i, c).
-/
import proofs.«145638_j28441273434636_2_alg».proof.Proof.KStat
import proofs.«145638_j28441273434636_2_alg».proof.Proof.Spec
import proofs.«145638_j28441273434636_2_alg».proof.Proof.RefProj

noncomputable section

namespace Cert.Attn.Entry

open Idealize.ShloMosaic Idealize.ShloMosaic.ValueIdx Idealize.ShloMosaic.OnlineSoftmax
open Cert.KernelIdeal Cert.KernelIdeal.Gen Cert.Attn.Pay Cert.Attn.KStat

/-! ## The tiles -/

/-- Row r of tile t of the 4096 rows. -/
abbrev rowAt (t : Fin 8) (r : Fin 512) : Fin 4096 :=
  ⟨512 * t.val + r.val, by have := t.isLt; have := r.isLt; omega⟩

theorem rowAt_val (t : Fin 8) (r : Fin 512) : (rowAt t r).val = 512 * t.val + r.val := rfl

/-- Every row of the 4096 is the row of its tile at its place inside the tile. -/
theorem rowAt_tileOf_rowOf (t : Fin 4096) : rowAt (tileOf t) (rowOf t) = t :=
  Fin.ext (Nat.div_add_mod t.val 512)

/-- Tile t of batch n of a [4, 4096, 512] array, as the kernel sees it: a [1, 512, 512] block. -/
def tile (A : S4x4096x512.Idx → EReal) (n : Fin 4) (t : Fin 8) : Vec Ideal S1x512x512 .bf16 :=
  fun y => A (ix3 n (rowAt t (y 1)) (y 2))

theorem tile_apply (A : S4x4096x512.Idx → EReal) (n : Fin 4) (t : Fin 8) (r p : Fin 512) :
    tile A n t (ix3 (0 : Fin 1) r p) = A (ix3 n (rowAt t r) p) := rfl

/-- The query tile qi of batch n; the key tile j; the value tile j. -/
abbrev qTile (Q3 : S4x4096x512.Idx → EReal) (n : Fin 4) (qi : Fin 8) : Vec Ideal S1x512x512 .bf16 := tile Q3 n qi
abbrev kTile (K3 : S4x4096x512.Idx → EReal) (n : Fin 4) (j : Fin 8) : Vec Ideal S1x512x512 .bf16 := tile K3 n j
abbrev vTile (V3 : S4x4096x512.Idx → EReal) (n : Fin 4) (j : Fin 8) : Vec Ideal S1x512x512 .bf16 := tile V3 n j

theorem qTile_apply (Q3 : S4x4096x512.Idx → EReal) (n : Fin 4) (qi : Fin 8) (r p : Fin 512) :
    qTile Q3 n qi (ix3 (0 : Fin 1) r p) = Q3 (ix3 n (rowAt qi r) p) := rfl
theorem kTile_apply (K3 : S4x4096x512.Idx → EReal) (n : Fin 4) (j : Fin 8) (r p : Fin 512) :
    kTile K3 n j (ix3 (0 : Fin 1) r p) = K3 (ix3 n (rowAt j r) p) := rfl
theorem vTile_apply (V3 : S4x4096x512.Idx → EReal) (n : Fin 4) (j : Fin 8) (r p : Fin 512) :
    vTile V3 n j (ix3 (0 : Fin 1) r p) = V3 (ix3 n (rowAt j r) p) := rfl

/-- A [4, 4096, 512] array as a function of its three coordinates. -/
def unc (A : S4x4096x512.Idx → EReal) : Fin 4 → Fin 4096 → Fin 512 → EReal := fun n s p => A (ix3 n s p)

theorem unc_apply (A : S4x4096x512.Idx → EReal) (n : Fin 4) (s : Fin 4096) (p : Fin 512) : unc A n s p = A (ix3 n s p) := rfl

/-! ## The flat scores and values are the specification's -/

theorem flatScore_tile (Q3 K3 : S4x4096x512.Idx → EReal) (n : Fin 4) (qi : Fin 8) (i : Fin 512) (t : Fin 4096) :
    flatScore (qTile Q3 n qi) (kTile K3 n) i t = Cert.Attn.score (unc Q3) (unc K3) n (rowAt qi i) t := by
  unfold flatScore Cert.Attn.score
  refine congrArg (· * Cert.Attn.scale) (Finset.sum_congr rfl fun d _ => ?_)
  show Q3 (ix3 n (rowAt qi i) d) * K3 (ix3 n (rowAt (tileOf t) (rowOf t)) d) = Q3 (ix3 n (rowAt qi i) d) * K3 (ix3 n t d)
  rw [rowAt_tileOf_rowOf]

theorem flatValue_tile (V3 : S4x4096x512.Idx → EReal) (n : Fin 4) (p : Fin 512) (t : Fin 4096) :
    flatValue (vTile V3 n) p t = unc V3 n t p := by
  unfold flatValue
  show V3 (ix3 n (rowAt (tileOf t) (rowOf t)) p) = V3 (ix3 n t p)
  rw [rowAt_tileOf_rowOf]

/-! ## One entry of the stored block -/

/-- After the eighth key tile, entry (i, c) of the block stored for batch n and query tile qi is the specification's
    attended value of query row 512·qi + i, feature by feature, times the output weights, plus the output bias. -/
theorem entry (Q3 K3 V3 : S4x4096x512.Idx → EReal) (hQ : ∀ x, IsReal (Q3 x)) (hK : ∀ x, IsReal (K3 x))
    (hV : ∀ x, IsReal (V3 x)) (n : Fin 4) (qi : Fin 8) (wo : Vec Ideal S512x512 .f32) (bo : Vec Ideal S512 .f32)
    (i c : Fin 512) :
    k1_pay3 (kstat (qTile Q3 n qi) (kTile K3 n) (vTile V3 n) 8).2.2 (kstat (qTile Q3 n qi) (kTile K3 n) (vTile V3 n) 8).2.1
        wo bo (ix3 (0 : Fin 1) i c)
      = (∑ p : Fin 512, Cert.Attn.attended (unc Q3) (unc K3) (unc V3) n (rowAt qi i) p * wo (ix2 p c)) + bo (ix1 c) := by
  rw [finish (qTile Q3 n qi) (kTile K3 n) (vTile V3 n) (fun x => hQ _) (fun j x => hK _) (fun j x => hV _) wo bo i c]
  refine congrArg (· + bo (ix1 c)) (Finset.sum_congr rfl fun p _ => congrArg (· * wo (ix2 p c)) ?_)
  have es : flatScore (qTile Q3 n qi) (kTile K3 n) i = Cert.Attn.score (unc Q3) (unc K3) n (rowAt qi i) :=
    funext fun t => flatScore_tile Q3 K3 n qi i t
  have ev : flatValue (vTile V3 n) p = fun t => unc V3 n t p := funext fun t => flatValue_tile V3 n p t
  unfold Cert.Attn.attended
  rw [es, ev]

/-! ## With the projections substituted -/

/-- A projection of the input, as a [4, 4096, 512] array. -/
def projArr (X : Cert.Attn.SX.Idx → EReal) (W : Cert.Attn.SW.Idx → EReal) (b : Cert.Attn.SB.Idx → EReal) :
    S4x4096x512.Idx → EReal := fun j => Cert.Attn.proj X W b (j 0) (j 1) (j 2)

theorem projArr_apply (X : Cert.Attn.SX.Idx → EReal) (W : Cert.Attn.SW.Idx → EReal) (b : Cert.Attn.SB.Idx → EReal)
    (n : Fin 4) (s : Fin 4096) (p : Fin 512) : projArr X W b (ix3 n s p) = Cert.Attn.proj X W b n s p := rfl

theorem unc_projArr (X : Cert.Attn.SX.Idx → EReal) (W : Cert.Attn.SW.Idx → EReal) (b : Cert.Attn.SB.Idx → EReal) :
    unc (projArr X W b) = Cert.Attn.proj X W b := rfl

/-- The entries of a projection of real inputs are real numbers. -/
theorem projArr_isReal (X : Cert.Attn.SX.Idx → EReal) (W : Cert.Attn.SW.Idx → EReal) (b : Cert.Attn.SB.Idx → EReal)
    (hX : Cert.Attn.AllReal (S := Cert.Attn.SX) X) (hW : Cert.Attn.AllReal (S := Cert.Attn.SW) W)
    (hb : Cert.Attn.AllReal (S := Cert.Attn.SB) b) (x : S4x4096x512.Idx) : IsReal (projArr X W b x) :=
  Cert.Attn.Ref.proj_isReal X W b hX hW hb (x 0) (x 1) (x 2)

/-- After the eighth key tile, entry (i, c) of the block stored for batch n and query tile qi, the three arrays the
    kernel reads being the three projections of the input, is the specification's result at (n, 512·qi + i, c). -/
theorem entry_out (X : Cert.Attn.SX.Idx → EReal) (Wq : Cert.Attn.SW.Idx → EReal) (bq : Cert.Attn.SB.Idx → EReal)
    (Wk : Cert.Attn.SW.Idx → EReal) (bk : Cert.Attn.SB.Idx → EReal) (Wv : Cert.Attn.SW.Idx → EReal)
    (bv : Cert.Attn.SB.Idx → EReal)
    (hX : Cert.Attn.AllReal (S := Cert.Attn.SX) X)
    (hWq : Cert.Attn.AllReal (S := Cert.Attn.SW) Wq) (hbq : Cert.Attn.AllReal (S := Cert.Attn.SB) bq)
    (hWk : Cert.Attn.AllReal (S := Cert.Attn.SW) Wk) (hbk : Cert.Attn.AllReal (S := Cert.Attn.SB) bk)
    (hWv : Cert.Attn.AllReal (S := Cert.Attn.SW) Wv) (hbv : Cert.Attn.AllReal (S := Cert.Attn.SB) bv)
    (n : Fin 4) (qi : Fin 8) (wo : Vec Ideal S512x512 .f32) (bo : Vec Ideal S512 .f32) (i c : Fin 512) :
    k1_pay3
        (kstat (qTile (projArr X Wq bq) n qi) (kTile (projArr X Wk bk) n) (vTile (projArr X Wv bv) n) 8).2.2
        (kstat (qTile (projArr X Wq bq) n qi) (kTile (projArr X Wk bk) n) (vTile (projArr X Wv bv) n) 8).2.1
        wo bo (ix3 (0 : Fin 1) i c)
      = Cert.Attn.out X Wq bq Wk bk Wv bv wo bo (ix3 n (rowAt qi i) c) := by
  refine (entry (projArr X Wq bq) (projArr X Wk bk) (projArr X Wv bv) (projArr_isReal X Wq bq hX hWq hbq)
    (projArr_isReal X Wk bk hX hWk hbk) (projArr_isReal X Wv bv hX hWv hbv) n qi wo bo i c).trans ?_
  rw [unc_projArr, unc_projArr, unc_projArr]
  rfl

end Cert.Attn.Entry

end
-- ==== Proof.Blk1.lean ====
/-
  The second pallas_call's blocks, read at an entry.

  A grid point t is (batch n, query tile qi, key tile kj) in row-major order: t = 64·n + 8·qi + kj. The query window's block at
  t is rows 512·qi … 512·qi + 511 of batch n of its array; the key and value windows' blocks are rows 512·kj … 512·kj + 511 of
  batch n of theirs; the output weights and bias are taken whole at every point. Each statement reads a block at an entry and
  names the entry of the array it is.
-/
import proofs.«145638_j28441273434636_2_alg».proof.Proof.R1Runs
import Idealize.ShloMosaic.Lib.ValueIdx

set_option maxRecDepth 16384

noncomputable section

namespace Cert.Attn.Blk1

open Cert.KernelIdeal Cert.KernelIdeal.Gen Cert.KernelIdeal.Hand
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- The query window's block index at point t: (t / 64, t / 8 mod 8, 0). -/
theorem idx0 : ∀ t : Fin cfg1.N, win1_0.index t (0 : Fin 3) = t.val / 64 ∧ win1_0.index t (1 : Fin 3) = t.val / 8 % 8
    ∧ win1_0.index t (2 : Fin 3) = 0 :=
  (by decide +kernel : ∀ t : Fin grid1.N, _)

/-- The key window's block index at point t: (t / 64, t mod 8, 0). -/
theorem idx1 : ∀ t : Fin cfg1.N, win1_1.index t (0 : Fin 3) = t.val / 64 ∧ win1_1.index t (1 : Fin 3) = t.val % 8
    ∧ win1_1.index t (2 : Fin 3) = 0 :=
  (by decide +kernel : ∀ t : Fin grid1.N, _)

/-- The value window's block index at point t: (t / 64, t mod 8, 0). -/
theorem idx2 : ∀ t : Fin cfg1.N, win1_2.index t (0 : Fin 3) = t.val / 64 ∧ win1_2.index t (1 : Fin 3) = t.val % 8
    ∧ win1_2.index t (2 : Fin 3) = 0 :=
  (by decide +kernel : ∀ t : Fin grid1.N, _)

/-- The output weights' block index at every point: (0, 0). -/
theorem idx3 : ∀ t : Fin cfg1.N, win1_3.index t (0 : Fin 2) = 0 ∧ win1_3.index t (1 : Fin 2) = 0 :=
  (by decide +kernel : ∀ t : Fin grid1.N, _)

/-- The output bias's block index at every point: 0. -/
theorem idx4 : ∀ t : Fin cfg1.N, win1_4.index t (0 : Fin 1) = 0 :=
  (by decide +kernel : ∀ t : Fin grid1.N, _)

/-- The output window's block index at point t: (t / 64, t / 8 mod 8, 0). -/
theorem idx5 : ∀ t : Fin cfg1.N, win1_5.index t (0 : Fin 3) = t.val / 64 ∧ win1_5.index t (1 : Fin 3) = t.val / 8 % 8
    ∧ win1_5.index t (2 : Fin 3) = 0 :=
  (by decide +kernel : ∀ t : Fin grid1.N, _)

/-- The query block at point (n, qi, ·), entry (0, r, p): row 512·qi + r of batch n. -/
theorem blk0 (c : Dev nD) (t : Fin cfg1.N) (n : Fin 4) (qi : Fin 8) (hn : t.val / 64 = n.val) (hq : t.val / 8 % 8 = qi.val)
    (r p : Fin 512) :
    (iblk1 V c 0 t : S1x512x512.Idx → Elt F .bf16) (ix3 (0 : Fin 1) r p)
      = V c main_v2 (ix3 n (⟨512 * qi.val + r.val, by omega⟩ : Fin 4096) p) := by
  show V c main_v2 (((cfg1.win 0).blk t).view.emb (ix3 (0 : Fin 1) r p)) = V c main_v2 _
  refine congrArg (V c main_v2) ?_
  obtain ⟨e0, e1, e2⟩ := idx0 t
  funext a; apply Fin.ext
  match a with
  | ⟨0, _⟩ => show win1_0.index t (0 : Fin 3) * 1 + 1 * (0 : Fin 1).val = n.val; simp only [Fin.val_zero]; omega
  | ⟨1, _⟩ => show win1_0.index t (1 : Fin 3) * 512 + 1 * r.val = 512 * qi.val + r.val; omega
  | ⟨2, _⟩ => show win1_0.index t (2 : Fin 3) * 512 + 1 * p.val = p.val; omega

/-- The key block at point (n, ·, kj), entry (0, r, p): row 512·kj + r of batch n. -/
theorem blk1 (c : Dev nD) (t : Fin cfg1.N) (n : Fin 4) (kj : Fin 8) (hn : t.val / 64 = n.val) (hk : t.val % 8 = kj.val)
    (r p : Fin 512) :
    (iblk1 V c 1 t : S1x512x512.Idx → Elt F .bf16) (ix3 (0 : Fin 1) r p)
      = V c main_v3 (ix3 n (⟨512 * kj.val + r.val, by omega⟩ : Fin 4096) p) := by
  show V c main_v3 (((cfg1.win 1).blk t).view.emb (ix3 (0 : Fin 1) r p)) = V c main_v3 _
  refine congrArg (V c main_v3) ?_
  obtain ⟨e0, e1, e2⟩ := idx1 t
  funext a; apply Fin.ext
  match a with
  | ⟨0, _⟩ => show win1_1.index t (0 : Fin 3) * 1 + 1 * (0 : Fin 1).val = n.val; simp only [Fin.val_zero]; omega
  | ⟨1, _⟩ => show win1_1.index t (1 : Fin 3) * 512 + 1 * r.val = 512 * kj.val + r.val; omega
  | ⟨2, _⟩ => show win1_1.index t (2 : Fin 3) * 512 + 1 * p.val = p.val; omega

/-- The value block at point (n, ·, kj), entry (0, r, p): row 512·kj + r of batch n. -/
theorem blk2 (c : Dev nD) (t : Fin cfg1.N) (n : Fin 4) (kj : Fin 8) (hn : t.val / 64 = n.val) (hk : t.val % 8 = kj.val)
    (r p : Fin 512) :
    (iblk1 V c 2 t : S1x512x512.Idx → Elt F .bf16) (ix3 (0 : Fin 1) r p)
      = V c main_v4 (ix3 n (⟨512 * kj.val + r.val, by omega⟩ : Fin 4096) p) := by
  show V c main_v4 (((cfg1.win 2).blk t).view.emb (ix3 (0 : Fin 1) r p)) = V c main_v4 _
  refine congrArg (V c main_v4) ?_
  obtain ⟨e0, e1, e2⟩ := idx2 t
  funext a; apply Fin.ext
  match a with
  | ⟨0, _⟩ => show win1_2.index t (0 : Fin 3) * 1 + 1 * (0 : Fin 1).val = n.val; simp only [Fin.val_zero]; omega
  | ⟨1, _⟩ => show win1_2.index t (1 : Fin 3) * 512 + 1 * r.val = 512 * kj.val + r.val; omega
  | ⟨2, _⟩ => show win1_2.index t (2 : Fin 3) * 512 + 1 * p.val = p.val; omega

/-- The output weights' block at any point is the whole matrix. -/
theorem blk3 (c : Dev nD) (t : Fin cfg1.N) : (iblk1 V c 3 t : S512x512.Idx → Elt F .f32) = V c main_arg7 := by
  funext y
  show V c main_arg7 (((cfg1.win 3).blk t).view.emb y) = V c main_arg7 y
  refine congrArg (V c main_arg7) ?_
  obtain ⟨e0, e1⟩ := idx3 t
  funext a; apply Fin.ext
  match a with
  | ⟨0, _⟩ => show win1_3.index t (0 : Fin 2) * 512 + 1 * (y 0).val = (y 0).val; omega
  | ⟨1, _⟩ => show win1_3.index t (1 : Fin 2) * 512 + 1 * (y 1).val = (y 1).val; omega

/-- The output bias's block at any point is the whole vector. -/
theorem blk4 (c : Dev nD) (t : Fin cfg1.N) : (iblk1 V c 4 t : S512.Idx → Elt F .f32) = V c main_arg8 := by
  funext y
  show V c main_arg8 (((cfg1.win 4).blk t).view.emb y) = V c main_arg8 y
  refine congrArg (V c main_arg8) ?_
  have e0 := idx4 t
  funext a; apply Fin.ext
  match a with
  | ⟨0, _⟩ => show win1_4.index t (0 : Fin 1) * 512 + 1 * (y 0).val = (y 0).val; omega

end Cert.Attn.Blk1

end
-- ==== Proof.Blk1Cover.lean ====
/-
  The second pallas_call's output window: its write-backs cover the output array.

  The output block of point (n, qi, kj) is rows 512·qi … 512·qi + 511 of batch n, written back at the last key tile only. Entry
  (n, s, d) of the array lies in the block of the point (n, s / 512, 7), which writes back; so when every writing-back point
  writes its block of one function of the entries, the array ends holding that function.
-/
import proofs.«145638_j28441273434636_2_alg».proof.Proof.Blk1
import Idealize.ShloMosaic.Lib.Pipeline.Value

set_option maxRecDepth 16384

noncomputable section

namespace Cert.Attn.Blk1

open Cert.KernelIdeal Cert.KernelIdeal.Gen Cert.KernelIdeal.Hand
open Idealize.ShloMosaic Idealize.ShloMosaic.TcCoe Idealize.ShloMosaic.ValueIdx Idealize.SL.Sem

variable {F : FTy → Type} [FloatOps F]

/-- An entry of the output array is in point t's block iff each coordinate is in the block's range on its axis. -/
theorem mem_blk5 (t : Fin cfg1.N) (i : S4x4096x512.Idx) :
    i ∈ ((cfg1.win 5).blk t).view.set ↔ ∀ a : Fin 3, win1_5.index t a * S1x512x512.size a ≤ (i a).val
      ∧ (i a).val < win1_5.index t a * S1x512x512.size a + S1x512x512.size a := by
  show i ∈ ((View.whole main_v5).slice (win1_5.rect t)).set ↔ _
  rw [View.set_slice_whole, Rect.mem_set_unit]
  exact Iff.rfl

/-- Every entry (n, s, d) of the output array lies in the block of the writing-back point (n, s / 512, 7). -/
theorem cover5 (i : S4x4096x512.Idx) :
    ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 512 := (i 2).isLt
  have hN : cfg1.N = 256 := N_1
  let t : Fin cfg1.N := ⟨64 * (i 0).val + 8 * ((i 1).val / 512) + 7, by rw [hN]; omega⟩
  have ht : t.val = 64 * (i 0).val + 8 * ((i 1).val / 512) + 7 := rfl
  obtain ⟨e0, e1, e2⟩ := idx5 t
  refine ⟨t, (flush1_5 t).mpr (by rw [ht]; omega), ?_⟩
  rw [mem_blk5]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 512 ≤ (i 1).val ∧ (i 1).val < win1_5.index t (1 : Fin 3) * 512 + 512
    omega
  | ⟨2, _⟩ =>
    show win1_5.index t (2 : Fin 3) * 512 ≤ (i 2).val ∧ (i 2).val < win1_5.index t (2 : Fin 3) * 512 + 512
    omega

/-- THE OUTPUT ARRAY after the region: when every writing-back point writes its block of one function G, the array ends
    holding G. -/
theorem arrAt5_eq (c : Dev nD) (dat : Pipeline.Dat τ (Elt F) Unit ℕ (UR sig nD τ) ℕ cfg1 c)
    (G : S4x4096x512.Idx → Elt F .f32)
    (hfl : ∀ t, (cfg1.win 5).flush t = true → dat.flushed 5 t = ((cfg1.win 5).blk t).view.read (Elt F) G) :
    dat.arrAt 5 cfg1.N = G :=
  dat.arrAt_eq_of_cover 5 G hfl cover5

end Cert.Attn.Blk1

end
-- ==== Proof.Val1.lean ====
/-
  The second pallas_call's output array, in closed form.

  The output block of grid point (n, qi, 7) is the finishing payload of the online softmax's statistics after the eight key
  tiles of batch n, taken against query tile qi. The query block does not move within the eight points of a (batch, query tile)
  group and the key and value blocks run through the eight tiles of the batch, so those statistics are the ones of the tiles of
  the three projected arrays, and entry (i, c) of the block is the specification's attended value of query row 512·qi + i times
  the output weights plus the output bias. The blocks written back cover the output array: it ends holding that function.
-/
import proofs.«145638_j28441273434636_2_alg».proof.Proof.R1Body
import proofs.«145638_j28441273434636_2_alg».proof.Proof.R1Stat
import proofs.«145638_j28441273434636_2_alg».proof.Proof.Entry
import proofs.«145638_j28441273434636_2_alg».proof.Proof.Blk1Cover

set_option maxRecDepth 16384

noncomputable section

namespace Cert.Attn.Val1

open Cert.KernelIdeal Cert.KernelIdeal.Gen Cert.KernelIdeal.Hand
open Idealize.ShloMosaic Idealize.ShloMosaic.TcCoe Idealize.ShloMosaic.ValueIdx Idealize.ShloMosaic.OnlineSoftmax Idealize.SL.Sem
open Cert.Attn.Entry Cert.Attn.KStat Cert.Attn.Blk1

variable (V : (c : Dev nD) → (b : Ref sig .tc) → Buf (Elt Ideal) ((c : Thread nD τ).loc b))

/-- What the output array ends holding: the attended values of the three projected arrays, times the output weights, plus the
    output bias. -/
def G (c : Dev nD) : S4x4096x512.Idx → EReal := fun i =>
  (∑ p : Fin 512, Cert.Attn.attended (unc (V c main_v2)) (unc (V c main_v3)) (unc (V c main_v4)) (i 0) (i 1) p
    * V c main_arg7 (ix2 p (i 2))) + V c main_arg8 (ix1 (i 2))

/-- The scratch and output after a point depend on the point's number only. -/
theorem outsAt1_congr (c : Dev nD) {a b : ℕ} (h : a = b) (ha : a < cfg1.N) (hb : b < cfg1.N) :
    outsAt1 V c a ha = outsAt1 V c b hb := by subst h; rfl

/-- A [1, 512, 512] block index is (0, r, p). -/
theorem eq_ix3_unit (y : S1x512x512.Idx) : y = ix3 (0 : Fin 1) (y 1) (y 2) := by
  funext a
  match a with
  | ⟨0, _⟩ => exact Fin.ext (Nat.lt_one_iff.mp (y 0).isLt)
  | ⟨1, _⟩ => rfl
  | ⟨2, _⟩ => rfl

theorem ex_ix3_unit (y : S1x512x512.Idx) : ∃ r p : Fin 512, y = ix3 (0 : Fin 1) r p := ⟨y 1, y 2, eq_ix3_unit y⟩

/-- WHAT A WRITING-BACK POINT WRITES is its block of G. -/
theorem flushed5_eq (c : Dev nD) (hQ : ∀ x, IsReal (V c main_v2 x)) (hK : ∀ x, IsReal (V c main_v3 x))
    (hV : ∀ x, IsReal (V c main_v4 x)) (t : Fin cfg1.N) (hf : (cfg1.win 5).flush t = true) :
    (dat1 (F := Ideal) V c).flushed 5 t = ((cfg1.win 5).blk t).view.read (Elt Ideal) (G V c) := by
  have h7 : t.val % 8 = 7 := (flush1_5 t).mp hf
  have hN : cfg1.N = 256 := N_1
  have ht : t.val < 256 := hN ▸ t.isLt
  have hg : t.val / 8 < 32 := by omega
  let n : Fin 4 := ⟨t.val / 64, by omega⟩
  let qi : Fin 8 := ⟨t.val / 8 % 8, by omega⟩
  have hq : ∀ j (hj : j < 8), (iblk1 V c 0 (pt (t.val / 8) j hg hj) : Vec Ideal S1x512x512 .bf16) = qTile (V c main_v2) n qi :=
    fun j hj => funext fun (y : S1x512x512.Idx) => by
      obtain ⟨r, p, rfl⟩ := ex_ix3_unit y
      exact blk0 V c _ n qi (by show (8 * (t.val / 8) + j) / 64 = t.val / 64; omega)
        (by show (8 * (t.val / 8) + j) / 8 % 8 = t.val / 8 % 8; omega) r p
  have hk : ∀ j (hj : j < 8), (iblk1 V c 1 (pt (t.val / 8) j hg hj) : Vec Ideal S1x512x512 .bf16) = kTile (V c main_v3) n ⟨j, hj⟩ :=
    fun j hj => funext fun (y : S1x512x512.Idx) => by
      obtain ⟨r, p, rfl⟩ := ex_ix3_unit y
      exact blk1 V c _ n ⟨j, hj⟩ (by show (8 * (t.val / 8) + j) / 64 = t.val / 64; omega)
        (by show (8 * (t.val / 8) + j) % 8 = j; omega) r p
  have hv : ∀ j (hj : j < 8), (iblk1 V c 2 (pt (t.val / 8) j hg hj) : Vec Ideal S1x512x512 .bf16) = vTile (V c main_v4) n ⟨j, hj⟩ :=
    fun j hj => funext fun (y : S1x512x512.Idx) => by
      obtain ⟨r, p, rfl⟩ := ex_ix3_unit y
      exact blk2 V c _ n ⟨j, hj⟩ (by show (8 * (t.val / 8) + j) / 64 = t.val / 64; omega)
        (by show (8 * (t.val / 8) + j) % 8 = j; omega) r p
  show (cfg1.win 5).cut (grid1.coords t) ((dat1 (F := Ideal) V c).after 5 t) = _
  rw [after1_5, outsAt1_congr V c (by omega : t.val = 8 * (t.val / 8) + 7) t.isLt (pt_lt hg (by omega)),
    out_at V c (t.val / 8) hg _ _ _ hq hk hv]
  funext (y : S1x512x512.Idx)
  obtain ⟨r, p, rfl⟩ := ex_ix3_unit y
  show k1_pay3 _ _ (iblk1 V c 3 _) (iblk1 V c 4 _) (ix3 (0 : Fin 1) r p)
    = G V c (((cfg1.win 5).blk t).view.emb (ix3 (0 : Fin 1) r p))
  obtain ⟨e0, e1, e2⟩ := idx5 t
  have hemb : ((cfg1.win 5).blk t).view.emb (ix3 (0 : Fin 1) r p) = ix3 n (rowAt qi r) p := by
    funext a; apply Fin.ext
    match a with
    | ⟨0, _⟩ => show win1_5.index t (0 : Fin 3) * 1 + 1 * (0 : Fin 1).val = t.val / 64; simp only [Fin.val_zero]; omega
    | ⟨1, _⟩ => show win1_5.index t (1 : Fin 3) * 512 + 1 * r.val = 512 * (t.val / 8 % 8) + r.val; omega
    | ⟨2, _⟩ => show win1_5.index t (2 : Fin 3) * 512 + 1 * p.val = p.val; omega
  rw [hemb, blk3, blk4, entry (V c main_v2) (V c main_v3) (V c main_v4) hQ hK hV n qi _ _ r p]
  rfl

/-- THE OUTPUT ARRAY after the region is G: at entry (n, s, d) the attended values of row (n, s) times the output weights'
    column d, plus the output bias at d. -/
theorem final1 (c : Dev nD) (hQ : ∀ x, IsReal (V c main_v2 x)) (hK : ∀ x, IsReal (V c main_v3 x))
    (hV : ∀ x, IsReal (V c main_v4 x)) :
    (dat1 (F := Ideal) V c).arrAt 5 cfg1.N = fun i =>
      (∑ p : Fin 512, Cert.Attn.attended (fun n s p => V c main_v2 (ix3 n s p)) (fun n s p => V c main_v3 (ix3 n s p))
        (fun n s p => V c main_v4 (ix3 n s p)) (i 0) (i 1) p * V c main_arg7 (ix2 p (i 2))) + V c main_arg8 (ix1 (i 2)) :=
  arrAt5_eq c (dat1 (F := Ideal) V c) (G V c) (fun t hf => flushed5_eq V c hQ hK hV t hf)

end Cert.Attn.Val1

end
-- ==== Proof.Pay0.lean ====
/-
  The projection kernel's stored values read at one entry.

  Each of the three stores of the projection kernel writes, for a tile of 1024 rows of the input, the product of the
  tile with a 512-by-512 weight matrix plus the bias row spread over the rows. With every float an extended real and
  every format change the identity, entry (r, p) of the stored tile is the sum over the 512 features d of
  x[r, d] · w[d, p], plus b[p].
-/
import proofs.«145638_j28441273434636_2_alg».proof.Proof.Gen.KernelIdeal.Skeleton
import proofs.«145638_j28441273434636_2_alg».proof.Proof.LibPlainContract
import Idealize.ShloMosaic.Lib.ValueIdx
import Idealize.ShloMosaic.Lib.ValueLayout
import Idealize.ShloMosaic.Lib.Pipeline.Value

noncomputable section

namespace Cert.Attn.Pay

open Idealize.ShloMosaic Idealize.ShloMosaic.ValueIdx Cert.KernelIdeal Cert.KernelIdeal.Gen

/-- A tile of rows times a weight matrix into the zero accumulator, plus the bias vector viewed as one row and spread
    over the rows: entry (r, p) is the sum over d of x[r, d] · w[d, p], plus b[p]. -/
theorem projTile_apply (x : FVec Ideal S1024x512 .bf16) (w : FVec Ideal S512x512 .bf16) (b : FVec Ideal S512 .f32)
    (h1 : S512.ShapeCasts S1x512) (h2 : S1x512.Broadcasts S1024x512) (r : Fin 1024) (p : Fin 512) :
    addf (matmul dot_S1024x512_S512x512_S1024x512_1_0_0_1_n_n none x w (constant (F := Ideal) S1024x512 .f32 0x00000000#32))
        (broadcastTo S1024x512 (shapeCast S1x512 b h1) h2) (ix2 r p)
      = (∑ d : Fin 512, x (ix2 r d) * w (ix2 d p)) + b (ix1 p) := by
  rw [addf_apply]
  congr 1
  · exact Cert.LibPlainContract.matmul_plain_apply 1024 512 512 none x w r p
  · exact (broadcastTo_1b_ab_apply _ h2 r p).trans (shapeCast_a_1a_apply b h1 0 p)

/-- The first stored tile (the queries' projection) at entry (r, p). -/
theorem k0_pay2_apply (x : Vec Ideal S1024x512 .f32) (w : Vec Ideal S512x512 .f32) (b : Vec Ideal S512 .f32)
    (r : Fin 1024) (p : Fin 512) :
    k0_pay2 x w b (ix2 r p) = (∑ d : Fin 512, x (ix2 r d) * w (ix2 d p)) + b (ix1 p) := by
  unfold k0_pay2 k0_pay1
  rw [shapeCast_self]
  exact projTile_apply x w b _ _ r p

/-- The second stored tile (the keys' projection) at entry (r, p). -/
theorem k0_pay3_apply (x : Vec Ideal S1024x512 .f32) (w : Vec Ideal S512x512 .f32) (b : Vec Ideal S512 .f32)
    (r : Fin 1024) (p : Fin 512) :
    k0_pay3 x w b (ix2 r p) = (∑ d : Fin 512, x (ix2 r d) * w (ix2 d p)) + b (ix1 p) := by
  unfold k0_pay3 k0_pay1
  rw [shapeCast_self]
  exact projTile_apply x w b _ _ r p

/-- The third stored tile (the values' projection) at entry (r, p). -/
theorem k0_pay4_apply (x : Vec Ideal S1024x512 .f32) (w : Vec Ideal S512x512 .f32) (b : Vec Ideal S512 .f32)
    (r : Fin 1024) (p : Fin 512) :
    k0_pay4 x w b (ix2 r p) = (∑ d : Fin 512, x (ix2 r d) * w (ix2 d p)) + b (ix1 p) := by
  unfold k0_pay4 k0_pay1
  rw [shapeCast_self]
  exact projTile_apply x w b _ _ r p

end Cert.Attn.Pay

end
-- ==== Proof.Val0.lean ====
/-
  The first pallas_call, from blocks to arrays, at the exact extended reals.

  The launch visits sixteen points; point t handles rows 1024·t … 1024·t + 1023 of the input x[16384, 512] and writes the same
  rows of each of the three outputs, the weight matrices and bias rows being whole at every point. What a point writes back to
  an output is the block of ONE function of the arrays the launch is entered with: entry (r, p) is Σ_d x[r, d]·W[d, p] + b[p].
  The sixteen blocks tile the array (row r lies in the block of point r / 1024), so after the launch each output array is that
  function everywhere.
-/
import proofs.«145638_j28441273434636_2_alg».proof.Proof.R0
import proofs.«145638_j28441273434636_2_alg».proof.Proof.Pay0
import Idealize.ShloMosaic.Lib.Pipeline.Value
import Idealize.ShloMosaic.Lib.ValueIdx

set_option maxRecDepth 16384

noncomputable section

namespace Cert.Attn.Val0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The projection of the input rows by one weight matrix plus its bias, entry by entry. -/
def projRows (X : S16384x512.Idx → EReal) (W : S512x512.Idx → EReal) (b : S512.Idx → EReal) : S16384x512.Idx → EReal :=
  fun j => (∑ d : Fin 512, X (ix2 (j 0) d) * W (ix2 d (j 1))) + b (ix1 (j 1))

/-- The block index maps, decided over the sixteen points: the input rows and each output move with the point along the
    rows and stay at the first column block; the weights and biases stay whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_7.index t (0 : Fin 2) = t.val ∧ win0_7.index t (1 : Fin 2) = 0 :=
  (by decide +kernel : ∀ t : Fin grid0.N, _)

theorem projRows_apply (X : S16384x512.Idx → EReal) (W : S512x512.Idx → EReal) (b : S512.Idx → EReal) (j : S16384x512.Idx) :
    projRows X W b j = (∑ d : Fin 512, X (ix2 (j 0) d) * W (ix2 d (j 1))) + b (ix1 (j 1)) := rfl

/-- The stored tile at an entry, the entry any index of the tile. -/
theorem pay2_at (x : Vec Ideal S1024x512 .f32) (w : Vec Ideal S512x512 .f32) (b : Vec Ideal S512 .f32) (y : S1024x512.Idx) :
    k0_pay2 x w b y = (∑ d : Fin 512, x (ix2 (y 0) d) * w (ix2 d (y 1))) + b (ix1 (y 1)) := by
  conv_lhs => rw [eq_ix2 y]
  exact Cert.Attn.Pay.k0_pay2_apply x w b (y 0) (y 1)

theorem flushed7_eq (c : Dev nD) (t : Fin cfg0.N) :
    (dat0 V c).flushed 7 t = ((cfg0.win 7).blk t).view.read (Elt Ideal) (projRows (V c main_v0) (V c main_arg1) (V c main_arg2)) := by
  show (cfg0.win 7).cut (grid0.coords t) ((dat0 V c).after 7 t) = _
  rw [after0_7]
  unfold out0_7
  rw [View.canon_unit_zero zero2]
  simp only [View.ld_unit_zero (S := S1024x512) zero2, View.ld_unit_zero (S := S512x512) zero2, View.ld_unit_zero (S := S512) zero1]
  obtain ⟨a00, a01, w0, w1, b0, o0, o1⟩ := index_facts t
  funext y
  show k0_pay2 (iblk0 V c 0 t) (iblk0 V c 1 t) (iblk0 V c 2 t) y
      = projRows (V c main_v0) (V c main_arg1) (V c main_arg2) (((cfg0.win 7).blk t).view.emb y)
  refine (pay2_at (iblk0 V c 0 t) (iblk0 V c 1 t) (iblk0 V c 2 t) y).trans ?_
  have h0 : ∀ d : Fin 512, iblk0 V c 0 t (ix2 (y 0) d) = V c main_v0 (ix2 ((((cfg0.win 7).blk t).view.emb y) 0) d) := fun d => by
    show V c main_v0 (((cfg0.win 0).blk t).view.emb (ix2 (y 0) d)) = _
    refine congrArg (V c main_v0) ?_
    funext a; apply Fin.ext
    match a with
    | ⟨0, _⟩ => show win0_0.index t (0 : Fin 2) * 1024 + 1 * (y 0).val = win0_7.index t (0 : Fin 2) * 1024 + 1 * (y 0).val; omega
    | ⟨1, _⟩ => show win0_0.index t (1 : Fin 2) * 512 + 1 * d.val = d.val; omega
  have h1 : ∀ d : Fin 512, iblk0 V c 1 t (ix2 d (y 1)) = V c main_arg1 (ix2 d ((((cfg0.win 7).blk t).view.emb y) 1)) := fun d => by
    show V c main_arg1 (((cfg0.win 1).blk t).view.emb (ix2 d (y 1))) = _
    refine congrArg (V c main_arg1) ?_
    funext a; apply Fin.ext
    match a with
    | ⟨0, _⟩ => show win0_1.index t (0 : Fin 2) * 512 + 1 * d.val = d.val; omega
    | ⟨1, _⟩ => show win0_1.index t (1 : Fin 2) * 512 + 1 * (y 1).val = win0_7.index t (1 : Fin 2) * 512 + 1 * (y 1).val; omega
  have h2 : iblk0 V c 2 t (ix1 (y 1)) = V c main_arg2 (ix1 ((((cfg0.win 7).blk t).view.emb y) 1)) := by
    show V c main_arg2 (((cfg0.win 2).blk t).view.emb (ix1 (y 1))) = _
    refine congrArg (V c main_arg2) ?_
    funext a; apply Fin.ext
    match a with
    | ⟨0, _⟩ => show win0_2.index t (0 : Fin 1) * 512 + 1 * (y 1).val = win0_7.index t (1 : Fin 2) * 512 + 1 * (y 1).val; omega
  unfold projRows
  exact congrArg₂ (· + ·) (Finset.sum_congr rfl fun d _ => congrArg₂ (· * ·) (h0 d) (h1 d)) h2

/-- An index of the array is in point t's block iff each coordinate is in the block's range on its axis. -/
theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v1_0).slice (win0_7.rect t)).set ↔ _
  rw [View.set_slice_whole, Rect.mem_set_unit]
  exact Iff.rfl

/-- Every entry of the array is written back: row r by the point r / 1024. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, o0, o1⟩ := index_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-- The first output array after the launch: the projection of the input rows by the first weight matrix plus its bias. -/
theorem final0_7 (c : Dev nD) :
    (dat0 V c).arrAt 7 cfg0.N
      = projRows (V c main_v0) (V c main_arg1) (V c main_arg2) :=
  (dat0 V c).arrAt_eq_of_cover 7 (projRows (V c main_v0) (V c main_arg1) (V c main_arg2)) (fun t _ => flushed7_eq V c t) cover7

/-! ## The second output (window 8): the rows projected by the second weight matrix -/

/-- The block index maps of the windows the second output reads, decided over the sixteen points. -/
theorem index_facts8 : ∀ t : Fin cfg0.N,
    win0_0.index t (0 : Fin 2) = t.val ∧ win0_0.index t (1 : Fin 2) = 0
    ∧ win0_3.index t (0 : Fin 2) = 0 ∧ win0_3.index t (1 : Fin 2) = 0
    ∧ win0_4.index t (0 : Fin 1) = 0
    ∧ win0_8.index t (0 : Fin 2) = t.val ∧ win0_8.index t (1 : Fin 2) = 0 :=
  (by decide +kernel : ∀ t : Fin grid0.N, _)

/-- The second stored tile at an entry, the entry any index of the tile. -/
theorem pay3_at (x : Vec Ideal S1024x512 .f32) (w : Vec Ideal S512x512 .f32) (b : Vec Ideal S512 .f32) (y : S1024x512.Idx) :
    k0_pay3 x w b y = (∑ d : Fin 512, x (ix2 (y 0) d) * w (ix2 d (y 1))) + b (ix1 (y 1)) := by
  conv_lhs => rw [eq_ix2 y]
  exact Cert.Attn.Pay.k0_pay3_apply x w b (y 0) (y 1)

theorem flushed8_eq (c : Dev nD) (t : Fin cfg0.N) :
    (dat0 V c).flushed 8 t = ((cfg0.win 8).blk t).view.read (Elt Ideal) (projRows (V c main_v0) (V c main_arg3) (V c main_arg4)) := by
  show (cfg0.win 8).cut (grid0.coords t) ((dat0 V c).after 8 t) = _
  rw [after0_8]
  unfold out0_8
  rw [View.canon_unit_zero zero2]
  simp only [View.ld_unit_zero (S := S1024x512) zero2, View.ld_unit_zero (S := S512x512) zero2, View.ld_unit_zero (S := S512) zero1]
  obtain ⟨a00, a01, w0, w1, b0, o0, o1⟩ := index_facts8 t
  funext y
  show k0_pay3 (iblk0 V c 0 t) (iblk0 V c 3 t) (iblk0 V c 4 t) y
      = projRows (V c main_v0) (V c main_arg3) (V c main_arg4) (((cfg0.win 8).blk t).view.emb y)
  refine (pay3_at (iblk0 V c 0 t) (iblk0 V c 3 t) (iblk0 V c 4 t) y).trans ?_
  have h0 : ∀ d : Fin 512, iblk0 V c 0 t (ix2 (y 0) d) = V c main_v0 (ix2 ((((cfg0.win 8).blk t).view.emb y) 0) d) := fun d => by
    show V c main_v0 (((cfg0.win 0).blk t).view.emb (ix2 (y 0) d)) = _
    refine congrArg (V c main_v0) ?_
    funext a; apply Fin.ext
    match a with
    | ⟨0, _⟩ => show win0_0.index t (0 : Fin 2) * 1024 + 1 * (y 0).val = win0_8.index t (0 : Fin 2) * 1024 + 1 * (y 0).val; omega
    | ⟨1, _⟩ => show win0_0.index t (1 : Fin 2) * 512 + 1 * d.val = d.val; omega
  have h1 : ∀ d : Fin 512, iblk0 V c 3 t (ix2 d (y 1)) = V c main_arg3 (ix2 d ((((cfg0.win 8).blk t).view.emb y) 1)) := fun d => by
    show V c main_arg3 (((cfg0.win 3).blk t).view.emb (ix2 d (y 1))) = _
    refine congrArg (V c main_arg3) ?_
    funext a; apply Fin.ext
    match a with
    | ⟨0, _⟩ => show win0_3.index t (0 : Fin 2) * 512 + 1 * d.val = d.val; omega
    | ⟨1, _⟩ => show win0_3.index t (1 : Fin 2) * 512 + 1 * (y 1).val = win0_8.index t (1 : Fin 2) * 512 + 1 * (y 1).val; omega
  have h2 : iblk0 V c 4 t (ix1 (y 1)) = V c main_arg4 (ix1 ((((cfg0.win 8).blk t).view.emb y) 1)) := by
    show V c main_arg4 (((cfg0.win 4).blk t).view.emb (ix1 (y 1))) = _
    refine congrArg (V c main_arg4) ?_
    funext a; apply Fin.ext
    match a with
    | ⟨0, _⟩ => show win0_4.index t (0 : Fin 1) * 512 + 1 * (y 1).val = win0_8.index t (1 : Fin 2) * 512 + 1 * (y 1).val; omega
  unfold projRows
  exact congrArg₂ (· + ·) (Finset.sum_congr rfl fun d _ => congrArg₂ (· * ·) (h0 d) (h1 d)) h2

theorem mem_blk8 (t : Fin cfg0.N) (i : S16384x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v1_1).slice (win0_8.rect t)).set ↔ _
  rw [View.set_slice_whole, Rect.mem_set_unit]
  exact Iff.rfl

theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, o0, o1⟩ := index_facts8 t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- The second output array after the launch: the projection of the input rows by the second weight matrix plus its bias. -/
theorem final0_8 (c : Dev nD) :
    (dat0 V c).arrAt 8 cfg0.N = projRows (V c main_v0) (V c main_arg3) (V c main_arg4) :=
  (dat0 V c).arrAt_eq_of_cover 8 (projRows (V c main_v0) (V c main_arg3) (V c main_arg4)) (fun t _ => flushed8_eq V c t) cover8

/-! ## The third output (window 9): the rows projected by the third weight matrix -/

/-- The block index maps of the windows the third output reads, decided over the sixteen points. -/
theorem index_facts9 : ∀ t : Fin cfg0.N,
    win0_0.index t (0 : Fin 2) = t.val ∧ win0_0.index t (1 : Fin 2) = 0
    ∧ win0_5.index t (0 : Fin 2) = 0 ∧ win0_5.index t (1 : Fin 2) = 0
    ∧ win0_6.index t (0 : Fin 1) = 0
    ∧ win0_9.index t (0 : Fin 2) = t.val ∧ win0_9.index t (1 : Fin 2) = 0 :=
  (by decide +kernel : ∀ t : Fin grid0.N, _)

/-- The third stored tile at an entry, the entry any index of the tile. -/
theorem pay4_at (x : Vec Ideal S1024x512 .f32) (w : Vec Ideal S512x512 .f32) (b : Vec Ideal S512 .f32) (y : S1024x512.Idx) :
    k0_pay4 x w b y = (∑ d : Fin 512, x (ix2 (y 0) d) * w (ix2 d (y 1))) + b (ix1 (y 1)) := by
  conv_lhs => rw [eq_ix2 y]
  exact Cert.Attn.Pay.k0_pay4_apply x w b (y 0) (y 1)

theorem flushed9_eq (c : Dev nD) (t : Fin cfg0.N) :
    (dat0 V c).flushed 9 t = ((cfg0.win 9).blk t).view.read (Elt Ideal) (projRows (V c main_v0) (V c main_arg5) (V c main_arg6)) := by
  show (cfg0.win 9).cut (grid0.coords t) ((dat0 V c).after 9 t) = _
  rw [after0_9]
  unfold out0_9
  rw [View.canon_unit_zero zero2]
  simp only [View.ld_unit_zero (S := S1024x512) zero2, View.ld_unit_zero (S := S512x512) zero2, View.ld_unit_zero (S := S512) zero1]
  obtain ⟨a00, a01, w0, w1, b0, o0, o1⟩ := index_facts9 t
  funext y
  show k0_pay4 (iblk0 V c 0 t) (iblk0 V c 5 t) (iblk0 V c 6 t) y
      = projRows (V c main_v0) (V c main_arg5) (V c main_arg6) (((cfg0.win 9).blk t).view.emb y)
  refine (pay4_at (iblk0 V c 0 t) (iblk0 V c 5 t) (iblk0 V c 6 t) y).trans ?_
  have h0 : ∀ d : Fin 512, iblk0 V c 0 t (ix2 (y 0) d) = V c main_v0 (ix2 ((((cfg0.win 9).blk t).view.emb y) 0) d) := fun d => by
    show V c main_v0 (((cfg0.win 0).blk t).view.emb (ix2 (y 0) d)) = _
    refine congrArg (V c main_v0) ?_
    funext a; apply Fin.ext
    match a with
    | ⟨0, _⟩ => show win0_0.index t (0 : Fin 2) * 1024 + 1 * (y 0).val = win0_9.index t (0 : Fin 2) * 1024 + 1 * (y 0).val; omega
    | ⟨1, _⟩ => show win0_0.index t (1 : Fin 2) * 512 + 1 * d.val = d.val; omega
  have h1 : ∀ d : Fin 512, iblk0 V c 5 t (ix2 d (y 1)) = V c main_arg5 (ix2 d ((((cfg0.win 9).blk t).view.emb y) 1)) := fun d => by
    show V c main_arg5 (((cfg0.win 5).blk t).view.emb (ix2 d (y 1))) = _
    refine congrArg (V c main_arg5) ?_
    funext a; apply Fin.ext
    match a with
    | ⟨0, _⟩ => show win0_5.index t (0 : Fin 2) * 512 + 1 * d.val = d.val; omega
    | ⟨1, _⟩ => show win0_5.index t (1 : Fin 2) * 512 + 1 * (y 1).val = win0_9.index t (1 : Fin 2) * 512 + 1 * (y 1).val; omega
  have h2 : iblk0 V c 6 t (ix1 (y 1)) = V c main_arg6 (ix1 ((((cfg0.win 9).blk t).view.emb y) 1)) := by
    show V c main_arg6 (((cfg0.win 6).blk t).view.emb (ix1 (y 1))) = _
    refine congrArg (V c main_arg6) ?_
    funext a; apply Fin.ext
    match a with
    | ⟨0, _⟩ => show win0_6.index t (0 : Fin 1) * 512 + 1 * (y 1).val = win0_9.index t (1 : Fin 2) * 512 + 1 * (y 1).val; omega
  unfold projRows
  exact congrArg₂ (· + ·) (Finset.sum_congr rfl fun d _ => congrArg₂ (· * ·) (h0 d) (h1 d)) h2

theorem mem_blk9 (t : Fin cfg0.N) (i : S16384x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v1_2).slice (win0_9.rect t)).set ↔ _
  rw [View.set_slice_whole, Rect.mem_set_unit]
  exact Iff.rfl

theorem cover9 (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, o0, o1⟩ := index_facts9 t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 512 ≤ (i 1).val ∧ (i 1).val < win0_9.index t (1 : Fin 2) * 512 + 512; omega

/-- The third output array after the launch: the projection of the input rows by the third weight matrix plus its bias. -/
theorem final0_9 (c : Dev nD) :
    (dat0 V c).arrAt 9 cfg0.N = projRows (V c main_v0) (V c main_arg5) (V c main_arg6) :=
  (dat0 V c).arrAt_eq_of_cover 9 (projRows (V c main_v0) (V c main_arg5) (V c main_arg6)) (fun t _ => flushed9_eq V c t) cover9

end Cert.Attn.Val0

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.HostVals.lean ====
/-
  The host stretches between the two calls, at the exact extended reals.

  Before the first call the input x[4, 4096, 512] is viewed as 16384 rows; the first call leaves in each of its three outputs
  the rows projected by one weight matrix plus its bias; the three outputs are then viewed as [4, 4096, 512] again. Row
  4096·n + s of the 16384 is row s of batch n, so the three arrays the second call is entered with are, entry by entry,
  the three projections of the input, Σ_d x[n, s, d]·W[d, p] + b[p]; the output weights and bias are still as launched.
-/
import proofs.«145638_j28441273434636_2_alg».proof.Proof.Run
import proofs.«145638_j28441273434636_2_alg».proof.Proof.Val0
import proofs.«145638_j28441273434636_2_alg».proof.Proof.Entry
import proofs.«145638_j28441273434636_2_alg».proof.Proof.LibLayout3
import Idealize.ShloMosaic.Lib.StableHlo.Run

set_option maxRecDepth 16384

noncomputable section

namespace Cert.Attn.Host

open Cert.KernelIdeal Cert.KernelIdeal.Gen Cert.KernelIdeal.Hand
open Idealize.ShloMosaic Idealize.ShloMosaic.TcCoe Idealize.SL.Sem Idealize.ShloMosaic.ValueIdx

/-! ## Rows and batches -/

/-- The input viewed as 16384 rows, projected row by row, and the result viewed as [4, 4096, 512] again, is the
    projection of the input entry by entry: row 4096·n + s of the 16384 is row s of batch n. -/
theorem reshape_projRows (X : S4x4096x512.Idx → EReal) (W : S512x512.Idx → EReal) (b : S512.Idx → EReal)
    (h1 : S4x4096x512.ShapeCasts S16384x512) (h2 : S16384x512.ShapeCasts S4x4096x512) :
    (fun i => shapeCast S4x4096x512 (Cert.Attn.Val0.projRows (fun i => shapeCast S16384x512 X h1 i) W b) h2 i)
      = Cert.Attn.Entry.projArr X W b := by
  funext j
  obtain ⟨n, s, p, rfl⟩ : ∃ (n : Fin 4) (s : Fin 4096) (p : Fin 512), j = ix3 n s p := ⟨j 0, j 1, j 2, eq_ix3 j⟩
  have hn := n.isLt
  have hs := s.isLt
  obtain ⟨r, hr⟩ : ∃ r : Fin 16384, r.val = n.val * 4096 + s.val := ⟨⟨n.val * 4096 + s.val, by omega⟩, rfl⟩
  refine (Cert.LibLayout3.shapeCast_mc_abc_apply _ h2 n s p r hr).trans ?_
  refine (Cert.Attn.Val0.projRows_apply _ W b (ix2 r p)).trans ?_
  rw [Cert.Attn.Entry.projArr_apply]
  unfold Cert.Attn.proj
  refine congrArg₂ (· + ·) (Finset.sum_congr rfl fun d _ => congrArg₂ (· * ·) ?_ rfl) rfl
  exact Cert.LibLayout3.shapeCast_abc_mc_apply X h1 n s d r hr

/-! ## The buffers at the boundaries -/

variable (m : (ℓ : Loc nD τ sig) → Buf (Elt Ideal) ℓ)

/-- After the first reshape the row view holds the input's entries at the row shape. -/
theorem v1_main_v0 (c : Dev nD) :
    (Hand.V1 m c main_v0 : S16384x512.Idx → EReal)
      = fun i => shapeCast S16384x512 (m ((c : Thread nD τ).loc main_arg0) : S4x4096x512.Idx → EReal)
          Facts₀.shapeCasts_S4x4096x512_S16384x512 i := by
  show StableHlo.after hostOps0 (W0 m c) (Proc.devRef .tc main_v0) = _
  after_results
  rfl

theorem v1_main_arg1 (c : Dev nD) : Hand.V1 m c main_arg1 = m ((c : Thread nD τ).loc main_arg1) :=
  StableHlo.after_of_writes_sub hostOps0 _ hostOps0_writes (by decide)
theorem v1_main_arg2 (c : Dev nD) : Hand.V1 m c main_arg2 = m ((c : Thread nD τ).loc main_arg2) :=
  StableHlo.after_of_writes_sub hostOps0 _ hostOps0_writes (by decide)
theorem v1_main_arg3 (c : Dev nD) : Hand.V1 m c main_arg3 = m ((c : Thread nD τ).loc main_arg3) :=
  StableHlo.after_of_writes_sub hostOps0 _ hostOps0_writes (by decide)
theorem v1_main_arg4 (c : Dev nD) : Hand.V1 m c main_arg4 = m ((c : Thread nD τ).loc main_arg4) :=
  StableHlo.after_of_writes_sub hostOps0 _ hostOps0_writes (by decide)
theorem v1_main_arg5 (c : Dev nD) : Hand.V1 m c main_arg5 = m ((c : Thread nD τ).loc main_arg5) :=
  StableHlo.after_of_writes_sub hostOps0 _ hostOps0_writes (by decide)
theorem v1_main_arg6 (c : Dev nD) : Hand.V1 m c main_arg6 = m ((c : Thread nD τ).loc main_arg6) :=
  StableHlo.after_of_writes_sub hostOps0 _ hostOps0_writes (by decide)

/-- After the three reshapes each [4, 4096, 512] view holds the entries of the first call's output at that shape. -/
theorem v3_main_v2 (c : Dev nD) :
    (Hand.V3 m c main_v2 : S4x4096x512.Idx → EReal)
      = fun i => shapeCast S4x4096x512 (Hand.V2 m c main_v1_0 : S16384x512.Idx → EReal)
          Facts₀.shapeCasts_S16384x512_S4x4096x512 i := by
  show StableHlo.after hostOps1 (W2 m c) (Proc.devRef .tc main_v2) = _
  after_results
  rfl
theorem v3_main_v3 (c : Dev nD) :
    (Hand.V3 m c main_v3 : S4x4096x512.Idx → EReal)
      = fun i => shapeCast S4x4096x512 (Hand.V2 m c main_v1_1 : S16384x512.Idx → EReal)
          Facts₀.shapeCasts_S16384x512_S4x4096x512 i := by
  show StableHlo.after hostOps1 (W2 m c) (Proc.devRef .tc main_v3) = _
  after_results
  rfl
theorem v3_main_v4 (c : Dev nD) :
    (Hand.V3 m c main_v4 : S4x4096x512.Idx → EReal)
      = fun i => shapeCast S4x4096x512 (Hand.V2 m c main_v1_2 : S16384x512.Idx → EReal)
          Facts₀.shapeCasts_S16384x512_S4x4096x512 i := by
  show StableHlo.after hostOps1 (W2 m c) (Proc.devRef .tc main_v4) = _
  after_results
  rfl

/-- The output weights and bias reach the second call as launched. -/
theorem wo3_eq (c : Dev nD) : (Hand.V3 m c main_arg7 : S512x512.Idx → EReal) = m ((c : Thread nD τ).loc main_arg7) :=
  calc W3 m c (Proc.devRef .tc main_arg7)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem bo3_eq (c : Dev nD) : (Hand.V3 m c main_arg8 : S512.Idx → EReal) = m ((c : Thread nD τ).loc main_arg8) :=
  calc W3 m c (Proc.devRef .tc main_arg8)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## The three arrays the second call reads are the three projections -/

/-- The queries: the first output of the first call, viewed as [4, 4096, 512]. -/
theorem q3_eq (c : Dev nD) :
    (Hand.V3 m c main_v2 : S4x4096x512.Idx → EReal)
      = Cert.Attn.Entry.projArr (m ((c : Thread nD τ).loc main_arg0)) (m ((c : Thread nD τ).loc main_arg1))
          (m ((c : Thread nD τ).loc main_arg2)) := by
  have e2 : (Hand.V2 m c main_v1_0 : S16384x512.Idx → EReal)
      = Cert.Attn.Val0.projRows (Hand.V1 m c main_v0) (Hand.V1 m c main_arg1) (Hand.V1 m c main_arg2) :=
    (W2_arr m c 7).trans (Cert.Attn.Val0.final0_7 (Hand.V1 m) c)
  rw [v3_main_v2, e2, v1_main_v0, v1_main_arg1, v1_main_arg2]
  exact reshape_projRows _ _ _ _ _

/-- The keys: the second output. -/
theorem k3_eq (c : Dev nD) :
    (Hand.V3 m c main_v3 : S4x4096x512.Idx → EReal)
      = Cert.Attn.Entry.projArr (m ((c : Thread nD τ).loc main_arg0)) (m ((c : Thread nD τ).loc main_arg3))
          (m ((c : Thread nD τ).loc main_arg4)) := by
  have e2 : (Hand.V2 m c main_v1_1 : S16384x512.Idx → EReal)
      = Cert.Attn.Val0.projRows (Hand.V1 m c main_v0) (Hand.V1 m c main_arg3) (Hand.V1 m c main_arg4) :=
    (W2_arr m c 8).trans (Cert.Attn.Val0.final0_8 (Hand.V1 m) c)
  rw [v3_main_v3, e2, v1_main_v0, v1_main_arg3, v1_main_arg4]
  exact reshape_projRows _ _ _ _ _

/-- The values: the third output. -/
theorem v3_eq (c : Dev nD) :
    (Hand.V3 m c main_v4 : S4x4096x512.Idx → EReal)
      = Cert.Attn.Entry.projArr (m ((c : Thread nD τ).loc main_arg0)) (m ((c : Thread nD τ).loc main_arg5))
          (m ((c : Thread nD τ).loc main_arg6)) := by
  have e2 : (Hand.V2 m c main_v1_2 : S16384x512.Idx → EReal)
      = Cert.Attn.Val0.projRows (Hand.V1 m c main_v0) (Hand.V1 m c main_arg5) (Hand.V1 m c main_arg6) :=
    (W2_arr m c 9).trans (Cert.Attn.Val0.final0_9 (Hand.V1 m) c)
  rw [v3_main_v4, e2, v1_main_v0, v1_main_arg5, v1_main_arg6]
  exact reshape_projRows _ _ _ _ _

end Cert.Attn.Host

end
-- ==== Proof.Final.lean ====
/-
  The idealized kernel's run, read as values. The result buffer ends at what the flash-attention call's write-backs leave:
  block (batch, query tile) of it is the online softmax's final statistics divided and projected, which is the
  specification's entry because the three arrays the call reads are the specification's projections of the input (the first
  call's closed form carried through the reshapes), the scores of a query row against all 4096 keys are visited tile by
  tile, and every quantity is a real number when the inputs are.
-/
import proofs.«145638_j28441273434636_2_alg».proof.Proof.Run
import proofs.«145638_j28441273434636_2_alg».proof.Proof.Val1
import proofs.«145638_j28441273434636_2_alg».proof.Proof.HostVals
import proofs.«145638_j28441273434636_2_alg».proof.Proof.Entry

noncomputable section

namespace Cert.Attn.Final

open Cert.KernelIdeal Cert.KernelIdeal.Gen Cert.KernelIdeal.Hand
open Idealize.ShloMosaic Idealize.ShloMosaic.TcCoe Idealize.ShloMosaic.ValueIdx Idealize.SL.Sem
open Idealize.ShloMosaic.OnlineSoftmax

variable (m : (ℓ : Loc nD τ sig) → Buf (Elt Ideal) ℓ) (ρ : Dev nD → PrngReg)

/-- Every entry of every argument array is a real number, on every core. -/
def Reals : Prop := ∀ c : Dev nD,
  Cert.Attn.AllReal (S := S4x4096x512) (m ((c.tc : Thread nD τ).loc main_arg0))
  ∧ Cert.Attn.AllReal (S := S512x512) (m ((c.tc : Thread nD τ).loc main_arg1))
  ∧ Cert.Attn.AllReal (S := S512) (m ((c.tc : Thread nD τ).loc main_arg2))
  ∧ Cert.Attn.AllReal (S := S512x512) (m ((c.tc : Thread nD τ).loc main_arg3))
  ∧ Cert.Attn.AllReal (S := S512) (m ((c.tc : Thread nD τ).loc main_arg4))
  ∧ Cert.Attn.AllReal (S := S512x512) (m ((c.tc : Thread nD τ).loc main_arg5))
  ∧ Cert.Attn.AllReal (S := S512) (m ((c.tc : Thread nD τ).loc main_arg6))
  ∧ Cert.Attn.AllReal (S := S512x512) (m ((c.tc : Thread nD τ).loc main_arg7))
  ∧ Cert.Attn.AllReal (S := S512) (m ((c.tc : Thread nD τ).loc main_arg8))

/-- The result buffer's final contents are the specification's function of the arguments. -/
theorem kernel_value (hr : Reals m) (c : Dev nD) :
    W4 m c (Proc.devRef .tc main_v5) = Cert.Attn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  obtain ⟨h0, h1, h2, h3, h4, h5, h6, h7, h8⟩ := hr c
  have hQ : ∀ x, IsReal ((Hand.V3 m c main_v2 : S4x4096x512.Idx → EReal) x) := fun x => by
    rw [Cert.Attn.Host.q3_eq]; exact Cert.Attn.Entry.projArr_isReal _ _ _ h0 h1 h2 x
  have hK : ∀ x, IsReal ((Hand.V3 m c main_v3 : S4x4096x512.Idx → EReal) x) := fun x => by
    rw [Cert.Attn.Host.k3_eq]; exact Cert.Attn.Entry.projArr_isReal _ _ _ h0 h3 h4 x
  have hV : ∀ x, IsReal ((Hand.V3 m c main_v4 : S4x4096x512.Idx → EReal) x) := fun x => by
    rw [Cert.Attn.Host.v3_eq]; exact Cert.Attn.Entry.projArr_isReal _ _ _ h0 h5 h6 x
  rw [result_at m c, Cert.Attn.Val1.final1 (Hand.V3 m) c hQ hK hV]
  funext i
  rw [Cert.Attn.Host.q3_eq, Cert.Attn.Host.k3_eq, Cert.Attn.Host.v3_eq, Cert.Attn.Host.wo3_eq, Cert.Attn.Host.bo3_eq]
  rfl

/-- THE KERNEL'S RUN: every weakly fair execution terminates with the result at the specification's function of the
    arguments and every argument as launched. -/
theorem kernel_run (hr : Reals m) : θ_run defs (onTc (τ := τ) (main (F := Ideal))) ⟨m, fun _ => 0, ρ⟩ (fun r => ∀ c : Dev nD,
      r.2.mem ((c.tc : Thread nD τ).loc main_v5) = Cert.Attn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_v5 (by decide))).trans (kernel_value m hr c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c)⟩) (run_all m ρ)

end Cert.Attn.Final

end
-- ==== Proof.Finite.lean ====
/-
  From the printed precondition to "every entry of every input is a real number".

  The precondition is the conjunction, over the nine inputs, of "every entry x has |x| < +∞": the comparison of max x (−x) with
  the word of +∞, reduced over all axes by "and" from 1. An extended real whose absolute value is below +∞ is neither +∞ nor −∞:
  it is a real number.
-/
import proofs.«145638_j28441273434636_2_alg».proof.Proof.Gen.Pre_finite_inputs
import proofs.«145638_j28441273434636_2_alg».proof.Proof.Spec
import Idealize.ShloMosaic.Lib.ReduceAll
import Idealize.ShloMosaic.Lib.IdealHost

noncomputable section

namespace Cert.Attn.Fin

open Idealize.ShloMosaic Idealize.ShloMosaic.ValueIdx Idealize.ShloMosaic.OnlineSoftmax

/-- The result of a reduction over all axes has one index. -/
instance : Subsingleton Cert.Pre_finite_inputs.S_.Idx := ⟨fun a b => funext fun d => d.elim0⟩

/-- The f32 word 0x7F800000 is +∞. -/
theorem ofBits_inf : Ideal.ofBits .f32 0x7F800000#32 = (⊤ : EReal) := by simp [Ideal.ofBits, Ideal.ieee]

/-- An extended real whose absolute value compares below +∞ is a real number. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  have h' : Ideal.cmp .olt (max x (-x)) (Ideal.ofBits .f32 0x7F800000#32) = 1#1 := h
  rw [ofBits_inf] at h'
  unfold Ideal.cmp at h'
  induction x using EReal.rec with
  | bot => simp at h'
  | coe r => exact ⟨r, rfl⟩
  | top => simp at h'

/-- One input: its `all(|x| < +∞)` being 1 makes every entry a real number. -/
theorem allReal_of_all {s : Shape} {axes : List (Fin s.rank)} (x : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel)
    (e : Host.reduce IntOp.andi (cmpf .olt (Host.absf x) (broadcastInDim s ![] hb (constant (F := Ideal) Cert.Pre_finite_inputs.S_ .f32 0x7F800000#32)))
      (constantI Cert.Pre_finite_inputs.S_ 1 1#1) hr hu ix0 = 1#1) : Cert.Attn.AllReal x := fun i =>
  isReal_of_abs_lt (x i) (Host.reduce_andi_all _ _ hr hu ix0 e i)

/-- THE PRECONDITION DECODED: the nine conjuncts, each an `all(|x| < +∞)`, make every entry of every input a real number. -/
theorem allReal_of_pre (a0 : FVec Ideal Cert.Pre_finite_inputs.S4x4096x512 .f32) (a1 : FVec Ideal Cert.Pre_finite_inputs.S512x512 .f32)
    (a2 : FVec Ideal Cert.Pre_finite_inputs.S512 .f32) (a3 : FVec Ideal Cert.Pre_finite_inputs.S512x512 .f32)
    (a4 : FVec Ideal Cert.Pre_finite_inputs.S512 .f32) (a5 : FVec Ideal Cert.Pre_finite_inputs.S512x512 .f32)
    (a6 : FVec Ideal Cert.Pre_finite_inputs.S512 .f32) (a7 : FVec Ideal Cert.Pre_finite_inputs.S512x512 .f32)
    (a8 : FVec Ideal Cert.Pre_finite_inputs.S512 .f32)
    (h : Cert.Pre_finite_inputs.fn (F := Ideal) a0 a1 a2 a3 a4 a5 a6 a7 a8 = fun _ => 1#1) :
    Cert.Attn.AllReal a0 ∧ Cert.Attn.AllReal a1 ∧ Cert.Attn.AllReal a2 ∧ Cert.Attn.AllReal a3 ∧ Cert.Attn.AllReal a4
      ∧ Cert.Attn.AllReal a5 ∧ Cert.Attn.AllReal a6 ∧ Cert.Attn.AllReal a7 ∧ Cert.Attn.AllReal a8 := by
  have e := congrFun h ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨⟨e0, e1⟩, e2⟩, e3⟩, e4⟩, e5⟩, e6⟩, e7⟩, e8⟩ := e
  exact ⟨allReal_of_all a0 _ _ _ e0, allReal_of_all a1 _ _ _ e1, allReal_of_all a2 _ _ _ e2, allReal_of_all a3 _ _ _ e3,
    allReal_of_all a4 _ _ _ e4, allReal_of_all a5 _ _ _ e5, allReal_of_all a6 _ _ _ e6, allReal_of_all a7 _ _ _ e7,
    allReal_of_all a8 _ _ _ e8⟩

end Cert.Attn.Fin

end
-- ==== Proof.LibRank3Ref.lean ====
/-
  Rank-3 arrays read at an index given by coordinates.

  A reduction over the last axis of an [a, b, c] array gives an [a, b] array; read at (p, q) it ranges over the
  entries (p, q, k). Its result is spread back over a third axis in two ways: kept as an [a, b, 1] column and
  broadcast to [a, b, c] (constant along the last axis), or kept as an [a, 1, b] row and broadcast to [a, c, b]
  (constant along the middle axis). A batched contraction of the last axes of an [B, M, K] and an [B, N, K] array
  reads at (b, m, n) the sum over k of l[b, m, k] · r[b, n, k]. All at the exact (extended real) reading of floats.
-/
import Idealize.ShloMosaic.PureOps.Ideal.Laws
import Idealize.ShloMosaic.Lib.ValueIdx
import Idealize.ShloMosaic.Lib.ValueLayout
import Idealize.ShloMosaic.PureOps.Reduce

open scoped BigOperators

noncomputable section

namespace Cert.Lib.Rank3
open Idealize.ShloMosaic Idealize.ShloMosaic.ValueIdx

/-! ## A reduction over the last axis -/

/-- Over a rank-3 array reduced along its last axis, the source index over (p, q) with last coordinate `k`
    inserted is the index (p, q, k). -/
theorem lift_ix2 {a b c : Nat} (h : (⟨3, ![a, b, c]⟩ : Shape).Reduces [2] ⟨2, ![a, b]⟩) (p : Fin a) (q : Fin b)
    (k : Fin c) : h.lift (ix2 p q) k = ix3 p q k := by
  funext d
  match d with
  | ⟨0, _⟩ => rfl
  | ⟨1, _⟩ => rfl
  | ⟨2, _⟩ => rfl

/-- The host's float sum over the last axis of a rank-3 array, at the extended reals and read at (p, q): the
    initial value plus the sum over `k` of the entries (p, q, k). -/
theorem hostReduceAdd_last {a b c : Nat} {u : Shape} (x : FVec Ideal ⟨3, ![a, b, c]⟩ .f32)
    (init : FVec Ideal u .f32) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduceAdd x init h' hu (ix2 p q) = init (Shape.Idx.first hu) + ∑ k : Fin c, x (ix3 p q k) := by
  show Ideal.hostReduceAdd h' x (init (Shape.Idx.first hu)) (ix2 p q) = _
  rw [Ideal.hostReduceAdd_single h' h]
  exact congrArg (init (Shape.Idx.first hu) + ·)
    (Finset.sum_congr rfl fun k _ => congrArg x (lift_ix2 h p q k))

/-- The host's reduction with the maximum as its body over the last axis of a rank-3 array of extended reals, read
    at (p, q): the fold of `max` from the initial value over `k` of the entries (p, q, k). -/
theorem hostReduce_maximumf_last {a b c : Nat} {u : Shape} (x : (⟨3, ![a, b, c]⟩ : Shape).Idx → EReal)
    (init : u.Idx → EReal) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single _ x init h' h hu (ix2 p q)).trans ?_
  have e : (x ∘ h.lift (ix2 p q)) = fun k : Fin c => x (ix3 p q k) :=
    funext fun k => congrArg x (lift_ix2 h p q k)
  rw [e]
  rfl

/-! ## Keeping the reduced axis and spreading over it -/

variable {α : Type}

/-- An [a, b] array broadcast along the axes [0, 1] to [a, b, 1] reads, at (p, q, u), the array at (p, q). -/
theorem broadcastInDim_ab_ab1_apply {a b : ℕ} (v : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (p : Fin a) (q : Fin b) (u : Fin 1) : broadcastInDim ⟨3, ![a, b, 1]⟩ ![0, 1] h v (ix3 p q u) = v (ix2 p q) := by
  refine broadcastInDim_apply _ h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, b, 1] column broadcast along the axes [0, 1, 2] to [a, b, c] reads, at (p, q, r), the column at (p, q). -/
theorem broadcastInDim_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (p : Fin a) (q : Fin b) (r : Fin c) :
    broadcastInDim ⟨3, ![a, b, c]⟩ ![0, 1, 2] h v (ix3 p q r) = v (ix3 p q (0 : Fin 1)) := by
  refine broadcastInDim_apply _ h v (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, b] array broadcast along the axes [0, 2] to [a, 1, b] reads, at (p, u, q), the array at (p, q). -/
theorem broadcastInDim_ab_a1b_apply {a b : ℕ} (v : (⟨2, ![a, b]⟩ : Shape).Idx → α)
    (h : (⟨2, ![a, b]⟩ : Shape).BroadcastsInDim ⟨3, ![a, 1, b]⟩ (![0, 2] : Fin 2 → Fin (⟨3, ![a, 1, b]⟩ : Shape).rank))
    (p : Fin a) (u : Fin 1) (q : Fin b) : broadcastInDim ⟨3, ![a, 1, b]⟩ ![0, 2] h v (ix3 p u q) = v (ix2 p q) := by
  refine broadcastInDim_apply _ h v (ix3 p u q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An [a, 1, b] row broadcast along the axes [0, 1, 2] to [a, c, b] reads, at (p, r, q), the row at (p, q). -/
theorem broadcastInDim_a1b_acb_apply {a b c : ℕ} (v : (⟨3, ![a, 1, b]⟩ : Shape).Idx → α)
    (h : (⟨3, ![a, 1, b]⟩ : Shape).BroadcastsInDim ⟨3, ![a, c, b]⟩ (![0, 1, 2] : Fin 3 → Fin (⟨3, ![a, c, b]⟩ : Shape).rank))
    (p : Fin a) (r : Fin c) (q : Fin b) :
    broadcastInDim ⟨3, ![a, c, b]⟩ ![0, 1, 2] h v (ix3 p r q) = v (ix3 p (0 : Fin 1) q) := by
  refine broadcastInDim_apply _ h v (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A scalar broadcast to any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun ax => ax.elim0

/-! ## A batched contraction of last axes -/

/-- The dimension numbers of a batched product of rows: [B, M, K] with [B, N, K], the first axes the batch, the last
    axes contracted. -/
abbrev batchRowsDims (B M K N : Nat)
    (h : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ where
  lhsContracting := [2]
  rhsContracting := [2]
  lhsNonContracting := [1]
  rhsNonContracting := [1]
  lhsBatch := [0]
  rhsBatch := [0]
  wf := h

variable (B M K N : Nat) (h : DotDims.WF ⟨3, ![B, M, K]⟩ ⟨3, ![B, N, K]⟩ ⟨3, ![B, M, N]⟩ [2] [2] [1] [1] [0] [0])

/-- The contraction index has one axis, of extent K. -/
theorem batchRows_rank : (batchRowsDims B M K N h).contr.rank = 1 := rfl
theorem batchRows_size : (batchRowsDims B M K N h).contr.size ⟨0, Nat.one_pos⟩ = K := rfl

/-- At result entry (b, m, n) and contraction position k the left operand is read at (b, m, k) … -/
theorem batchRows_lhsIdx (b : Fin B) (m : Fin M) (n : Fin N) (k : Fin K) :
    (batchRowsDims B M K N h).lhsIdx (ix3 b m n) ((contrEquiv1 (batchRowsDims B M K N h) K rfl rfl).symm k) = ix3 b m k :=
  funext fun a => Fin.ext (by
    have hk := contrEquiv1_symm_val (batchRowsDims B M K N h) K rfl rfl k
    match a with
    | ⟨0, _⟩ => rfl
    | ⟨1, _⟩ => rfl
    | ⟨2, _⟩ => exact ((batchRowsDims B M K N h).lhsIdx_val_of_single rfl _ _).trans hk)

/-- … and the right operand at (b, n, k). -/
theorem batchRows_rhsIdx (b : Fin B) (m : Fin M) (n : Fin N) (k : Fin K) :
    (batchRowsDims B M K N h).rhsIdx (ix3 b m n) ((contrEquiv1 (batchRowsDims B M K N h) K rfl rfl).symm k) = ix3 b n k :=
  funext fun a => Fin.ext (by
    have hk := contrEquiv1_symm_val (batchRowsDims B M K N h) K rfl rfl k
    match a with
    | ⟨0, _⟩ => rfl
    | ⟨1, _⟩ => rfl
    | ⟨2, _⟩ => exact ((batchRowsDims B M K N h).rhsIdx_val_of_single rfl _ _).trans hk)

/-- The contraction sum at entry (b, m, n) is the sum over k of l[b, m, k] · r[b, n, k]. -/
theorem batchRows_sum (l : (⟨3, ![B, M, K]⟩ : Shape).Idx → EReal) (r : (⟨3, ![B, N, K]⟩ : Shape).Idx → EReal)
    (b : Fin B) (m : Fin M) (n : Fin N) :
    ∑ k : (batchRowsDims B M K N h).contr.Idx,
        l ((batchRowsDims B M K N h).lhsIdx (ix3 b m n) k) * r ((batchRowsDims B M K N h).rhsIdx (ix3 b m n) k)
      = ∑ k : Fin K, l (ix3 b m k) * r (ix3 b n k) := by
  rw [← Equiv.sum_comp (contrEquiv1 (batchRowsDims B M K N h) K rfl rfl).symm]
  refine Finset.sum_congr rfl fun k _ => ?_
  rw [batchRows_lhsIdx, batchRows_rhsIdx]

/-- A host batched dot product of rows, at entry (b, m, n). -/
theorem dotGeneral_batchRows_apply {φ₁ φ₂ : FTy} (prec : Option ContractPrecision) (sched : HostSchedule)
    (l : FVec Ideal ⟨3, ![B, M, K]⟩ φ₁) (r : FVec Ideal ⟨3, ![B, N, K]⟩ φ₂) (b : Fin B) (m : Fin M) (n : Fin N) :
    FloatOps.dotGeneral (batchRowsDims B M K N h) prec sched l r (ix3 b m n) = ∑ k : Fin K, l (ix3 b m k) * r (ix3 b n k) :=
  (Ideal.dotGeneral_apply (batchRowsDims B M K N h) prec sched l r (ix3 b m n)).trans (batchRows_sum B M K N h l r b m n)

end Cert.Lib.Rank3

end
-- ==== Proof.RefSoftmax.lean ====
/-
  The reference's softmax, read at an entry.

  The scores are the batched products of query rows with key rows, times the scale. The reference takes the largest score of a
  row starting from −∞ (and once more against −∞, which changes nothing), subtracts it, exponentiates, sums the exponentials and
  divides each by the sum. At an entry these are the specification's score, the largest score of the row, the exponential of
  the difference, the normalizer of the row, and the quotient of the last two. For real inputs every score is a real number,
  and so is the largest of a row.
-/
import proofs.«145638_j28441273434636_2_alg».proof.Proof.RefProj
import proofs.«145638_j28441273434636_2_alg».proof.Proof.LibRank3Ref

noncomputable section

namespace Cert.Attn.Ref

open Cert.ReferenceIdeal Cert.ReferenceIdeal.Read Idealize.ShloMosaic Idealize.ShloMosaic.ValueIdx Idealize.ShloMosaic.OnlineSoftmax

/-- The left fold of the maximum from −∞ over a finite set is its supremum. -/
theorem fold_max_eq_sup {ι : Type*} (S : Finset ι) (f : ι → EReal) : S.fold max ⊥ f = S.sup f := by
  classical
  induction S using Finset.induction_on with
  | empty => simp
  | insert a S ha ih => rw [Finset.fold_insert ha, Finset.sup_insert, ih]

section
variable (x0 : T3) (x1 : T2) (x2 : T1) (x3 : T2) (x4 : T1)

/-- The reference's scale, broadcast over the scores, is the specification's scale everywhere. -/
theorem v15_apply (i : S4x4096x4096.Idx) : val_main_v15 (F := Ideal) i = Cert.Attn.scale := by
  rw [val_main_v15_apply, val_main_v13_apply, val_main_cst_0_apply, val_main_v12_apply, val_main_cst_apply]
  exact scale_eq

/-- The scaled scores at entry (n, s, t). -/
theorem v16_apply (n : Fin 4) (s t : Fin 4096) :
    val_main_v16 (F := Ideal) x0 x1 x2 x3 x4 (ix3 n s t)
      = Cert.Attn.score (Cert.Attn.proj x0 x1 x2) (Cert.Attn.proj x0 x3 x4) n s t := by
  rw [val_main_v16_apply, val_main_v14_apply, v15_apply]
  unfold Cert.Attn.score
  refine congrArg (· * Cert.Attn.scale) (Finset.sum_congr rfl fun k _ => ?_)
  have el : lidx_main_v14 (ix3 n s t) k = ix3 n s k := by
    funext a; match a with | ⟨0, _⟩ => rfl | ⟨1, _⟩ => rfl | ⟨2, _⟩ => rfl
  have er : ridx_main_v14 (ix3 n s t) k = ix3 n t k := by
    funext a; match a with | ⟨0, _⟩ => rfl | ⟨1, _⟩ => rfl | ⟨2, _⟩ => rfl
  rw [el, er, v3_apply, v7_apply]

/-- The largest score of row (n, s): the reduction from −∞, taken once more against −∞. -/
theorem v19_apply (n : Fin 4) (s : Fin 4096) :
    val_main_v19 (F := Ideal) x0 x1 x2 x3 x4 (ix2 n s)
      = top Finset.univ (Cert.Attn.score (Cert.Attn.proj x0 x1 x2) (Cert.Attn.proj x0 x3 x4) n s) := by
  have h17 : val_main_v17 (F := Ideal) x0 x1 x2 x3 x4 (ix2 n s)
      = (Finset.univ : Finset (Fin 4096)).fold max ⊥ (fun k => val_main_v16 (F := Ideal) x0 x1 x2 x3 x4 (ix3 n s k)) := by
    unfold val_main_v17
    generalize val_main_v16 (F := Ideal) x0 x1 x2 x3 x4 = y
    rw [Cert.Lib.Rank3.hostReduce_maximumf_last y _ _ (by decide) _ n s, val_main_cst_1_apply]
    exact congrArg (fun z => (Finset.univ : Finset (Fin 4096)).fold max z fun k => y (ix3 n s k)) ofBits_neg_inf
  rw [val_main_v19_apply, val_main_v18_apply, val_main_cst_2_apply, h17, fold_max_eq_sup]
  have e : (fun k => val_main_v16 (F := Ideal) x0 x1 x2 x3 x4 (ix3 n s k))
      = Cert.Attn.score (Cert.Attn.proj x0 x1 x2) (Cert.Attn.proj x0 x3 x4) n s := funext fun k => v16_apply x0 x1 x2 x3 x4 n s k
  rw [e]
  exact max_eq_right (le_of_eq_of_le ofBits_neg_inf bot_le)

end

section
variable (x0 : T3) (x1 : T2) (x2 : T1) (x3 : T2) (x4 : T1)

/-- The exponential of a score less the largest of its row, at entry (n, s, t). -/
theorem v23_apply (n : Fin 4) (s t : Fin 4096) :
    val_main_v23 (F := Ideal) x0 x1 x2 x3 x4 (ix3 n s t)
      = Ideal.exp (Cert.Attn.score (Cert.Attn.proj x0 x1 x2) (Cert.Attn.proj x0 x3 x4) n s t
          - top Finset.univ (Cert.Attn.score (Cert.Attn.proj x0 x1 x2) (Cert.Attn.proj x0 x3 x4) n s)) := by
  have e : idx_main_v20 (idx_main_v21 (ix3 n s t)) = ix2 n s := by
    funext a; match a with | ⟨0, _⟩ => rfl | ⟨1, _⟩ => rfl
  rw [val_main_v23_apply, val_main_v22_apply, val_main_v21_apply, val_main_v20_apply, e, v16_apply, v19_apply]
  rfl

/-- The sum of the exponentials of row (n, s): the normalizer. -/
theorem v24_apply (n : Fin 4) (s : Fin 4096) :
    val_main_v24 (F := Ideal) x0 x1 x2 x3 x4 (ix2 n s)
      = norm Finset.univ (Cert.Attn.score (Cert.Attn.proj x0 x1 x2) (Cert.Attn.proj x0 x3 x4) n s) := by
  rw [val_main_v24_apply, val_main_cst_3_apply]
  unfold OnlineSoftmax.norm
  refine (congrArg (· + _) Ideal.ofBits_zero_f32).trans ((zero_add _).trans (Finset.sum_congr rfl fun k _ => ?_))
  have e : idx_main_v24 (ix2 n s) k = ix3 n s k := by
    funext a; match a with | ⟨0, _⟩ => rfl | ⟨1, _⟩ => rfl | ⟨2, _⟩ => rfl
  rw [e, v23_apply]

/-- The softmax weight at entry (n, s, t): the exponential over the normalizer. -/
theorem v27_apply (n : Fin 4) (s t : Fin 4096) :
    val_main_v27 (F := Ideal) x0 x1 x2 x3 x4 (ix3 n s t)
      = Ideal.div (Ideal.exp (Cert.Attn.score (Cert.Attn.proj x0 x1 x2) (Cert.Attn.proj x0 x3 x4) n s t
          - top Finset.univ (Cert.Attn.score (Cert.Attn.proj x0 x1 x2) (Cert.Attn.proj x0 x3 x4) n s)))
        (norm Finset.univ (Cert.Attn.score (Cert.Attn.proj x0 x1 x2) (Cert.Attn.proj x0 x3 x4) n s)) := by
  have e : idx_main_v25 (idx_main_v26 (ix3 n s t)) = ix2 n s := by
    funext a; match a with | ⟨0, _⟩ => rfl | ⟨1, _⟩ => rfl
  rw [val_main_v27_apply, val_main_v26_apply, val_main_v25_apply, e, v23_apply, v24_apply]
  rfl

/-- Every score of real inputs is a real number. -/
theorem score_isReal (h0 : Cert.Attn.AllReal (S := S4x4096x512) x0) (h1 : Cert.Attn.AllReal (S := S512x512) x1)
    (h2 : Cert.Attn.AllReal (S := S512) x2) (h3 : Cert.Attn.AllReal (S := S512x512) x3) (h4 : Cert.Attn.AllReal (S := S512) x4)
    (n : Fin 4) (s t : Fin 4096) :
    IsReal (Cert.Attn.score (Cert.Attn.proj x0 x1 x2) (Cert.Attn.proj x0 x3 x4) n s t) :=
  IsReal.mul (IsReal.sum _ _ fun p _ => IsReal.mul (proj_isReal x0 x1 x2 h0 h1 h2 n s p) (proj_isReal x0 x3 x4 h0 h3 h4 n t p))
    scale_isReal

end

/-- THE ATTENDED VALUES: the softmax weights of row (n, s) times the value rows, summed over the keys, is the specification's
    quotient of the weighted statistic by the plain one. -/
theorem v28_apply (x0 : T3) (x1 : T2) (x2 : T1) (x3 : T2) (x4 : T1) (x5 : T2) (x6 : T1)
    (h0 : Cert.Attn.AllReal (S := S4x4096x512) x0) (h1 : Cert.Attn.AllReal (S := S512x512) x1)
    (h2 : Cert.Attn.AllReal (S := S512) x2) (h3 : Cert.Attn.AllReal (S := S512x512) x3) (h4 : Cert.Attn.AllReal (S := S512) x4)
    (h5 : Cert.Attn.AllReal (S := S512x512) x5) (h6 : Cert.Attn.AllReal (S := S512) x6)
    (n : Fin 4) (s : Fin 4096) (p : Fin 512) :
    val_main_v28 (F := Ideal) x0 x1 x2 x3 x4 x5 x6 (ix3 n s p)
      = Cert.Attn.attended (Cert.Attn.proj x0 x1 x2) (Cert.Attn.proj x0 x3 x4) (Cert.Attn.proj x0 x5 x6) n s p := by
  have hterm : ∀ k : Fin 4096, val_main_v27 (F := Ideal) x0 x1 x2 x3 x4 (lidx_main_v28 (ix3 n s p) k)
        * val_main_v11 (F := Ideal) x0 x5 x6 (ridx_main_v28 (ix3 n s p) k)
      = Ideal.div (Ideal.exp (Cert.Attn.score (Cert.Attn.proj x0 x1 x2) (Cert.Attn.proj x0 x3 x4) n s k
          - top Finset.univ (Cert.Attn.score (Cert.Attn.proj x0 x1 x2) (Cert.Attn.proj x0 x3 x4) n s)))
        (norm Finset.univ (Cert.Attn.score (Cert.Attn.proj x0 x1 x2) (Cert.Attn.proj x0 x3 x4) n s))
        * (fun t => Cert.Attn.proj x0 x5 x6 n t p) k := fun k => by
    have el : lidx_main_v28 (ix3 n s p) k = ix3 n s k := by
      funext a; match a with | ⟨0, _⟩ => rfl | ⟨1, _⟩ => rfl | ⟨2, _⟩ => rfl
    have er : ridx_main_v28 (ix3 n s p) k = ix3 n k p := by
      funext a; match a with | ⟨0, _⟩ => rfl | ⟨1, _⟩ => rfl | ⟨2, _⟩ => rfl
    rw [el, er, v27_apply, v11_apply]
  have hs : ∀ k ∈ (Finset.univ : Finset (Fin 4096)),
      IsScore (Cert.Attn.score (Cert.Attn.proj x0 x1 x2) (Cert.Attn.proj x0 x3 x4) n s k) :=
    fun k _ => (score_isReal x0 x1 x2 x3 x4 h0 h1 h2 h3 h4 n s k).isScore
  rw [val_main_v28_apply, Finset.sum_congr rfl fun k _ => hterm k]
  unfold Cert.Attn.attended
  exact sum_div_norm Finset.univ _ _ hs (fun k _ => proj_isReal x0 x5 x6 h0 h5 h6 n k p)
    (top_isReal_of_mem Finset.univ _ hs (Finset.mem_univ (0 : Fin 4096)) (score_isReal x0 x1 x2 x3 x4 h0 h1 h2 h3 h4 n s 0))

end Cert.Attn.Ref

end
-- ==== Proof.RefValue.lean ====
/-
  The reference computes the specification.

  Its last operations contract the attended values with the output weights and add the output bias spread over the batch and
  the rows; with the attended values read as the specification's quotient, the result at entry (n, s, d) is the specification's
  Σ_p attended[n,s,p]·Wo[p,d] + bo[d]. Every weakly fair execution of the reference therefore ends with the result buffer at the
  specification's array of the arguments, and the arguments unchanged.
-/
import proofs.«145638_j28441273434636_2_alg».proof.Proof.RefSoftmax
import proofs.«145638_j28441273434636_2_alg».proof.Proof.Gen.ReferenceIdeal.Run

noncomputable section

namespace Cert.Attn.Ref

open Cert.ReferenceIdeal Cert.ReferenceIdeal.Read Idealize.ShloMosaic Idealize.ShloMosaic.ValueIdx Idealize.ShloMosaic.OnlineSoftmax

/-- THE REFERENCE'S RESULT IS THE SPECIFICATION, for inputs whose entries are all real numbers. -/
theorem result_eq (x0 : T3) (x1 : T2) (x2 : T1) (x3 : T2) (x4 : T1) (x5 : T2) (x6 : T1) (x7 : T2) (x8 : T1)
    (h0 : Cert.Attn.AllReal (S := S4x4096x512) x0) (h1 : Cert.Attn.AllReal (S := S512x512) x1) (h2 : Cert.Attn.AllReal (S := S512) x2) (h3 : Cert.Attn.AllReal (S := S512x512) x3) (h4 : Cert.Attn.AllReal (S := S512) x4) (h5 : Cert.Attn.AllReal (S := S512x512) x5) (h6 : Cert.Attn.AllReal (S := S512) x6) (h7 : Cert.Attn.AllReal (S := S512x512) x7) (h8 : Cert.Attn.AllReal (S := S512) x8) :
    val_main_v32 (F := Ideal) x0 x1 x2 x3 x4 x5 x6 x7 x8 = Cert.Attn.out x0 x1 x2 x3 x4 x5 x6 x7 x8 := by
  funext i
  obtain ⟨n, s, d, rfl⟩ : ∃ (n : Fin 4) (s : Fin 4096) (d : Fin 512), i = ix3 n s d := ⟨i 0, i 1, i 2, eq_ix3 i⟩
  rw [val_main_v32_apply, val_main_v29_apply, val_main_v31_apply, val_main_v30_apply]
  show _ = (∑ p : Fin 512, Cert.Attn.attended (Cert.Attn.proj x0 x1 x2) (Cert.Attn.proj x0 x3 x4) (Cert.Attn.proj x0 x5 x6) n s p
      * x7 (ix2 p d)) + x8 (ix1 d)
  refine congr (congrArg _ (Finset.sum_congr rfl fun k _ => ?_)) ?_
  · have el : lidx_main_v29 (ix3 n s d) k = ix3 n s k := by
      funext a; match a with | ⟨0, _⟩ => rfl | ⟨1, _⟩ => rfl | ⟨2, _⟩ => rfl
    have er : ridx_main_v29 (ix3 n s d) k = ix2 k d := by
      funext a; match a with | ⟨0, _⟩ => rfl | ⟨1, _⟩ => rfl
    rw [el, er, v28_apply x0 x1 x2 x3 x4 x5 x6 h0 h1 h2 h3 h4 h5 h6]
  · refine congrArg x8 ?_
    funext a; match a with | ⟨0, _⟩ => rfl

open Idealize.ShloMosaic.TcCoe Idealize.SL.Sem in
/-- THE REFERENCE'S RUN: from a memory whose nine arguments hold real numbers only, every weakly fair execution terminates with
    the result at the specification's array of the arguments, and the arguments unchanged. -/
theorem run (m : (ℓ : Loc nD τ sig) → Buf (Elt Ideal) ℓ) (ρ : Dev nD → PrngReg)
    (hr : ∀ c : Dev nD, Cert.Attn.AllReal (S := S4x4096x512) (m ((c.tc : Thread nD τ).loc main_arg0))
      ∧ Cert.Attn.AllReal (S := S512x512) (m ((c.tc : Thread nD τ).loc main_arg1))
      ∧ Cert.Attn.AllReal (S := S512) (m ((c.tc : Thread nD τ).loc main_arg2))
      ∧ Cert.Attn.AllReal (S := S512x512) (m ((c.tc : Thread nD τ).loc main_arg3))
      ∧ Cert.Attn.AllReal (S := S512) (m ((c.tc : Thread nD τ).loc main_arg4))
      ∧ Cert.Attn.AllReal (S := S512x512) (m ((c.tc : Thread nD τ).loc main_arg5))
      ∧ Cert.Attn.AllReal (S := S512) (m ((c.tc : Thread nD τ).loc main_arg6))
      ∧ Cert.Attn.AllReal (S := S512x512) (m ((c.tc : Thread nD τ).loc main_arg7))
      ∧ Cert.Attn.AllReal (S := S512) (m ((c.tc : Thread nD τ).loc main_arg8))) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v32) = Cert.Attn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run Cert.ReferenceIdeal.defs _ _).mono (fun _ h c => ⟨(h c).1.trans ((val_main_v32_eq m c).trans
      (result_eq _ _ _ _ _ _ _ _ _ (hr c).1 (hr c).2.1 (hr c).2.2.1 (hr c).2.2.2.1 (hr c).2.2.2.2.1 (hr c).2.2.2.2.2.1
        (hr c).2.2.2.2.2.2.1 (hr c).2.2.2.2.2.2.2.1 (hr c).2.2.2.2.2.2.2.2)), (h c).2⟩)
    (Cert.ReferenceIdeal.Value.run (F := Ideal) m ρ)

end Cert.Attn.Ref

end
-- ==== Proof.lean ====
/-
  The kernel computes attention in two pallas_calls — the three projections q, k, v = x·W + b of the input, then, per
  batch and tile of 512 query rows, a sweep over the eight tiles of key rows that keeps for each query row the largest
  score seen, the sum of exp(score − largest) and that sum weighted by the value rows, rescaling both whenever the largest
  grows, and at the last tile divides the weighted sum by the plain one and applies the output projection — and the
  reference computes the same function directly: softmax over all 4096 keys of (q·kᵀ)/sqrt(64), times v, projected. At the
  exact extended reals the two agree entry by entry whenever the inputs are finite: the running statistics after a prefix
  of tiles are the statistics of that prefix (each rescaling is exp(a)·exp(b) = exp(a + b) on real numbers), the quotient
  of the final statistics is the softmax-weighted sum, and 1/sqrt(64) is the kernel's 0.125.
  The three frame claims: both kernel programs run to the end from any memory, nothing faulting, and write no argument
  (each grid point's body is run symbolically, case by case, and the launch's bookkeeping is the pipeline library's); the
  reference is a straight line of host operations. The ideal pass rewrote nothing.
-/
import proofs.«145638_j28441273434636_2_alg».proof.Defs
import proofs.«145638_j28441273434636_2_alg».proof.Proof.Gen.Kernel
import proofs.«145638_j28441273434636_2_alg».proof.Proof.Gen.KernelIdeal
import proofs.«145638_j28441273434636_2_alg».proof.Proof.Gen.ReferenceIdeal
import proofs.«145638_j28441273434636_2_alg».proof.Proof.Gen.ReferenceIdeal.Run
import proofs.«145638_j28441273434636_2_alg».proof.Proof.Gen.ReferenceIdeal.Read
import proofs.«145638_j28441273434636_2_alg».proof.Proof.Gen.Pre_finite_inputs
import proofs.«145638_j28441273434636_2_alg».proof.Proof.KRun
import proofs.«145638_j28441273434636_2_alg».proof.Proof.Final
import proofs.«145638_j28441273434636_2_alg».proof.Proof.Finite
import proofs.«145638_j28441273434636_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Finite inputs are real numbers, array by array, on every core. -/
theorem reals_of_pre (m : (ℓ : Loc Cert.KernelIdeal.nD Cert.KernelIdeal.τ Cert.KernelIdeal.sig) → Buf (Elt Ideal) ℓ)
    (h : Cert.Pre_KernelIdeal m) : Cert.Attn.Final.Reals m := fun c =>
  Cert.Attn.Fin.allReal_of_pre _ _ _ _ _ _ _ _ _ (h c)

/-- From memories agreeing on the arguments both idealized programs end with the specification's function of them. -/
theorem algebraic : Cert.algebraic_KernelIdeal_ReferenceIdeal := by
  intro m ρ m' ρ' hpre hagree
  have hr := reals_of_pre m hpre
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Attn.Final.kernel_run m ρ hr, ?_⟩
  have hr' : ∀ c : Dev Cert.ReferenceIdeal.nD,
      Cert.Attn.AllReal (S := Cert.ReferenceIdeal.S4x4096x512) (m' ((c.tc : Thread Cert.ReferenceIdeal.nD Cert.ReferenceIdeal.τ).loc Cert.ReferenceIdeal.main_arg0))
      ∧ Cert.Attn.AllReal (S := Cert.ReferenceIdeal.S512x512) (m' ((c.tc : Thread Cert.ReferenceIdeal.nD Cert.ReferenceIdeal.τ).loc Cert.ReferenceIdeal.main_arg1))
      ∧ Cert.Attn.AllReal (S := Cert.ReferenceIdeal.S512) (m' ((c.tc : Thread Cert.ReferenceIdeal.nD Cert.ReferenceIdeal.τ).loc Cert.ReferenceIdeal.main_arg2))
      ∧ Cert.Attn.AllReal (S := Cert.ReferenceIdeal.S512x512) (m' ((c.tc : Thread Cert.ReferenceIdeal.nD Cert.ReferenceIdeal.τ).loc Cert.ReferenceIdeal.main_arg3))
      ∧ Cert.Attn.AllReal (S := Cert.ReferenceIdeal.S512) (m' ((c.tc : Thread Cert.ReferenceIdeal.nD Cert.ReferenceIdeal.τ).loc Cert.ReferenceIdeal.main_arg4))
      ∧ Cert.Attn.AllReal (S := Cert.ReferenceIdeal.S512x512) (m' ((c.tc : Thread Cert.ReferenceIdeal.nD Cert.ReferenceIdeal.τ).loc Cert.ReferenceIdeal.main_arg5))
      ∧ Cert.Attn.AllReal (S := Cert.ReferenceIdeal.S512) (m' ((c.tc : Thread Cert.ReferenceIdeal.nD Cert.ReferenceIdeal.τ).loc Cert.ReferenceIdeal.main_arg6))
      ∧ Cert.Attn.AllReal (S := Cert.ReferenceIdeal.S512x512) (m' ((c.tc : Thread Cert.ReferenceIdeal.nD Cert.ReferenceIdeal.τ).loc Cert.ReferenceIdeal.main_arg7))
      ∧ Cert.Attn.AllReal (S := Cert.ReferenceIdeal.S512) (m' ((c.tc : Thread Cert.ReferenceIdeal.nD Cert.ReferenceIdeal.τ).loc Cert.ReferenceIdeal.main_arg8)) := fun c => by
    obtain ⟨e0, e1, e2, e3, e4, e5, e6, e7, e8⟩ := hagree c
    rw [e0, e1, e2, e3, e4, e5, e6, e7, e8]
    exact hr c
  refine (θ_run Cert.ReferenceIdeal.defs _ _).mono (fun _ h c => ⟨?_, (h c).2⟩) (Cert.Attn.Ref.run m' ρ' hr')
  obtain ⟨e0, e1, e2, e3, e4, e5, e6, e7, e8⟩ := hagree c
  rw [(h c).1, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
